-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8x256 : Shape := ⟨3, ![16384, 8, 256]⟩
abbrev S7x2048x256 : Shape := ⟨3, ![7, 2048, 256]⟩
abbrev S7x256 : Shape := ⟨2, ![7, 256]⟩
abbrev S7x256x174 : Shape := ⟨3, ![7, 256, 174]⟩
abbrev S7x174 : Shape := ⟨2, ![7, 174]⟩
abbrev S_ : Shape := ⟨0, ![]⟩

class Facts : Prop where
  bcast_S_S16384x8x256 : S_.BroadcastsInDim S16384x8x256 (![] : Fin 0 → Fin S16384x8x256.rank)
  reducesTo_S16384x8x256_S_d0_1_2 : S16384x8x256.ReducesTo [0, 1, 2] S_
  h_S_ : 0 < S_.numel
  bcast_S_S7x2048x256 : S_.BroadcastsInDim S7x2048x256 (![] : Fin 0 → Fin S7x2048x256.rank)
  reducesTo_S7x2048x256_S_d0_1_2 : S7x2048x256.ReducesTo [0, 1, 2] S_
  bcast_S_S7x256 : S_.BroadcastsInDim S7x256 (![] : Fin 0 → Fin S7x256.rank)
  reducesTo_S7x256_S_d0_1 : S7x256.ReducesTo [0, 1] S_
  bcast_S_S7x256x174 : S_.BroadcastsInDim S7x256x174 (![] : Fin 0 → Fin S7x256x174.rank)
  reducesTo_S7x256x174_S_d0_1_2 : S7x256x174.ReducesTo [0, 1, 2] S_
  bcast_S_S7x174 : S_.BroadcastsInDim S7x174 (![] : Fin 0 → Fin S7x174.rank)
  reducesTo_S7x174_S_d0_1 : S7x174.ReducesTo [0, 1] S_

variable [Facts]

def fn_part1 {F : FTy → Type} [FloatOps F] (main_arg4 : FVec F S7x174 .f32) (main_v13 : IVec S_ 1) (main_v16 : IVec S7x256x174 1) : IVec S_ 1 :=
  let main_c_5 : IVec S_ 1 := constantI S_ 1 1#1
  let main_v17 : IVec S_ 1 := (fun x v => Host.reduce IntOp.andi x v reducesTo_S7x256x174_S_d0_1_2 h_S_) main_v16 main_c_5
  let main_v18 : IVec S_ 1 := andi main_v13 main_v17
  let main_v19 : FVec F S7x174 .f32 := Host.absf main_arg4
  let main_cst_6 : FVec F S_ .f32 := constant S_ .f32 0x7F800000#32
  let main_v20 : FVec F S7x174 .f32 := broadcastInDim S7x174 ![] bcast_S_S7x174 main_cst_6
  let main_v21 : IVec S7x174 1 := cmpf .olt main_v19 main_v20
  let main_c_7 : IVec S_ 1 := constantI S_ 1 1#1
  let main_v22 : IVec S_ 1 := (fun x v => Host.reduce IntOp.andi x v reducesTo_S7x174_S_d0_1 h_S_) main_v21 main_c_7
  let main_v23 : IVec S_ 1 := andi main_v18 main_v22
  main_v23

def fn {F : FTy → Type} [FloatOps F] (main_arg0 : FVec F S16384x8x256 .f32) (main_arg1 : FVec F S7x2048x256 .f32) (main_arg2 : FVec F S7x256 .f32) (main_arg3 : FVec F S7x256x174 .f32) (main_arg4 : FVec F S7x174 .f32) : IVec S_ 1 :=
  let main_v0 : FVec F S16384x8x256 .f32 := Host.absf main_arg0
  let main_cst : FVec F S_ .f32 := constant S_ .f32 0x7F800000#32
  let main_v1 : FVec F S16384x8x256 .f32 := broadcastInDim S16384x8x256 ![] bcast_S_S16384x8x256 main_cst
  let main_v2 : IVec S16384x8x256 1 := cmpf .olt main_v0 main_v1
  let main_c : IVec S_ 1 := constantI S_ 1 1#1
  let main_v3 : IVec S_ 1 := (fun x v => Host.reduce IntOp.andi x v reducesTo_S16384x8x256_S_d0_1_2 h_S_) main_v2 main_c
  let main_v4 : FVec F S7x2048x256 .f32 := Host.absf main_arg1
  let main_cst_0 : FVec F S_ .f32 := constant S_ .f32 0x7F800000#32
  let main_v5 : FVec F S7x2048x256 .f32 := broadcastInDim S7x2048x256 ![] bcast_S_S7x2048x256 main_cst_0
  let main_v6 : IVec S7x2048x256 1 := cmpf .olt main_v4 main_v5
  let main_c_1 : IVec S_ 1 := constantI S_ 1 1#1
  let main_v7 : IVec S_ 1 := (fun x v => Host.reduce IntOp.andi x v reducesTo_S7x2048x256_S_d0_1_2 h_S_) main_v6 main_c_1
  let main_v8 : IVec S_ 1 := andi main_v3 main_v7
  let main_v9 : FVec F S7x256 .f32 := Host.absf main_arg2
  let main_cst_2 : FVec F S_ .f32 := constant S_ .f32 0x7F800000#32
  let main_v10 : FVec F S7x256 .f32 := broadcastInDim S7x256 ![] bcast_S_S7x256 main_cst_2
  let main_v11 : IVec S7x256 1 := cmpf .olt main_v9 main_v10
  let main_c_3 : IVec S_ 1 := constantI S_ 1 1#1
  let main_v12 : IVec S_ 1 := (fun x v => Host.reduce IntOp.andi x v reducesTo_S7x256_S_d0_1 h_S_) main_v11 main_c_3
  let main_v13 : IVec S_ 1 := andi main_v8 main_v12
  let main_v14 : FVec F S7x256x174 .f32 := Host.absf main_arg3
  let main_cst_4 : FVec F S_ .f32 := constant S_ .f32 0x7F800000#32
  let main_v15 : FVec F S7x256x174 .f32 := broadcastInDim S7x256x174 ![] bcast_S_S7x256x174 main_cst_4
  let main_v16 : IVec S7x256x174 1 := cmpf .olt main_v14 main_v15
  fn_part1 (F := F) main_arg4 main_v13 main_v16
-- ==== Kernel.lean ====
abbrev S16384x8x256 : Shape := ⟨3, ![16384, 8, 256]⟩
abbrev S7x2048x256 : Shape := ⟨3, ![7, 2048, 256]⟩
abbrev S7x256 : Shape := ⟨2, ![7, 256]⟩
abbrev S7x256x174 : Shape := ⟨3, ![7, 256, 174]⟩
abbrev S7x174 : Shape := ⟨2, ![7, 174]⟩
abbrev S16384x2048 : Shape := ⟨2, ![16384, 2048]⟩
abbrev S16384x174 : Shape := ⟨2, ![16384, 174]⟩
abbrev S1024x2048 : Shape := ⟨2, ![1024, 2048]⟩
abbrev S1024x174 : Shape := ⟨2, ![1024, 174]⟩
abbrev S1x2048x256 : Shape := ⟨3, ![1, 2048, 256]⟩
abbrev S2048x256 : Shape := ⟨2, ![2048, 256]⟩
abbrev S1x256 : Shape := ⟨2, ![1, 256]⟩
abbrev S256 : Shape := ⟨1, ![256]⟩
abbrev S1x174 : Shape := ⟨2, ![1, 174]⟩
abbrev S174 : Shape := ⟨1, ![174]⟩
abbrev S1x256x174 : Shape := ⟨3, ![1, 256, 174]⟩
abbrev S256x174 : Shape := ⟨2, ![256, 174]⟩
abbrev S1024x256 : Shape := ⟨2, ![1024, 256]⟩
abbrev S256x256 : Shape := ⟨2, ![256, 256]⟩

abbrev nBuf : Space → Nat
  | .hbm => 9
  | .vmem => 8
  | .smem => 0
  | _ => 0

abbrev bufTy : (tb : Table) → Fin (tcTables nBuf tb) → BufTy
  | .hbm, ⟨0, _⟩ => ⟨S16384x8x256, .f32⟩
  | .hbm, ⟨1, _⟩ => ⟨S7x2048x256, .f32⟩
  | .hbm, ⟨2, _⟩ => ⟨S7x256, .f32⟩
  | .hbm, ⟨3, _⟩ => ⟨S7x256x174, .f32⟩
  | .hbm, ⟨4, _⟩ => ⟨S7x174, .f32⟩
  | .hbm, ⟨5, _⟩ => ⟨S16384x2048, .f32⟩
  | .hbm, ⟨6, _⟩ => ⟨S7x2048x256, .bf16⟩
  | .hbm, ⟨7, _⟩ => ⟨S7x256x174, .bf16⟩
  | .hbm, ⟨8, _⟩ => ⟨S16384x174, .f32⟩
  | .local _ .vmem, ⟨0, _⟩ => ⟨S1024x2048, .f32⟩
  | .local _ .vmem, ⟨1, _⟩ => ⟨S1024x2048, .f32⟩
  | .local _ .vmem, ⟨2, _⟩ => ⟨S7x2048x256, .bf16⟩
  | .local _ .vmem, ⟨3, _⟩ => ⟨S7x256, .f32⟩
  | .local _ .vmem, ⟨4, _⟩ => ⟨S7x256x174, .bf16⟩
  | .local _ .vmem, ⟨5, _⟩ => ⟨S7x174, .f32⟩
  | .local _ .vmem, ⟨6, _⟩ => ⟨S1024x174, .f32⟩
  | .local _ .vmem, ⟨7, _⟩ => ⟨S1024x174, .f32⟩
  | _, _ => ⟨S16384x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x256x174 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x174 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x174 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16384x8x256_S16384x2048 : S16384x8x256.ShapeCasts S16384x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S7x2048x256_S1x2048x256_0_0_0 : ∀ a, (![0, 0, 0] : Fin 3 → Nat) a + S1x2048x256.size a ≤ S7x2048x256.size a
  h_S1x2048x256 : 0 < S1x2048x256.numel
  shapeCasts_S1x2048x256_S2048x256 : S1x2048x256.ShapeCasts S2048x256
  inb_S7x256_S1x256_0_0 : ∀ a, (![0, 0] : Fin 2 → Nat) a + S1x256.size a ≤ S7x256.size a
  h_S1x256 : 0 < S1x256.numel
  shapeCasts_S1x256_S256 : S1x256.ShapeCasts S256
  inb_S7x174_S1x174_0_0 : ∀ a, (![0, 0] : Fin 2 → Nat) a + S1x174.size a ≤ S7x174.size a
  h_S1x174 : 0 < S1x174.numel
  shapeCasts_S1x174_S174 : S1x174.ShapeCasts S174
  inb_S7x256x174_S1x256x174_0_0_0 : ∀ a, (![0, 0, 0] : Fin 3 → Nat) a + S1x256x174.size a ≤ S7x256x174.size a
  h_S1x256x174 : 0 < S1x256x174.numel
  shapeCasts_S1x256x174_S256x174 : S1x256x174.ShapeCasts S256x174
  slices_S1024x2048_o0_0_S1024x256 : S1024x2048.Slices ![0, 0] S1024x256
  slices_S2048x256_o0_0_S256x256 : S2048x256.Slices ![0, 0] S256x256
  slices_S1024x2048_o0_256_S1024x256 : S1024x2048.Slices ![0, 256] S1024x256
  slices_S2048x256_o256_0_S256x256 : S2048x256.Slices ![256, 0] S256x256
  slices_S1024x2048_o0_512_S1024x256 : S1024x2048.Slices ![0, 512] S1024x256
  slices_S2048x256_o512_0_S256x256 : S2048x256.Slices ![512, 0] S256x256
  slices_S1024x2048_o0_768_S1024x256 : S1024x2048.Slices ![0, 768] S1024x256
  slices_S2048x256_o768_0_S256x256 : S2048x256.Slices ![768, 0] S256x256
  slices_S1024x2048_o0_1024_S1024x256 : S1024x2048.Slices ![0, 1024] S1024x256
  slices_S2048x256_o1024_0_S256x256 : S2048x256.Slices ![1024, 0] S256x256
  slices_S1024x2048_o0_1280_S1024x256 : S1024x2048.Slices ![0, 1280] S1024x256
  slices_S2048x256_o1280_0_S256x256 : S2048x256.Slices ![1280, 0] S256x256
  slices_S1024x2048_o0_1536_S1024x256 : S1024x2048.Slices ![0, 1536] S1024x256
  slices_S2048x256_o1536_0_S256x256 : S2048x256.Slices ![1536, 0] S256x256
  slices_S1024x2048_o0_1792_S1024x256 : S1024x2048.Slices ![0, 1792] S1024x256
  slices_S2048x256_o1792_0_S256x256 : S2048x256.Slices ![1792, 0] S256x256
  shapeCasts_S256_S1x256 : S256.ShapeCasts S1x256
  broadcasts_S1x256_S1024x256 : S1x256.Broadcasts S1024x256
  shapeCasts_S174_S1x174 : S174.ShapeCasts S1x174
  broadcasts_S1x174_S1024x174 : S1x174.Broadcasts S1024x174
  inb_S7x2048x256_S1x2048x256_1_0_0 : ∀ a, (![1, 0, 0] : Fin 3 → Nat) a + S1x2048x256.size a ≤ S7x2048x256.size a
  inb_S7x256_S1x256_1_0 : ∀ a, (![1, 0] : Fin 2 → Nat) a + S1x256.size a ≤ S7x256.size a
  inb_S7x174_S1x174_1_0 : ∀ a, (![1, 0] : Fin 2 → Nat) a + S1x174.size a ≤ S7x174.size a
  inb_S7x256x174_S1x256x174_1_0_0 : ∀ a, (![1, 0, 0] : Fin 3 → Nat) a + S1x256x174.size a ≤ S7x256x174.size a
  inb_S7x2048x256_S1x2048x256_2_0_0 : ∀ a, (![2, 0, 0] : Fin 3 → Nat) a + S1x2048x256.size a ≤ S7x2048x256.size a
  inb_S7x256_S1x256_2_0 : ∀ a, (![2, 0] : Fin 2 → Nat) a + S1x256.size a ≤ S7x256.size a
  inb_S7x174_S1x174_2_0 : ∀ a, (![2, 0] : Fin 2 → Nat) a + S1x174.size a ≤ S7x174.size a
  inb_S7x256x174_S1x256x174_2_0_0 : ∀ a, (![2, 0, 0] : Fin 3 → Nat) a + S1x256x174.size a ≤ S7x256x174.size a
  inb_S7x2048x256_S1x2048x256_3_0_0 : ∀ a, (![3, 0, 0] : Fin 3 → Nat) a + S1x2048x256.size a ≤ S7x2048x256.size a
  inb_S7x256_S1x256_3_0 : ∀ a, (![3, 0] : Fin 2 → Nat) a + S1x256.size a ≤ S7x256.size a
  inb_S7x174_S1x174_3_0 : ∀ a, (![3, 0] : Fin 2 → Nat) a + S1x174.size a ≤ S7x174.size a
  inb_S7x256x174_S1x256x174_3_0_0 : ∀ a, (![3, 0, 0] : Fin 3 → Nat) a + S1x256x174.size a ≤ S7x256x174.size a
  inb_S7x2048x256_S1x2048x256_4_0_0 : ∀ a, (![4, 0, 0] : Fin 3 → Nat) a + S1x2048x256.size a ≤ S7x2048x256.size a
  inb_S7x256_S1x256_4_0 : ∀ a, (![4, 0] : Fin 2 → Nat) a + S1x256.size a ≤ S7x256.size a
  inb_S7x174_S1x174_4_0 : ∀ a, (![4, 0] : Fin 2 → Nat) a + S1x174.size a ≤ S7x174.size a
  inb_S7x256x174_S1x256x174_4_0_0 : ∀ a, (![4, 0, 0] : Fin 3 → Nat) a + S1x256x174.size a ≤ S7x256x174.size a
  inb_S7x2048x256_S1x2048x256_5_0_0 : ∀ a, (![5, 0, 0] : Fin 3 → Nat) a + S1x2048x256.size a ≤ S7x2048x256.size a
  inb_S7x256_S1x256_5_0 : ∀ a, (![5, 0] : Fin 2 → Nat) a + S1x256.size a ≤ S7x256.size a
  inb_S7x174_S1x174_5_0 : ∀ a, (![5, 0] : Fin 2 → Nat) a + S1x174.size a ≤ S7x174.size a
  inb_S7x256x174_S1x256x174_5_0_0 : ∀ a, (![5, 0, 0] : Fin 3 → Nat) a + S1x256x174.size a ≤ S7x256x174.size a
  inb_S7x2048x256_S1x2048x256_6_0_0 : ∀ a, (![6, 0, 0] : Fin 3 → Nat) a + S1x2048x256.size a ≤ S7x2048x256.size a
  inb_S7x256_S1x256_6_0 : ∀ a, (![6, 0] : Fin 2 → Nat) a + S1x256.size a ≤ S7x256.size a
  inb_S7x174_S1x174_6_0 : ∀ a, (![6, 0] : Fin 2 → Nat) a + S1x174.size a ≤ S7x174.size a
  inb_S7x256x174_S1x256x174_6_0_0 : ∀ a, (![6, 0, 0] : Fin 3 → Nat) a + S1x256x174.size a ≤ S7x256x174.size a
  inb_S1024x174_S1024x174_0_0 : ∀ a, (![0, 0] : Fin 2 → Nat) a + S1024x174.size a ≤ S1024x174.size a
  h_S1024x174 : 0 < S1024x174.numel
  dot_S1024x256_S256x256_S1024x256_1_0_0_1_n_n_wf : DotDims.WF S1024x256 S256x256 S1024x256 [1] [0] [0] [1] [] []
  dot_S1024x256_S256x174_S1024x174_1_0_0_1_n_n_wf : DotDims.WF S1024x256 S256x174 S1024x174 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x2048x256.size a ≤ S7x2048x256.size a
  hwx0_1 : ∀ i : grid0.Coords, EltTy.bits .bf16 = 32 ∨ (Rect.block (s := S7x2048x256) S7x2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x256.size a ≤ S7x256.size a
  hwx0_2 : ∀ i : grid0.Coords, EltTy.bits .f32 = 32 ∨ (Rect.block (s := S7x256) S7x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x256x174.size a ≤ S7x256x174.size a
  hwx0_3 : ∀ i : grid0.Coords, EltTy.bits .bf16 = 32 ∨ (Rect.block (s := S7x256x174) S7x256x174.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x174.size a ≤ S7x174.size a
  hwx0_4 : ∀ i : grid0.Coords, EltTy.bits .f32 = 32 ∨ (Rect.block (s := S7x174) S7x174.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x174.size a ≤ S16384x174.size a
  hwx0_5 : ∀ i : grid0.Coords, EltTy.bits .f32 = 32 ∨ (Rect.block (s := S16384x174) S1024x174.size (cc0_transform_5 i) (hinb0_5 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x174_S1024x174_1_0_0_1_n_n : DotDims S1024x256 S256x174 S1024x174 where
  lhsContracting := [1]
  rhsContracting := [0]
  lhsNonContracting := [0]
  rhsNonContracting := [1]
  lhsBatch := []
  rhsBatch := []
  wf := dot_S1024x256_S256x174_S1024x174_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S7x2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S7x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S7x256x174.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S7x174.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x174.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x8x256 : Shape := ⟨3, ![16384, 8, 256]⟩
abbrev S7x2048x256 : Shape := ⟨3, ![7, 2048, 256]⟩
abbrev S7x256 : Shape := ⟨2, ![7, 256]⟩
abbrev S7x256x174 : Shape := ⟨3, ![7, 256, 174]⟩
abbrev S7x174 : Shape := ⟨2, ![7, 174]⟩
abbrev S1x8 : Shape := ⟨2, ![1, 8]⟩
abbrev S3x7 : Shape := ⟨2, ![3, 7]⟩
abbrev S3x6 : Shape := ⟨2, ![3, 6]⟩
abbrev S3x5 : Shape := ⟨2, ![3, 5]⟩
abbrev S3x4 : Shape := ⟨2, ![3, 4]⟩
abbrev S3x3 : Shape := ⟨2, ![3, 3]⟩
abbrev S3x2 : Shape := ⟨2, ![3, 2]⟩
abbrev S_ : Shape := ⟨0, ![]⟩
abbrev S1x8x1 : Shape := ⟨3, ![1, 8, 1]⟩
abbrev S16384x1x8x256 : Shape := ⟨4, ![16384, 1, 8, 256]⟩
abbrev S16384x1x2048 : Shape := ⟨3, ![16384, 1, 2048]⟩
abbrev S1x2048x256 : Shape := ⟨3, ![1, 2048, 256]⟩
abbrev S2048x256 : Shape := ⟨2, ![2048, 256]⟩
abbrev S16384x1x256 : Shape := ⟨3, ![16384, 1, 256]⟩
abbrev S1x256 : Shape := ⟨2, ![1, 256]⟩
abbrev S256 : Shape := ⟨1, ![256]⟩
abbrev S1x1x256 : Shape := ⟨3, ![1, 1, 256]⟩
abbrev S1x256x174 : Shape := ⟨3, ![1, 256, 174]⟩
abbrev S256x174 : Shape := ⟨2, ![256, 174]⟩
abbrev S16384x1x174 : Shape := ⟨3, ![16384, 1, 174]⟩
abbrev S1x174 : Shape := ⟨2, ![1, 174]⟩
abbrev S174 : Shape := ⟨1, ![174]⟩
abbrev S1x1x174 : Shape := ⟨3, ![1, 1, 174]⟩
abbrev S16384x174 : Shape := ⟨2, ![16384, 174]⟩
abbrev S3x7x1 : Shape := ⟨3, ![3, 7, 1]⟩
abbrev S16384x3x7x256 : Shape := ⟨4, ![16384, 3, 7, 256]⟩
abbrev S16384x3x1792 : Shape := ⟨3, ![16384, 3, 1792]⟩
abbrev S1x1792x256 : Shape := ⟨3, ![1, 1792, 256]⟩
abbrev S1792x256 : Shape := ⟨2, ![1792, 256]⟩
abbrev S16384x3x256 : Shape := ⟨3, ![16384, 3, 256]⟩
abbrev S16384x3x174 : Shape := ⟨3, ![16384, 3, 174]⟩
abbrev S3x6x1 : Shape := ⟨3, ![3, 6, 1]⟩
abbrev S16384x3x6x256 : Shape := ⟨4, ![16384, 3, 6, 256]⟩
abbrev S16384x3x1536 : Shape := ⟨3, ![16384, 3, 1536]⟩
abbrev S1x1536x256 : Shape := ⟨3, ![1, 1536, 256]⟩
abbrev S1536x256 : Shape := ⟨2, ![1536, 256]⟩
abbrev S3x5x1 : Shape := ⟨3, ![3, 5, 1]⟩
abbrev S16384x3x5x256 : Shape := ⟨4, ![16384, 3, 5, 256]⟩
abbrev S16384x3x1280 : Shape := ⟨3, ![16384, 3, 1280]⟩
abbrev S1x1280x256 : Shape := ⟨3, ![1, 1280, 256]⟩
abbrev S1280x256 : Shape := ⟨2, ![1280, 256]⟩
abbrev S3x4x1 : Shape := ⟨3, ![3, 4, 1]⟩
abbrev S16384x3x4x256 : Shape := ⟨4, ![16384, 3, 4, 256]⟩
abbrev S16384x3x1024 : Shape := ⟨3, ![16384, 3, 1024]⟩
abbrev S1x1024x256 : Shape := ⟨3, ![1, 1024, 256]⟩
abbrev S1024x256 : Shape := ⟨2, ![1024, 256]⟩
abbrev S3x3x1 : Shape := ⟨3, ![3, 3, 1]⟩
abbrev S16384x3x3x256 : Shape := ⟨4, ![16384, 3, 3, 256]⟩
abbrev S16384x3x768 : Shape := ⟨3, ![16384, 3, 768]⟩
abbrev S1x768x256 : Shape := ⟨3, ![1, 768, 256]⟩
abbrev S768x256 : Shape := ⟨2, ![768, 256]⟩
abbrev S3x2x1 : Shape := ⟨3, ![3, 2, 1]⟩
abbrev S16384x3x2x256 : Shape := ⟨4, ![16384, 3, 2, 256]⟩
abbrev S16384x3x512 : Shape := ⟨3, ![16384, 3, 512]⟩
abbrev S1x512x256 : Shape := ⟨3, ![1, 512, 256]⟩
abbrev S512x256 : Shape := ⟨2, ![512, 256]⟩

abbrev nBuf : Space → Nat
  | .hbm => 256
  | .vmem => 0
  | .smem => 0
  | _ => 0

abbrev hbmTy0_0 (i : Nat) : BufTy := match i % 128 with
  | 0 => ⟨S16384x8x256, .f32⟩
  | 1 => ⟨S7x2048x256, .f32⟩
  | 2 => ⟨S7x256, .f32⟩
  | 3 => ⟨S7x256x174, .f32⟩
  | 4 => ⟨S7x174, .f32⟩
  | 5 => ⟨S1x8, .i32⟩
  | 6 => ⟨S3x7, .i32⟩
  | 7 => ⟨S3x6, .i32⟩
  | 8 => ⟨S3x5, .i32⟩
  | 9 => ⟨S3x4, .i32⟩
  | 10 => ⟨S3x3, .i32⟩
  | 11 => ⟨S3x2, .i32⟩
  | 12 => ⟨S_, .i32⟩
  | 13 => ⟨S1x8, .i32⟩
  | 14 => ⟨S1x8, .i1⟩
  | 15 => ⟨S_, .i32⟩
  | 16 => ⟨S1x8, .i32⟩
  | 17 => ⟨S1x8, .i32⟩
  | 18 => ⟨S1x8, .i32⟩
  | 19 => ⟨S1x8x1, .i32⟩
  | 20 => ⟨S16384x1x8x256, .f32⟩
  | 21 => ⟨S16384x1x2048, .f32⟩
  | 22 => ⟨S_, .f32⟩
  | 23 => ⟨S16384x1x2048, .f32⟩
  | 24 => ⟨S16384x1x2048, .f32⟩
  | 25 => ⟨S1x2048x256, .f32⟩
  | 26 => ⟨S2048x256, .f32⟩
  | 27 => ⟨S16384x1x256, .f32⟩
  | 28 => ⟨S1x256, .f32⟩
  | 29 => ⟨S256, .f32⟩
  | 30 => ⟨S1x1x256, .f32⟩
  | 31 => ⟨S16384x1x256, .f32⟩
  | 32 => ⟨S16384x1x256, .f32⟩
  | 33 => ⟨S_, .f32⟩
  | 34 => ⟨S16384x1x256, .f32⟩
  | 35 => ⟨S16384x1x256, .f32⟩
  | 36 => ⟨S1x256x174, .f32⟩
  | 37 => ⟨S256x174, .f32⟩
  | 38 => ⟨S16384x1x174, .f32⟩
  | 39 => ⟨S1x174, .f32⟩
  | 40 => ⟨S174, .f32⟩
  | 41 => ⟨S1x1x174, .f32⟩
  | 42 => ⟨S16384x1x174, .f32⟩
  | 43 => ⟨S16384x1x174, .f32⟩
  | 44 => ⟨S_, .f32⟩
  | 45 => ⟨S16384x174, .f32⟩
  | 46 => ⟨S_, .i32⟩
  | 47 => ⟨S3x7, .i32⟩
  | 48 => ⟨S3x7, .i1⟩
  | 49 => ⟨S_, .i32⟩
  | 50 => ⟨S3x7, .i32⟩
  | 51 => ⟨S3x7, .i32⟩
  | 52 => ⟨S3x7, .i32⟩
  | 53 => ⟨S3x7x1, .i32⟩
  | 54 => ⟨S16384x3x7x256, .f32⟩
  | 55 => ⟨S16384x3x1792, .f32⟩
  | 56 => ⟨S_, .f32⟩
  | 57 => ⟨S16384x3x1792, .f32⟩
  | 58 => ⟨S16384x3x1792, .f32⟩
  | 59 => ⟨S1x1792x256, .f32⟩
  | 60 => ⟨S1792x256, .f32⟩
  | 61 => ⟨S16384x3x256, .f32⟩
  | 62 => ⟨S1x256, .f32⟩
  | 63 => ⟨S256, .f32⟩
  | 64 => ⟨S1x1x256, .f32⟩
  | 65 => ⟨S16384x3x256, .f32⟩
  | 66 => ⟨S16384x3x256, .f32⟩
  | 67 => ⟨S_, .f32⟩
  | 68 => ⟨S16384x3x256, .f32⟩
  | 69 => ⟨S16384x3x256, .f32⟩
  | 70 => ⟨S1x256x174, .f32⟩
  | 71 => ⟨S256x174, .f32⟩
  | 72 => ⟨S16384x3x174, .f32⟩
  | 73 => ⟨S1x174, .f32⟩
  | 74 => ⟨S174, .f32⟩
  | 75 => ⟨S1x1x174, .f32⟩
  | 76 => ⟨S16384x3x174, .f32⟩
  | 77 => ⟨S16384x3x174, .f32⟩
  | 78 => ⟨S_, .f32⟩
  | 79 => ⟨S16384x174, .f32⟩
  | 80 => ⟨S16384x174, .f32⟩
  | 81 => ⟨S_, .i32⟩
  | 82 => ⟨S3x6, .i32⟩
  | 83 => ⟨S3x6, .i1⟩
  | 84 => ⟨S_, .i32⟩
  | 85 => ⟨S3x6, .i32⟩
  | 86 => ⟨S3x6, .i32⟩
  | 87 => ⟨S3x6, .i32⟩
  | 88 => ⟨S3x6x1, .i32⟩
  | 89 => ⟨S16384x3x6x256, .f32⟩
  | 90 => ⟨S16384x3x1536, .f32⟩
  | 91 => ⟨S_, .f32⟩
  | 92 => ⟨S16384x3x1536, .f32⟩
  | 93 => ⟨S16384x3x1536, .f32⟩
  | 94 => ⟨S1x1536x256, .f32⟩
  | 95 => ⟨S1536x256, .f32⟩
  | 96 => ⟨S16384x3x256, .f32⟩
  | 97 => ⟨S1x256, .f32⟩
  | 98 => ⟨S256, .f32⟩
  | 99 => ⟨S1x1x256, .f32⟩
  | 100 => ⟨S16384x3x256, .f32⟩
  | 101 => ⟨S16384x3x256, .f32⟩
  | 102 => ⟨S_, .f32⟩
  | 103 => ⟨S16384x3x256, .f32⟩
  | 104 => ⟨S16384x3x256, .f32⟩
  | 105 => ⟨S1x256x174, .f32⟩
  | 106 => ⟨S256x174, .f32⟩
  | 107 => ⟨S16384x3x174, .f32⟩
  | 108 => ⟨S1x174, .f32⟩
  | 109 => ⟨S174, .f32⟩
  | 110 => ⟨S1x1x174, .f32⟩
  | 111 => ⟨S16384x3x174, .f32⟩
  | 112 => ⟨S16384x3x174, .f32⟩
  | 113 => ⟨S_, .f32⟩
  | 114 => ⟨S16384x174, .f32⟩
  | 115 => ⟨S16384x174, .f32⟩
  | 116 => ⟨S_, .i32⟩
  | 117 => ⟨S3x5, .i32⟩
  | 118 => ⟨S3x5, .i1⟩
  | 119 => ⟨S_, .i32⟩
  | 120 => ⟨S3x5, .i32⟩
  | 121 => ⟨S3x5, .i32⟩
  | 122 => ⟨S3x5, .i32⟩
  | 123 => ⟨S3x5x1, .i32⟩
  | 124 => ⟨S16384x3x5x256, .f32⟩
  | 125 => ⟨S16384x3x1280, .f32⟩
  | 126 => ⟨S_, .f32⟩
  | 127 => ⟨S16384x3x1280, .f32⟩
  | _ => ⟨S16384x8x256, .f32⟩

abbrev hbmTy0_1 (i : Nat) : BufTy := match i % 128 with
  | 0 => ⟨S16384x3x1280, .f32⟩
  | 1 => ⟨S1x1280x256, .f32⟩
  | 2 => ⟨S1280x256, .f32⟩
  | 3 => ⟨S16384x3x256, .f32⟩
  | 4 => ⟨S1x256, .f32⟩
  | 5 => ⟨S256, .f32⟩
  | 6 => ⟨S1x1x256, .f32⟩
  | 7 => ⟨S16384x3x256, .f32⟩
  | 8 => ⟨S16384x3x256, .f32⟩
  | 9 => ⟨S_, .f32⟩
  | 10 => ⟨S16384x3x256, .f32⟩
  | 11 => ⟨S16384x3x256, .f32⟩
  | 12 => ⟨S1x256x174, .f32⟩
  | 13 => ⟨S256x174, .f32⟩
  | 14 => ⟨S16384x3x174, .f32⟩
  | 15 => ⟨S1x174, .f32⟩
  | 16 => ⟨S174, .f32⟩
  | 17 => ⟨S1x1x174, .f32⟩
  | 18 => ⟨S16384x3x174, .f32⟩
  | 19 => ⟨S16384x3x174, .f32⟩
  | 20 => ⟨S_, .f32⟩
  | 21 => ⟨S16384x174, .f32⟩
  | 22 => ⟨S16384x174, .f32⟩
  | 23 => ⟨S_, .i32⟩
  | 24 => ⟨S3x4, .i32⟩
  | 25 => ⟨S3x4, .i1⟩
  | 26 => ⟨S_, .i32⟩
  | 27 => ⟨S3x4, .i32⟩
  | 28 => ⟨S3x4, .i32⟩
  | 29 => ⟨S3x4, .i32⟩
  | 30 => ⟨S3x4x1, .i32⟩
  | 31 => ⟨S16384x3x4x256, .f32⟩
  | 32 => ⟨S16384x3x1024, .f32⟩
  | 33 => ⟨S_, .f32⟩
  | 34 => ⟨S16384x3x1024, .f32⟩
  | 35 => ⟨S16384x3x1024, .f32⟩
  | 36 => ⟨S1x1024x256, .f32⟩
  | 37 => ⟨S1024x256, .f32⟩
  | 38 => ⟨S16384x3x256, .f32⟩
  | 39 => ⟨S1x256, .f32⟩
  | 40 => ⟨S256, .f32⟩
  | 41 => ⟨S1x1x256, .f32⟩
  | 42 => ⟨S16384x3x256, .f32⟩
  | 43 => ⟨S16384x3x256, .f32⟩
  | 44 => ⟨S_, .f32⟩
  | 45 => ⟨S16384x3x256, .f32⟩
  | 46 => ⟨S16384x3x256, .f32⟩
  | 47 => ⟨S1x256x174, .f32⟩
  | 48 => ⟨S256x174, .f32⟩
  | 49 => ⟨S16384x3x174, .f32⟩
  | 50 => ⟨S1x174, .f32⟩
  | 51 => ⟨S174, .f32⟩
  | 52 => ⟨S1x1x174, .f32⟩
  | 53 => ⟨S16384x3x174, .f32⟩
  | 54 => ⟨S16384x3x174, .f32⟩
  | 55 => ⟨S_, .f32⟩
  | 56 => ⟨S16384x174, .f32⟩
  | 57 => ⟨S16384x174, .f32⟩
  | 58 => ⟨S_, .i32⟩
  | 59 => ⟨S3x3, .i32⟩
  | 60 => ⟨S3x3, .i1⟩
  | 61 => ⟨S_, .i32⟩
  | 62 => ⟨S3x3, .i32⟩
  | 63 => ⟨S3x3, .i32⟩
  | 64 => ⟨S3x3, .i32⟩
  | 65 => ⟨S3x3x1, .i32⟩
  | 66 => ⟨S16384x3x3x256, .f32⟩
  | 67 => ⟨S16384x3x768, .f32⟩
  | 68 => ⟨S_, .f32⟩
  | 69 => ⟨S16384x3x768, .f32⟩
  | 70 => ⟨S16384x3x768, .f32⟩
  | 71 => ⟨S1x768x256, .f32⟩
  | 72 => ⟨S768x256, .f32⟩
  | 73 => ⟨S16384x3x256, .f32⟩
  | 74 => ⟨S1x256, .f32⟩
  | 75 => ⟨S256, .f32⟩
  | 76 => ⟨S1x1x256, .f32⟩
  | 77 => ⟨S16384x3x256, .f32⟩
  | 78 => ⟨S16384x3x256, .f32⟩
  | 79 => ⟨S_, .f32⟩
  | 80 => ⟨S16384x3x256, .f32⟩
  | 81 => ⟨S16384x3x256, .f32⟩
  | 82 => ⟨S1x256x174, .f32⟩
  | 83 => ⟨S256x174, .f32⟩
  | 84 => ⟨S16384x3x174, .f32⟩
  | 85 => ⟨S1x174, .f32⟩
  | 86 => ⟨S174, .f32⟩
  | 87 => ⟨S1x1x174, .f32⟩
  | 88 => ⟨S16384x3x174, .f32⟩
  | 89 => ⟨S16384x3x174, .f32⟩
  | 90 => ⟨S_, .f32⟩
  | 91 => ⟨S16384x174, .f32⟩
  | 92 => ⟨S16384x174, .f32⟩
  | 93 => ⟨S_, .i32⟩
  | 94 => ⟨S3x2, .i32⟩
  | 95 => ⟨S3x2, .i1⟩
  | 96 => ⟨S_, .i32⟩
  | 97 => ⟨S3x2, .i32⟩
  | 98 => ⟨S3x2, .i32⟩
  | 99 => ⟨S3x2, .i32⟩
  | 100 => ⟨S3x2x1, .i32⟩
  | 101 => ⟨S16384x3x2x256, .f32⟩
  | 102 => ⟨S16384x3x512, .f32⟩
  | 103 => ⟨S_, .f32⟩
  | 104 => ⟨S16384x3x512, .f32⟩
  | 105 => ⟨S16384x3x512, .f32⟩
  | 106 => ⟨S1x512x256, .f32⟩
  | 107 => ⟨S512x256, .f32⟩
  | 108 => ⟨S16384x3x256, .f32⟩
  | 109 => ⟨S1x256, .f32⟩
  | 110 => ⟨S256, .f32⟩
  | 111 => ⟨S1x1x256, .f32⟩
  | 112 => ⟨S16384x3x256, .f32⟩
  | 113 => ⟨S16384x3x256, .f32⟩
  | 114 => ⟨S_, .f32⟩
  | 115 => ⟨S16384x3x256, .f32⟩
  | 116 => ⟨S16384x3x256, .f32⟩
  | 117 => ⟨S1x256x174, .f32⟩
  | 118 => ⟨S256x174, .f32⟩
  | 119 => ⟨S16384x3x174, .f32⟩
  | 120 => ⟨S1x174, .f32⟩
  | 121 => ⟨S174, .f32⟩
  | 122 => ⟨S1x1x174, .f32⟩
  | 123 => ⟨S16384x3x174, .f32⟩
  | 124 => ⟨S16384x3x174, .f32⟩
  | 125 => ⟨S_, .f32⟩
  | 126 => ⟨S16384x174, .f32⟩
  | 127 => ⟨S16384x174, .f32⟩
  | _ => ⟨S16384x8x256, .f32⟩

abbrev hbmTy (i : Nat) : BufTy := match i / 128 with
  | 0 => hbmTy0_0 i
  | 1 => hbmTy0_1 i
  | _ => ⟨S16384x8x256, .f32⟩

abbrev bufTy : (tb : Table) → Fin (tcTables nBuf tb) → BufTy
  | .hbm, ⟨i, _⟩ => hbmTy i
  | _, _ => ⟨S16384x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_v0 : Ref sig .tc := ⟨.hbm, 13, rfl⟩
abbrev main_v1 : Ref sig .tc := ⟨.hbm, 14, rfl⟩
abbrev main_c_7 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_cst : Ref sig .tc := ⟨.hbm, 33, rfl⟩
abbrev main_call1_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_c_8 : Ref sig .tc := ⟨.hbm, 46, rfl⟩
abbrev main_v27 : Ref sig .tc := ⟨.hbm, 47, rfl⟩
abbrev main_v28 : Ref sig .tc := ⟨.hbm, 48, rfl⟩
abbrev main_c_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call2_cst : Ref sig .tc := ⟨.hbm, 56, rfl⟩
abbrev main_call2_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call3_cst : Ref sig .tc := ⟨.hbm, 67, rfl⟩
abbrev main_call3_v0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call4_cst : Ref sig .tc := ⟨.hbm, 91, rfl⟩
abbrev main_call4_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call5_cst : Ref sig .tc := ⟨.hbm, 102, rfl⟩
abbrev main_call5_v0 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_13 : Ref sig .tc := ⟨.hbm, 113, rfl⟩
abbrev main_v81 : Ref sig .tc := ⟨.hbm, 114, rfl⟩
abbrev main_v82 : Ref sig .tc := ⟨.hbm, 115, rfl⟩
abbrev main_c_14 : Ref sig .tc := ⟨.hbm, 116, rfl⟩
abbrev main_v83 : Ref sig .tc := ⟨.hbm, 117, rfl⟩
abbrev main_v84 : Ref sig .tc := ⟨.hbm, 118, rfl⟩
abbrev main_c_15 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_call6_cst : Ref sig .tc := ⟨.hbm, 126, rfl⟩
abbrev main_call6_v0 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_call7_cst : Ref sig .tc := ⟨.hbm, 137, rfl⟩
abbrev main_call7_v0 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_16 : Ref sig .tc := ⟨.hbm, 148, rfl⟩
abbrev main_v109 : Ref sig .tc := ⟨.hbm, 149, rfl⟩
abbrev main_v110 : Ref sig .tc := ⟨.hbm, 150, rfl⟩
abbrev main_c_17 : Ref sig .tc := ⟨.hbm, 151, rfl⟩
abbrev main_v111 : Ref sig .tc := ⟨.hbm, 152, rfl⟩
abbrev main_v112 : Ref sig .tc := ⟨.hbm, 153, rfl⟩
abbrev main_c_18 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_call8_cst : Ref sig .tc := ⟨.hbm, 161, rfl⟩
abbrev main_call8_v0 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_call9_cst : Ref sig .tc := ⟨.hbm, 172, rfl⟩
abbrev main_call9_v0 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_19 : Ref sig .tc := ⟨.hbm, 183, rfl⟩
abbrev main_v137 : Ref sig .tc := ⟨.hbm, 184, rfl⟩
abbrev main_v138 : Ref sig .tc := ⟨.hbm, 185, rfl⟩
abbrev main_c_20 : Ref sig .tc := ⟨.hbm, 186, rfl⟩
abbrev main_v139 : Ref sig .tc := ⟨.hbm, 187, rfl⟩
abbrev main_v140 : Ref sig .tc := ⟨.hbm, 188, rfl⟩
abbrev main_c_21 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_call10_cst : Ref sig .tc := ⟨.hbm, 196, rfl⟩
abbrev main_call10_v0 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_call11_cst : Ref sig .tc := ⟨.hbm, 207, rfl⟩
abbrev main_call11_v0 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_cst_22 : Ref sig .tc := ⟨.hbm, 218, rfl⟩
abbrev main_v165 : Ref sig .tc := ⟨.hbm, 219, rfl⟩
abbrev main_v166 : Ref sig .tc := ⟨.hbm, 220, rfl⟩
abbrev main_c_23 : Ref sig .tc := ⟨.hbm, 221, rfl⟩
abbrev main_v167 : Ref sig .tc := ⟨.hbm, 222, rfl⟩
abbrev main_v168 : Ref sig .tc := ⟨.hbm, 223, rfl⟩
abbrev main_c_24 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_call12_cst : Ref sig .tc := ⟨.hbm, 231, rfl⟩
abbrev main_call12_v0 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_call13_cst : Ref sig .tc := ⟨.hbm, 242, rfl⟩
abbrev main_call13_v0 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_cst_25 : Ref sig .tc := ⟨.hbm, 253, rfl⟩
abbrev main_v193 : Ref sig .tc := ⟨.hbm, 254, rfl⟩
abbrev main_v194 : Ref sig .tc := ⟨.hbm, 255, rfl⟩

abbrev nD : Nat := 1
abbrev τ : Topo := Topo.v7x

variable {F : FTy → Type} [FloatOps F]

class Facts₀ : Prop where
  bcast_S_S1x8 : S_.BroadcastsInDim S1x8 (![] : Fin 0 → Fin S1x8.rank)
  bcast_S1x8_S1x8x1_0_1 : S1x8.BroadcastsInDim S1x8x1 (![0, 1] : Fin 2 → Fin S1x8x1.rank)
  shapeCasts_S16384x1x8x256_S16384x1x2048 : S16384x1x8x256.ShapeCasts S16384x1x2048
  bcast_S_S16384x1x2048 : S_.BroadcastsInDim S16384x1x2048 (![] : Fin 0 → Fin S16384x1x2048.rank)
  slices_S7x2048x256_S1x2048x256_0_0_0 : S7x2048x256.Slices ![0, 0, 0] S1x2048x256
  shapeCasts_S1x2048x256_S2048x256 : S1x2048x256.ShapeCasts S2048x256
  slices_S7x256_S1x256_0_0 : S7x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S16384x1x256_0_1_2 : S1x1x256.BroadcastsInDim S16384x1x256 (![0, 1, 2] : Fin 3 → Fin S16384x1x256.rank)
  bcast_S_S16384x1x256 : S_.BroadcastsInDim S16384x1x256 (![] : Fin 0 → Fin S16384x1x256.rank)
  slices_S7x256x174_S1x256x174_0_0_0 : S7x256x174.Slices ![0, 0, 0] S1x256x174
  shapeCasts_S1x256x174_S256x174 : S1x256x174.ShapeCasts S256x174
  slices_S7x174_S1x174_0_0 : S7x174.Slices ![0, 0] S1x174
  shapeCasts_S1x174_S174 : S1x174.ShapeCasts S174
  bcast_S174_S1x1x174_2 : S174.BroadcastsInDim S1x1x174 (![2] : Fin 1 → Fin S1x1x174.rank)
  bcast_S1x1x174_S16384x1x174_0_1_2 : S1x1x174.BroadcastsInDim S16384x1x174 (![0, 1, 2] : Fin 3 → Fin S16384x1x174.rank)
  reducesTo_S16384x1x174_S16384x174_d1 : S16384x1x174.ReducesTo [1] S16384x174
  h_S_ : 0 < S_.numel
  bcast_S_S3x7 : S_.BroadcastsInDim S3x7 (![] : Fin 0 → Fin S3x7.rank)
  bcast_S3x7_S3x7x1_0_1 : S3x7.BroadcastsInDim S3x7x1 (![0, 1] : Fin 2 → Fin S3x7x1.rank)
  shapeCasts_S16384x3x7x256_S16384x3x1792 : S16384x3x7x256.ShapeCasts S16384x3x1792
  bcast_S_S16384x3x1792 : S_.BroadcastsInDim S16384x3x1792 (![] : Fin 0 → Fin S16384x3x1792.rank)
  slices_S7x2048x256_S1x1792x256_1_0_0 : S7x2048x256.Slices ![1, 0, 0] S1x1792x256
  shapeCasts_S1x1792x256_S1792x256 : S1x1792x256.ShapeCasts S1792x256
  slices_S7x256_S1x256_1_0 : S7x256.Slices ![1, 0] S1x256
  bcast_S1x1x256_S16384x3x256_0_1_2 : S1x1x256.BroadcastsInDim S16384x3x256 (![0, 1, 2] : Fin 3 → Fin S16384x3x256.rank)
  bcast_S_S16384x3x256 : S_.BroadcastsInDim S16384x3x256 (![] : Fin 0 → Fin S16384x3x256.rank)
  slices_S7x256x174_S1x256x174_1_0_0 : S7x256x174.Slices ![1, 0, 0] S1x256x174
  slices_S7x174_S1x174_1_0 : S7x174.Slices ![1, 0] S1x174
  bcast_S1x1x174_S16384x3x174_0_1_2 : S1x1x174.BroadcastsInDim S16384x3x174 (![0, 1, 2] : Fin 3 → Fin S16384x3x174.rank)
  reducesTo_S16384x3x174_S16384x174_d1 : S16384x3x174.ReducesTo [1] S16384x174
  bcast_S_S3x6 : S_.BroadcastsInDim S3x6 (![] : Fin 0 → Fin S3x6.rank)
  bcast_S3x6_S3x6x1_0_1 : S3x6.BroadcastsInDim S3x6x1 (![0, 1] : Fin 2 → Fin S3x6x1.rank)
  shapeCasts_S16384x3x6x256_S16384x3x1536 : S16384x3x6x256.ShapeCasts S16384x3x1536
  bcast_S_S16384x3x1536 : S_.BroadcastsInDim S16384x3x1536 (![] : Fin 0 → Fin S16384x3x1536.rank)
  slices_S7x2048x256_S1x1536x256_2_0_0 : S7x2048x256.Slices ![2, 0, 0] S1x1536x256
  shapeCasts_S1x1536x256_S1536x256 : S1x1536x256.ShapeCasts S1536x256
  slices_S7x256_S1x256_2_0 : S7x256.Slices ![2, 0] S1x256
  slices_S7x256x174_S1x256x174_2_0_0 : S7x256x174.Slices ![2, 0, 0] S1x256x174
  slices_S7x174_S1x174_2_0 : S7x174.Slices ![2, 0] S1x174
  bcast_S_S3x5 : S_.BroadcastsInDim S3x5 (![] : Fin 0 → Fin S3x5.rank)
  bcast_S3x5_S3x5x1_0_1 : S3x5.BroadcastsInDim S3x5x1 (![0, 1] : Fin 2 → Fin S3x5x1.rank)
  shapeCasts_S16384x3x5x256_S16384x3x1280 : S16384x3x5x256.ShapeCasts S16384x3x1280
  bcast_S_S16384x3x1280 : S_.BroadcastsInDim S16384x3x1280 (![] : Fin 0 → Fin S16384x3x1280.rank)
  slices_S7x2048x256_S1x1280x256_3_0_0 : S7x2048x256.Slices ![3, 0, 0] S1x1280x256
  shapeCasts_S1x1280x256_S1280x256 : S1x1280x256.ShapeCasts S1280x256
  slices_S7x256_S1x256_3_0 : S7x256.Slices ![3, 0] S1x256
  slices_S7x256x174_S1x256x174_3_0_0 : S7x256x174.Slices ![3, 0, 0] S1x256x174
  slices_S7x174_S1x174_3_0 : S7x174.Slices ![3, 0] S1x174
  bcast_S_S3x4 : S_.BroadcastsInDim S3x4 (![] : Fin 0 → Fin S3x4.rank)
  bcast_S3x4_S3x4x1_0_1 : S3x4.BroadcastsInDim S3x4x1 (![0, 1] : Fin 2 → Fin S3x4x1.rank)
  shapeCasts_S16384x3x4x256_S16384x3x1024 : S16384x3x4x256.ShapeCasts S16384x3x1024
  bcast_S_S16384x3x1024 : S_.BroadcastsInDim S16384x3x1024 (![] : Fin 0 → Fin S16384x3x1024.rank)
  slices_S7x2048x256_S1x1024x256_4_0_0 : S7x2048x256.Slices ![4, 0, 0] S1x1024x256
  shapeCasts_S1x1024x256_S1024x256 : S1x1024x256.ShapeCasts S1024x256
  slices_S7x256_S1x256_4_0 : S7x256.Slices ![4, 0] S1x256
  slices_S7x256x174_S1x256x174_4_0_0 : S7x256x174.Slices ![4, 0, 0] S1x256x174
  slices_S7x174_S1x174_4_0 : S7x174.Slices ![4, 0] S1x174
  bcast_S_S3x3 : S_.BroadcastsInDim S3x3 (![] : Fin 0 → Fin S3x3.rank)
  bcast_S3x3_S3x3x1_0_1 : S3x3.BroadcastsInDim S3x3x1 (![0, 1] : Fin 2 → Fin S3x3x1.rank)
  shapeCasts_S16384x3x3x256_S16384x3x768 : S16384x3x3x256.ShapeCasts S16384x3x768
  bcast_S_S16384x3x768 : S_.BroadcastsInDim S16384x3x768 (![] : Fin 0 → Fin S16384x3x768.rank)
  slices_S7x2048x256_S1x768x256_5_0_0 : S7x2048x256.Slices ![5, 0, 0] S1x768x256
  shapeCasts_S1x768x256_S768x256 : S1x768x256.ShapeCasts S768x256
  slices_S7x256_S1x256_5_0 : S7x256.Slices ![5, 0] S1x256
  slices_S7x256x174_S1x256x174_5_0_0 : S7x256x174.Slices ![5, 0, 0] S1x256x174
  slices_S7x174_S1x174_5_0 : S7x174.Slices ![5, 0] S1x174
  bcast_S_S3x2 : S_.BroadcastsInDim S3x2 (![] : Fin 0 → Fin S3x2.rank)
  bcast_S3x2_S3x2x1_0_1 : S3x2.BroadcastsInDim S3x2x1 (![0, 1] : Fin 2 → Fin S3x2x1.rank)
  shapeCasts_S16384x3x2x256_S16384x3x512 : S16384x3x2x256.ShapeCasts S16384x3x512
  bcast_S_S16384x3x512 : S_.BroadcastsInDim S16384x3x512 (![] : Fin 0 → Fin S16384x3x512.rank)
  slices_S7x2048x256_S1x512x256_6_0_0 : S7x2048x256.Slices ![6, 0, 0] S1x512x256
  shapeCasts_S1x512x256_S512x256 : S1x512x256.ShapeCasts S512x256
  slices_S7x256_S1x256_6_0 : S7x256.Slices ![6, 0] S1x256
  slices_S7x256x174_S1x256x174_6_0_0 : S7x256x174.Slices ![6, 0, 0] S1x256x174
  slices_S7x174_S1x174_6_0 : S7x174.Slices ![6, 0] S1x174
  gather_S16384x8x256_S1x8x1_S16384x1x8x256_03_1_n_n_1_2_163841256_wf : GatherDims.WF S16384x8x256 S1x8x1 S16384x1x8x256 [0, 3] [1] [] [1] [] 2 ![16384, 1, 256]
  dot_S16384x1x2048_S2048x256_S16384x1x256_2_0_01_1_n_n_wf : DotDims.WF S16384x1x2048 S2048x256 S16384x1x256 [2] [0] [0, 1] [1] [] []
  dot_S16384x1x256_S256x174_S16384x1x174_2_0_01_1_n_n_wf : DotDims.WF S16384x1x256 S256x174 S16384x1x174 [2] [0] [0, 1] [1] [] []
  gather_S16384x8x256_S3x7x1_S16384x3x7x256_03_1_n_n_1_2_163841256_wf : GatherDims.WF S16384x8x256 S3x7x1 S16384x3x7x256 [0, 3] [1] [] [1] [] 2 ![16384, 1, 256]
  dot_S16384x3x1792_S1792x256_S16384x3x256_2_0_01_1_n_n_wf : DotDims.WF S16384x3x1792 S1792x256 S16384x3x256 [2] [0] [0, 1] [1] [] []
  dot_S16384x3x256_S256x174_S16384x3x174_2_0_01_1_n_n_wf : DotDims.WF S16384x3x256 S256x174 S16384x3x174 [2] [0] [0, 1] [1] [] []
  gather_S16384x8x256_S3x6x1_S16384x3x6x256_03_1_n_n_1_2_163841256_wf : GatherDims.WF S16384x8x256 S3x6x1 S16384x3x6x256 [0, 3] [1] [] [1] [] 2 ![16384, 1, 256]
  dot_S16384x3x1536_S1536x256_S16384x3x256_2_0_01_1_n_n_wf : DotDims.WF S16384x3x1536 S1536x256 S16384x3x256 [2] [0] [0, 1] [1] [] []
  gather_S16384x8x256_S3x5x1_S16384x3x5x256_03_1_n_n_1_2_163841256_wf : GatherDims.WF S16384x8x256 S3x5x1 S16384x3x5x256 [0, 3] [1] [] [1] [] 2 ![16384, 1, 256]
  dot_S16384x3x1280_S1280x256_S16384x3x256_2_0_01_1_n_n_wf : DotDims.WF S16384x3x1280 S1280x256 S16384x3x256 [2] [0] [0, 1] [1] [] []
  gather_S16384x8x256_S3x4x1_S16384x3x4x256_03_1_n_n_1_2_163841256_wf : GatherDims.WF S16384x8x256 S3x4x1 S16384x3x4x256 [0, 3] [1] [] [1] [] 2 ![16384, 1, 256]
  dot_S16384x3x1024_S1024x256_S16384x3x256_2_0_01_1_n_n_wf : DotDims.WF S16384x3x1024 S1024x256 S16384x3x256 [2] [0] [0, 1] [1] [] []
  gather_S16384x8x256_S3x3x1_S16384x3x3x256_03_1_n_n_1_2_163841256_wf : GatherDims.WF S16384x8x256 S3x3x1 S16384x3x3x256 [0, 3] [1] [] [1] [] 2 ![16384, 1, 256]
  dot_S16384x3x768_S768x256_S16384x3x256_2_0_01_1_n_n_wf : DotDims.WF S16384x3x768 S768x256 S16384x3x256 [2] [0] [0, 1] [1] [] []
  gather_S16384x8x256_S3x2x1_S16384x3x2x256_03_1_n_n_1_2_163841256_wf : GatherDims.WF S16384x8x256 S3x2x1 S16384x3x2x256 [0, 3] [1] [] [1] [] 2 ![16384, 1, 256]
  dot_S16384x3x512_S512x256_S16384x3x256_2_0_01_1_n_n_wf : DotDims.WF S16384x3x512 S512x256 S16384x3x256 [2] [0] [0, 1] [1] [] []

variable [Facts₀]

def gather_S16384x8x256_S1x8x1_S16384x1x8x256_03_1_n_n_1_2_163841256 : GatherDims S16384x8x256 S1x8x1 S16384x1x8x256 where
  offsetDims := [0, 3]
  collapsedSliceDims := [1]
  operandBatchingDims := []
  startIndicesBatchingDims := []
  startIndexMap := [1]
  indexVectorDim := 2
  sliceSizes := ![16384, 1, 256]
  wf := gather_S16384x8x256_S1x8x1_S16384x1x8x256_03_1_n_n_1_2_163841256_wf
def dot_S16384x1x2048_S2048x256_S16384x1x256_2_0_01_1_n_n : DotDims S16384x1x2048 S2048x256 S16384x1x256 where
  lhsContracting := [2]
  rhsContracting := [0]
  lhsNonContracting := [0, 1]
  rhsNonContracting := [1]
  lhsBatch := []
  rhsBatch := []
  wf := dot_S16384x1x2048_S2048x256_S16384x1x256_2_0_01_1_n_n_wf
def dot_S16384x1x256_S256x174_S16384x1x174_2_0_01_1_n_n : DotDims S16384x1x256 S256x174 S16384x1x174 where
  lhsContracting := [2]
  rhsContracting := [0]
  lhsNonContracting := [0, 1]
  rhsNonContracting := [1]
  lhsBatch := []
  rhsBatch := []
  wf := dot_S16384x1x256_S256x174_S16384x1x174_2_0_01_1_n_n_wf
def gather_S16384x8x256_S3x7x1_S16384x3x7x256_03_1_n_n_1_2_163841256 : GatherDims S16384x8x256 S3x7x1 S16384x3x7x256 where
  offsetDims := [0, 3]
  collapsedSliceDims := [1]
  operandBatchingDims := []
  startIndicesBatchingDims := []
  startIndexMap := [1]
  indexVectorDim := 2
  sliceSizes := ![16384, 1, 256]
  wf := gather_S16384x8x256_S3x7x1_S16384x3x7x256_03_1_n_n_1_2_163841256_wf
def dot_S16384x3x1792_S1792x256_S16384x3x256_2_0_01_1_n_n : DotDims S16384x3x1792 S1792x256 S16384x3x256 where
  lhsContracting := [2]
  rhsContracting := [0]
  lhsNonContracting := [0, 1]
  rhsNonContracting := [1]
  lhsBatch := []
  rhsBatch := []
  wf := dot_S16384x3x1792_S1792x256_S16384x3x256_2_0_01_1_n_n_wf
def dot_S16384x3x256_S256x174_S16384x3x174_2_0_01_1_n_n : DotDims S16384x3x256 S256x174 S16384x3x174 where
  lhsContracting := [2]
  rhsContracting := [0]
  lhsNonContracting := [0, 1]
  rhsNonContracting := [1]
  lhsBatch := []
  rhsBatch := []
  wf := dot_S16384x3x256_S256x174_S16384x3x174_2_0_01_1_n_n_wf
def gather_S16384x8x256_S3x6x1_S16384x3x6x256_03_1_n_n_1_2_163841256 : GatherDims S16384x8x256 S3x6x1 S16384x3x6x256 where
  offsetDims := [0, 3]
  collapsedSliceDims := [1]
  operandBatchingDims := []
  startIndicesBatchingDims := []
  startIndexMap := [1]
  indexVectorDim := 2
  sliceSizes := ![16384, 1, 256]
  wf := gather_S16384x8x256_S3x6x1_S16384x3x6x256_03_1_n_n_1_2_163841256_wf
def dot_S16384x3x1536_S1536x256_S16384x3x256_2_0_01_1_n_n : DotDims S16384x3x1536 S1536x256 S16384x3x256 where
  lhsContracting := [2]
  rhsContracting := [0]
  lhsNonContracting := [0, 1]
  rhsNonContracting := [1]
  lhsBatch := []
  rhsBatch := []
  wf := dot_S16384x3x1536_S1536x256_S16384x3x256_2_0_01_1_n_n_wf
def gather_S16384x8x256_S3x5x1_S16384x3x5x256_03_1_n_n_1_2_163841256 : GatherDims S16384x8x256 S3x5x1 S16384x3x5x256 where
  offsetDims := [0, 3]
  collapsedSliceDims := [1]
  operandBatchingDims := []
  startIndicesBatchingDims := []
  startIndexMap := [1]
  indexVectorDim := 2
  sliceSizes := ![16384, 1, 256]
  wf := gather_S16384x8x256_S3x5x1_S16384x3x5x256_03_1_n_n_1_2_163841256_wf
def dot_S16384x3x1280_S1280x256_S16384x3x256_2_0_01_1_n_n : DotDims S16384x3x1280 S1280x256 S16384x3x256 where
  lhsContracting := [2]
  rhsContracting := [0]
  lhsNonContracting := [0, 1]
  rhsNonContracting := [1]
  lhsBatch := []
  rhsBatch := []
  wf := dot_S16384x3x1280_S1280x256_S16384x3x256_2_0_01_1_n_n_wf
def gather_S16384x8x256_S3x4x1_S16384x3x4x256_03_1_n_n_1_2_163841256 : GatherDims S16384x8x256 S3x4x1 S16384x3x4x256 where
  offsetDims := [0, 3]
  collapsedSliceDims := [1]
  operandBatchingDims := []
  startIndicesBatchingDims := []
  startIndexMap := [1]
  indexVectorDim := 2
  sliceSizes := ![16384, 1, 256]
  wf := gather_S16384x8x256_S3x4x1_S16384x3x4x256_03_1_n_n_1_2_163841256_wf
def dot_S16384x3x1024_S1024x256_S16384x3x256_2_0_01_1_n_n : DotDims S16384x3x1024 S1024x256 S16384x3x256 where
  lhsContracting := [2]
  rhsContracting := [0]
  lhsNonContracting := [0, 1]
  rhsNonContracting := [1]
  lhsBatch := []
  rhsBatch := []
  wf := dot_S16384x3x1024_S1024x256_S16384x3x256_2_0_01_1_n_n_wf
def gather_S16384x8x256_S3x3x1_S16384x3x3x256_03_1_n_n_1_2_163841256 : GatherDims S16384x8x256 S3x3x1 S16384x3x3x256 where
  offsetDims := [0, 3]
  collapsedSliceDims := [1]
  operandBatchingDims := []
  startIndicesBatchingDims := []
  startIndexMap := [1]
  indexVectorDim := 2
  sliceSizes := ![16384, 1, 256]
  wf := gather_S16384x8x256_S3x3x1_S16384x3x3x256_03_1_n_n_1_2_163841256_wf
def dot_S16384x3x768_S768x256_S16384x3x256_2_0_01_1_n_n : DotDims S16384x3x768 S768x256 S16384x3x256 where
  lhsContracting := [2]
  rhsContracting := [0]
  lhsNonContracting := [0, 1]
  rhsNonContracting := [1]
  lhsBatch := []
  rhsBatch := []
  wf := dot_S16384x3x768_S768x256_S16384x3x256_2_0_01_1_n_n_wf
def gather_S16384x8x256_S3x2x1_S16384x3x2x256_03_1_n_n_1_2_163841256 : GatherDims S16384x8x256 S3x2x1 S16384x3x2x256 where
  offsetDims := [0, 3]
  collapsedSliceDims := [1]
  operandBatchingDims := []
  startIndicesBatchingDims := []
  startIndexMap := [1]
  indexVectorDim := 2
  sliceSizes := ![16384, 1, 256]
  wf := gather_S16384x8x256_S3x2x1_S16384x3x2x256_03_1_n_n_1_2_163841256_wf
def dot_S16384x3x512_S512x256_S16384x3x256_2_0_01_1_n_n : DotDims S16384x3x512 S512x256 S16384x3x256 where
  lhsContracting := [2]
  rhsContracting := [0]
  lhsNonContracting := [0, 1]
  rhsNonContracting := [1]
  lhsBatch := []
  rhsBatch := []
  wf := dot_S16384x3x512_S512x256_S16384x3x256_2_0_01_1_n_n_wf

class Facts : Prop extends Facts₀ where

variable [Facts]
-- ==== Proof.RefOps.lean ====
import proofs.«120356_j936302870703_2_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The seven tables of frame indices, one per scale. (7 operations) -/
abbrev pre : List (HloOp τ sig (Elt F)) :=
  [ nullary main_c (fun i => lit0 (S1x8.rowMajor i)),
    nullary main_c_0 (fun i => lit1 (S3x7.rowMajor i)),
    nullary main_c_1 (fun i => lit2 (S3x6.rowMajor i)),
    nullary main_c_2 (fun i => lit3 (S3x5.rowMajor i)),
    nullary main_c_3 (fun i => lit4 (S3x4.rowMajor i)),
    nullary main_c_4 (fun i => lit5 (S3x3.rowMajor i)),
    nullary main_c_5 (fun i => lit6 (S3x2.rowMajor i)) ]

/-- Scale 0: its start indices, gather, two layers and the sum over its relations. (34 operations) -/
abbrev sc0 : List (HloOp τ sig (Elt F)) :=
  [ nullary main_c_6 (constantI S_ 32 0#32),
    unary main_c_6 main_v0 (broadcastInDim S1x8 ![] bcast_S_S1x8 : (⟨S_, .i32⟩ : BufTy).Contents (Elt F) → (⟨S1x8, .i32⟩ : BufTy).Contents (Elt F)),
    binary main_c main_v0 main_v1 (cmpi .slt : (⟨S1x8, .i32⟩ : BufTy).Contents (Elt F) → (⟨S1x8, .i32⟩ : BufTy).Contents (Elt F) → (⟨S1x8, .i1⟩ : BufTy).Contents (Elt F)),
    nullary main_c_7 (constantI S_ 32 8#32),
    unary main_c_7 main_v2 (broadcastInDim S1x8 ![] bcast_S_S1x8 : (⟨S_, .i32⟩ : BufTy).Contents (Elt F) → (⟨S1x8, .i32⟩ : BufTy).Contents (Elt F)),
    binary main_c main_v2 main_v3 (addi : (⟨S1x8, .i32⟩ : BufTy).Contents (Elt F) → (⟨S1x8, .i32⟩ : BufTy).Contents (Elt F) → (⟨S1x8, .i32⟩ : BufTy).Contents (Elt F)),
    ternary main_v1 main_v3 main_c main_v4 (select : (⟨S1x8, .i1⟩ : BufTy).Contents (Elt F) → (⟨S1x8, .i32⟩ : BufTy).Contents (Elt F) → (⟨S1x8, .i32⟩ : BufTy).Contents (Elt F) → (⟨S1x8, .i32⟩ : BufTy).Contents (Elt F)),
    unary main_v4 main_v5 (broadcastInDim S1x8x1 ![0, 1] bcast_S1x8_S1x8x1_0_1 : (⟨S1x8, .i32⟩ : BufTy).Contents (Elt F) → (⟨S1x8x1, .i32⟩ : BufTy).Contents (Elt F)),
    binary main_arg0 main_v5 main_v6 ((fun x i => Host.gather gather_S16384x8x256_S1x8x1_S16384x1x8x256_03_1_n_n_1_2_163841256 x i) : (⟨S16384x8x256, .f32⟩ : BufTy).Contents (Elt F) → (⟨S1x8x1, .i32⟩ : BufTy).Contents (Elt F) → (⟨S16384x1x8x256, .f32⟩ : BufTy).Contents (Elt F)),
    reshape main_v6 main_v7 rfl shapeCasts_S16384x1x8x256_S16384x1x2048,
    TRef.nullary main_call0.cst (constant S_ .f32 0x00000000#32),
    TRef.unary main_call0.cst main_call0.v0 (broadcastInDim S16384x1x2048 ![] bcast_S_S16384x1x2048),
    TRef.binary (.of main_v7) main_call0.v0 main_call0.v1 maximumf,
    unary main_arg1 main_v9 ((extractStridedSlice S1x2048x256 ![0, 0, 0] · slices_S7x2048x256_S1x2048x256_0_0_0) : (⟨S7x2048x256, .f32⟩ : BufTy).Contents (Elt F) → (⟨S1x2048x256, .f32⟩ : BufTy).Contents (Elt F)),
    reshape main_v9 main_v10 rfl shapeCasts_S1x2048x256_S2048x256,
    binary main_v8 main_v10 main_v11 ((fun l r => Host.dotGeneral dot_S16384x1x2048_S2048x256_S16384x1x256_2_0_01_1_n_n none l r) : (⟨S16384x1x2048, .f32⟩ : BufTy).Contents (Elt F) → (⟨S2048x256, .f32⟩ : BufTy).Contents (Elt F) → (⟨S16384x1x256, .f32⟩ : BufTy).Contents (Elt F)),
    unary main_arg2 main_v12 ((extractStridedSlice S1x256 ![0, 0] · slices_S7x256_S1x256_0_0) : (⟨S7x256, .f32⟩ : BufTy).Contents (Elt F) → (⟨S1x256, .f32⟩ : BufTy).Contents (Elt F)),
    reshape main_v12 main_v13 rfl shapeCasts_S1x256_S256,
    unary main_v13 main_v14 (broadcastInDim S1x1x256 ![2] bcast_S256_S1x1x256_2 : (⟨S256, .f32⟩ : BufTy).Contents (Elt F) → (⟨S1x1x256, .f32⟩ : BufTy).Contents (Elt F)),
    unary main_v14 main_v15 (broadcastInDim S16384x1x256 ![0, 1, 2] bcast_S1x1x256_S16384x1x256_0_1_2 : (⟨S1x1x256, .f32⟩ : BufTy).Contents (Elt F) → (⟨S16384x1x256, .f32⟩ : BufTy).Contents (Elt F)),
    binary main_v11 main_v15 main_v16 (addf : (⟨S16384x1x256, .f32⟩ : BufTy).Contents (Elt F) → (⟨S16384x1x256, .f32⟩ : BufTy).Contents (Elt F) → (⟨S16384x1x256, .f32⟩ : BufTy).Contents (Elt F)),
    TRef.nullary main_call1.cst (constant S_ .f32 0x00000000#32),
    TRef.unary main_call1.cst main_call1.v0 (broadcastInDim S16384x1x256 ![] bcast_S_S16384x1x256),
    TRef.binary (.of main_v16) main_call1.v0 main_call1.v1 maximumf,
    unary main_arg3 main_v18 ((extractStridedSlice S1x256x174 ![0, 0, 0] · slices_S7x256x174_S1x256x174_0_0_0) : (⟨S7x256x174, .f32⟩ : BufTy).Contents (Elt F) → (⟨S1x256x174, .f32⟩ : BufTy).Contents (Elt F)),
    reshape main_v18 main_v19 rfl shapeCasts_S1x256x174_S256x174,
    binary main_v17 main_v19 main_v20 ((fun l r => Host.dotGeneral dot_S16384x1x256_S256x174_S16384x1x174_2_0_01_1_n_n none l r) : (⟨S16384x1x256, .f32⟩ : BufTy).Contents (Elt F) → (⟨S256x174, .f32⟩ : BufTy).Contents (Elt F) → (⟨S16384x1x174, .f32⟩ : BufTy).Contents (Elt F)),
    unary main_arg4 main_v21 ((extractStridedSlice S1x174 ![0, 0] · slices_S7x174_S1x174_0_0) : (⟨S7x174, .f32⟩ : BufTy).Contents (Elt F) → (⟨S1x174, .f32⟩ : BufTy).Contents (Elt F)),
    reshape main_v21 main_v22 rfl shapeCasts_S1x174_S174,
    unary main_v22 main_v23 (broadcastInDim S1x1x174 ![2] bcast_S174_S1x1x174_2 : (⟨S174, .f32⟩ : BufTy).Contents (Elt F) → (⟨S1x1x174, .f32⟩ : BufTy).Contents (Elt F)),
    unary main_v23 main_v24 (broadcastInDim S16384x1x174 ![0, 1, 2] bcast_S1x1x174_S16384x1x174_0_1_2 : (⟨S1x1x174, .f32⟩ : BufTy).Contents (Elt F) → (⟨S16384x1x174, .f32⟩ : BufTy).Contents (Elt F)),
    binary main_v20 main_v24 main_v25 (addf : (⟨S16384x1x174, .f32⟩ : BufTy).Contents (Elt F) → (⟨S16384x1x174, .f32⟩ : BufTy).Contents (Elt F) → (⟨S16384x1x174, .f32⟩ : BufTy).Contents (Elt F)),
    nullary main_cst (constant S_ .f32 0x00000000#32),
    binary main_v25 main_cst main_v26 ((fun x v => Host.reduceAdd x v reducesTo_S16384x1x174_S16384x174_d1 h_S_) : (⟨S16384x1x174, .f32⟩ : BufTy).Contents (Elt F) → (⟨S_, .f32⟩ : BufTy).Contents (Elt F) → (⟨S16384x174, .f32⟩ : BufTy).Contents (Elt F)) ]

/-- Scale 1: its start indices, gather, two layers and the sum over its relations, added to the running total. (35 operations) -/
abbrev sc1 : List (HloOp τ sig (Elt F)) :=
  [ nullary main_c_8 (constantI S_ 32 0#32),
    unary main_c_8 main_v27 (broadcastInDim S3x7 ![] bcast_S_S3x7 : (⟨S_, .i32⟩ : BufTy).Contents (Elt F) → (⟨S3x7, .i32⟩ : BufTy).Contents (Elt F)),
    binary main_c_0 main_v27 main_v28 (cmpi .slt : (⟨S3x7, .i32⟩ : BufTy).Contents (Elt F) → (⟨S3x7, .i32⟩ : BufTy).Contents (Elt F) → (⟨S3x7, .i1⟩ : BufTy).Contents (Elt F)),
    nullary main_c_9 (constantI S_ 32 8#32),
    unary main_c_9 main_v29 (broadcastInDim S3x7 ![] bcast_S_S3x7 : (⟨S_, .i32⟩ : BufTy).Contents (Elt F) → (⟨S3x7, .i32⟩ : BufTy).Contents (Elt F)),
    binary main_c_0 main_v29 main_v30 (addi : (⟨S3x7, .i32⟩ : BufTy).Contents (Elt F) → (⟨S3x7, .i32⟩ : BufTy).Contents (Elt F) → (⟨S3x7, .i32⟩ : BufTy).Contents (Elt F)),
    ternary main_v28 main_v30 main_c_0 main_v31 (select : (⟨S3x7, .i1⟩ : BufTy).Contents (Elt F) → (⟨S3x7, .i32⟩ : BufTy).Contents (Elt F) → (⟨S3x7, .i32⟩ : BufTy).Contents (Elt F) → (⟨S3x7, .i32⟩ : BufTy).Contents (Elt F)),
    unary main_v31 main_v32 (broadcastInDim S3x7x1 ![0, 1] bcast_S3x7_S3x7x1_0_1 : (⟨S3x7, .i32⟩ : BufTy).Contents (Elt F) → (⟨S3x7x1, .i32⟩ : BufTy).Contents (Elt F)),
    binary main_arg0 main_v32 main_v33 ((fun x i => Host.gather gather_S16384x8x256_S3x7x1_S16384x3x7x256_03_1_n_n_1_2_163841256 x i) : (⟨S16384x8x256, .f32⟩ : BufTy).Contents (Elt F) → (⟨S3x7x1, .i32⟩ : BufTy).Contents (Elt F) → (⟨S16384x3x7x256, .f32⟩ : BufTy).Contents (Elt F)),
    reshape main_v33 main_v34 rfl shapeCasts_S16384x3x7x256_S16384x3x1792,
    TRef.nullary main_call2.cst (constant S_ .f32 0x00000000#32),
    TRef.unary main_call2.cst main_call2.v0 (broadcastInDim S16384x3x1792 ![] bcast_S_S16384x3x1792),
    TRef.binary (.of main_v34) main_call2.v0 main_call2.v1 maximumf,
    unary main_arg1 main_v36 ((extractStridedSlice S1x1792x256 ![1, 0, 0] · slices_S7x2048x256_S1x1792x256_1_0_0) : (⟨S7x2048x256, .f32⟩ : BufTy).Contents (Elt F) → (⟨S1x1792x256, .f32⟩ : BufTy).Contents (Elt F)),
    reshape main_v36 main_v37 rfl shapeCasts_S1x1792x256_S1792x256,
    binary main_v35 main_v37 main_v38 ((fun l r => Host.dotGeneral dot_S16384x3x1792_S1792x256_S16384x3x256_2_0_01_1_n_n none l r) : (⟨S16384x3x1792, .f32⟩ : BufTy).Contents (Elt F) → (⟨S1792x256, .f32⟩ : BufTy).Contents (Elt F) → (⟨S16384x3x256, .f32⟩ : BufTy).Contents (Elt F)),
    unary main_arg2 main_v39 ((extractStridedSlice S1x256 ![1, 0] · slices_S7x256_S1x256_1_0) : (⟨S7x256, .f32⟩ : BufTy).Contents (Elt F) → (⟨S1x256, .f32⟩ : BufTy).Contents (Elt F)),
    reshape main_v39 main_v40 rfl shapeCasts_S1x256_S256,
    unary main_v40 main_v41 (broadcastInDim S1x1x256 ![2] bcast_S256_S1x1x256_2 : (⟨S256, .f32⟩ : BufTy).Contents (Elt F) → (⟨S1x1x256, .f32⟩ : BufTy).Contents (Elt F)),
    unary main_v41 main_v42 (broadcastInDim S16384x3x256 ![0, 1, 2] bcast_S1x1x256_S16384x3x256_0_1_2 : (⟨S1x1x256, .f32⟩ : BufTy).Contents (Elt F) → (⟨S16384x3x256, .f32⟩ : BufTy).Contents (Elt F)),
    binary main_v38 main_v42 main_v43 (addf : (⟨S16384x3x256, .f32⟩ : BufTy).Contents (Elt F) → (⟨S16384x3x256, .f32⟩ : BufTy).Contents (Elt F) → (⟨S16384x3x256, .f32⟩ : BufTy).Contents (Elt F)),
    TRef.nullary main_call3.cst (constant S_ .f32 0x00000000#32),
    TRef.unary main_call3.cst main_call3.v0 (broadcastInDim S16384x3x256 ![] bcast_S_S16384x3x256),
    TRef.binary (.of main_v43) main_call3.v0 main_call3.v1 maximumf,
    unary main_arg3 main_v45 ((extractStridedSlice S1x256x174 ![1, 0, 0] · slices_S7x256x174_S1x256x174_1_0_0) : (⟨S7x256x174, .f32⟩ : BufTy).Contents (Elt F) → (⟨S1x256x174, .f32⟩ : BufTy).Contents (Elt F)),
    reshape main_v45 main_v46 rfl shapeCasts_S1x256x174_S256x174,
    binary main_v44 main_v46 main_v47 ((fun l r => Host.dotGeneral dot_S16384x3x256_S256x174_S16384x3x174_2_0_01_1_n_n none l r) : (⟨S16384x3x256, .f32⟩ : BufTy).Contents (Elt F) → (⟨S256x174, .f32⟩ : BufTy).Contents (Elt F) → (⟨S16384x3x174, .f32⟩ : BufTy).Contents (Elt F)),
    unary main_arg4 main_v48 ((extractStridedSlice S1x174 ![1, 0] · slices_S7x174_S1x174_1_0) : (⟨S7x174, .f32⟩ : BufTy).Contents (Elt F) → (⟨S1x174, .f32⟩ : BufTy).Contents (Elt F)),
    reshape main_v48 main_v49 rfl shapeCasts_S1x174_S174,
    unary main_v49 main_v50 (broadcastInDim S1x1x174 ![2] bcast_S174_S1x1x174_2 : (⟨S174, .f32⟩ : BufTy).Contents (Elt F) → (⟨S1x1x174, .f32⟩ : BufTy).Contents (Elt F)),
    unary main_v50 main_v51 (broadcastInDim S16384x3x174 ![0, 1, 2] bcast_S1x1x174_S16384x3x174_0_1_2 : (⟨S1x1x174, .f32⟩ : BufTy).Contents (Elt F) → (⟨S16384x3x174, .f32⟩ : BufTy).Contents (Elt F)),
    binary main_v47 main_v51 main_v52 (addf : (⟨S16384x3x174, .f32⟩ : BufTy).Contents (Elt F) → (⟨S16384x3x174, .f32⟩ : BufTy).Contents (Elt F) → (⟨S16384x3x174, .f32⟩ : BufTy).Contents (Elt F)),
    nullary main_cst_10 (constant S_ .f32 0x00000000#32),
    binary main_v52 main_cst_10 main_v53 ((fun x v => Host.reduceAdd x v reducesTo_S16384x3x174_S16384x174_d1 h_S_) : (⟨S16384x3x174, .f32⟩ : BufTy).Contents (Elt F) → (⟨S_, .f32⟩ : BufTy).Contents (Elt F) → (⟨S16384x174, .f32⟩ : BufTy).Contents (Elt F)),
    binary main_v26 main_v53 main_v54 (addf : (⟨S16384x174, .f32⟩ : BufTy).Contents (Elt F) → (⟨S16384x174, .f32⟩ : BufTy).Contents (Elt F) → (⟨S16384x174, .f32⟩ : BufTy).Contents (Elt F)) ]

/-- Scale 2: its start indices, gather, two layers and the sum over its relations, added to the running total. (35 operations) -/
abbrev sc2 : List (HloOp τ sig (Elt F)) :=
  [ nullary main_c_11 (constantI S_ 32 0#32),
    unary main_c_11 main_v55 (broadcastInDim S3x6 ![] bcast_S_S3x6 : (⟨S_, .i32⟩ : BufTy).Contents (Elt F) → (⟨S3x6, .i32⟩ : BufTy).Contents (Elt F)),
    binary main_c_1 main_v55 main_v56 (cmpi .slt : (⟨S3x6, .i32⟩ : BufTy).Contents (Elt F) → (⟨S3x6, .i32⟩ : BufTy).Contents (Elt F) → (⟨S3x6, .i1⟩ : BufTy).Contents (Elt F)),
    nullary main_c_12 (constantI S_ 32 8#32),
    unary main_c_12 main_v57 (broadcastInDim S3x6 ![] bcast_S_S3x6 : (⟨S_, .i32⟩ : BufTy).Contents (Elt F) → (⟨S3x6, .i32⟩ : BufTy).Contents (Elt F)),
    binary main_c_1 main_v57 main_v58 (addi : (⟨S3x6, .i32⟩ : BufTy).Contents (Elt F) → (⟨S3x6, .i32⟩ : BufTy).Contents (Elt F) → (⟨S3x6, .i32⟩ : BufTy).Contents (Elt F)),
    ternary main_v56 main_v58 main_c_1 main_v59 (select : (⟨S3x6, .i1⟩ : BufTy).Contents (Elt F) → (⟨S3x6, .i32⟩ : BufTy).Contents (Elt F) → (⟨S3x6, .i32⟩ : BufTy).Contents (Elt F) → (⟨S3x6, .i32⟩ : BufTy).Contents (Elt F)),
    unary main_v59 main_v60 (broadcastInDim S3x6x1 ![0, 1] bcast_S3x6_S3x6x1_0_1 : (⟨S3x6, .i32⟩ : BufTy).Contents (Elt F) → (⟨S3x6x1, .i32⟩ : BufTy).Contents (Elt F)),
    binary main_arg0 main_v60 main_v61 ((fun x i => Host.gather gather_S16384x8x256_S3x6x1_S16384x3x6x256_03_1_n_n_1_2_163841256 x i) : (⟨S16384x8x256, .f32⟩ : BufTy).Contents (Elt F) → (⟨S3x6x1, .i32⟩ : BufTy).Contents (Elt F) → (⟨S16384x3x6x256, .f32⟩ : BufTy).Contents (Elt F)),
    reshape main_v61 main_v62 rfl shapeCasts_S16384x3x6x256_S16384x3x1536,
    TRef.nullary main_call4.cst (constant S_ .f32 0x00000000#32),
    TRef.unary main_call4.cst main_call4.v0 (broadcastInDim S16384x3x1536 ![] bcast_S_S16384x3x1536),
    TRef.binary (.of main_v62) main_call4.v0 main_call4.v1 maximumf,
    unary main_arg1 main_v64 ((extractStridedSlice S1x1536x256 ![2, 0, 0] · slices_S7x2048x256_S1x1536x256_2_0_0) : (⟨S7x2048x256, .f32⟩ : BufTy).Contents (Elt F) → (⟨S1x1536x256, .f32⟩ : BufTy).Contents (Elt F)),
    reshape main_v64 main_v65 rfl shapeCasts_S1x1536x256_S1536x256,
    binary main_v63 main_v65 main_v66 ((fun l r => Host.dotGeneral dot_S16384x3x1536_S1536x256_S16384x3x256_2_0_01_1_n_n none l r) : (⟨S16384x3x1536, .f32⟩ : BufTy).Contents (Elt F) → (⟨S1536x256, .f32⟩ : BufTy).Contents (Elt F) → (⟨S16384x3x256, .f32⟩ : BufTy).Contents (Elt F)),
    unary main_arg2 main_v67 ((extractStridedSlice S1x256 ![2, 0] · slices_S7x256_S1x256_2_0) : (⟨S7x256, .f32⟩ : BufTy).Contents (Elt F) → (⟨S1x256, .f32⟩ : BufTy).Contents (Elt F)),
    reshape main_v67 main_v68 rfl shapeCasts_S1x256_S256,
    unary main_v68 main_v69 (broadcastInDim S1x1x256 ![2] bcast_S256_S1x1x256_2 : (⟨S256, .f32⟩ : BufTy).Contents (Elt F) → (⟨S1x1x256, .f32⟩ : BufTy).Contents (Elt F)),
    unary main_v69 main_v70 (broadcastInDim S16384x3x256 ![0, 1, 2] bcast_S1x1x256_S16384x3x256_0_1_2 : (⟨S1x1x256, .f32⟩ : BufTy).Contents (Elt F) → (⟨S16384x3x256, .f32⟩ : BufTy).Contents (Elt F)),
    binary main_v66 main_v70 main_v71 (addf : (⟨S16384x3x256, .f32⟩ : BufTy).Contents (Elt F) → (⟨S16384x3x256, .f32⟩ : BufTy).Contents (Elt F) → (⟨S16384x3x256, .f32⟩ : BufTy).Contents (Elt F)),
    TRef.nullary main_call5.cst (constant S_ .f32 0x00000000#32),
    TRef.unary main_call5.cst main_call5.v0 (broadcastInDim S16384x3x256 ![] bcast_S_S16384x3x256),
    TRef.binary (.of main_v71) main_call5.v0 main_call5.v1 maximumf,
    unary main_arg3 main_v73 ((extractStridedSlice S1x256x174 ![2, 0, 0] · slices_S7x256x174_S1x256x174_2_0_0) : (⟨S7x256x174, .f32⟩ : BufTy).Contents (Elt F) → (⟨S1x256x174, .f32⟩ : BufTy).Contents (Elt F)),
    reshape main_v73 main_v74 rfl shapeCasts_S1x256x174_S256x174,
    binary main_v72 main_v74 main_v75 ((fun l r => Host.dotGeneral dot_S16384x3x256_S256x174_S16384x3x174_2_0_01_1_n_n none l r) : (⟨S16384x3x256, .f32⟩ : BufTy).Contents (Elt F) → (⟨S256x174, .f32⟩ : BufTy).Contents (Elt F) → (⟨S16384x3x174, .f32⟩ : BufTy).Contents (Elt F)),
    unary main_arg4 main_v76 ((extractStridedSlice S1x174 ![2, 0] · slices_S7x174_S1x174_2_0) : (⟨S7x174, .f32⟩ : BufTy).Contents (Elt F) → (⟨S1x174, .f32⟩ : BufTy).Contents (Elt F)),
    reshape main_v76 main_v77 rfl shapeCasts_S1x174_S174,
    unary main_v77 main_v78 (broadcastInDim S1x1x174 ![2] bcast_S174_S1x1x174_2 : (⟨S174, .f32⟩ : BufTy).Contents (Elt F) → (⟨S1x1x174, .f32⟩ : BufTy).Contents (Elt F)),
    unary main_v78 main_v79 (broadcastInDim S16384x3x174 ![0, 1, 2] bcast_S1x1x174_S16384x3x174_0_1_2 : (⟨S1x1x174, .f32⟩ : BufTy).Contents (Elt F) → (⟨S16384x3x174, .f32⟩ : BufTy).Contents (Elt F)),
    binary main_v75 main_v79 main_v80 (addf : (⟨S16384x3x174, .f32⟩ : BufTy).Contents (Elt F) → (⟨S16384x3x174, .f32⟩ : BufTy).Contents (Elt F) → (⟨S16384x3x174, .f32⟩ : BufTy).Contents (Elt F)),
    nullary main_cst_13 (constant S_ .f32 0x00000000#32),
    binary main_v80 main_cst_13 main_v81 ((fun x v => Host.reduceAdd x v reducesTo_S16384x3x174_S16384x174_d1 h_S_) : (⟨S16384x3x174, .f32⟩ : BufTy).Contents (Elt F) → (⟨S_, .f32⟩ : BufTy).Contents (Elt F) → (⟨S16384x174, .f32⟩ : BufTy).Contents (Elt F)),
    binary main_v54 main_v81 main_v82 (addf : (⟨S16384x174, .f32⟩ : BufTy).Contents (Elt F) → (⟨S16384x174, .f32⟩ : BufTy).Contents (Elt F) → (⟨S16384x174, .f32⟩ : BufTy).Contents (Elt F)) ]

/-- Scale 3: its start indices, gather, two layers and the sum over its relations, added to the running total. (35 operations) -/
abbrev sc3 : List (HloOp τ sig (Elt F)) :=
  [ nullary main_c_14 (constantI S_ 32 0#32),
    unary main_c_14 main_v83 (broadcastInDim S3x5 ![] bcast_S_S3x5 : (⟨S_, .i32⟩ : BufTy).Contents (Elt F) → (⟨S3x5, .i32⟩ : BufTy).Contents (Elt F)),
    binary main_c_2 main_v83 main_v84 (cmpi .slt : (⟨S3x5, .i32⟩ : BufTy).Contents (Elt F) → (⟨S3x5, .i32⟩ : BufTy).Contents (Elt F) → (⟨S3x5, .i1⟩ : BufTy).Contents (Elt F)),
    nullary main_c_15 (constantI S_ 32 8#32),
    unary main_c_15 main_v85 (broadcastInDim S3x5 ![] bcast_S_S3x5 : (⟨S_, .i32⟩ : BufTy).Contents (Elt F) → (⟨S3x5, .i32⟩ : BufTy).Contents (Elt F)),
    binary main_c_2 main_v85 main_v86 (addi : (⟨S3x5, .i32⟩ : BufTy).Contents (Elt F) → (⟨S3x5, .i32⟩ : BufTy).Contents (Elt F) → (⟨S3x5, .i32⟩ : BufTy).Contents (Elt F)),
    ternary main_v84 main_v86 main_c_2 main_v87 (select : (⟨S3x5, .i1⟩ : BufTy).Contents (Elt F) → (⟨S3x5, .i32⟩ : BufTy).Contents (Elt F) → (⟨S3x5, .i32⟩ : BufTy).Contents (Elt F) → (⟨S3x5, .i32⟩ : BufTy).Contents (Elt F)),
    unary main_v87 main_v88 (broadcastInDim S3x5x1 ![0, 1] bcast_S3x5_S3x5x1_0_1 : (⟨S3x5, .i32⟩ : BufTy).Contents (Elt F) → (⟨S3x5x1, .i32⟩ : BufTy).Contents (Elt F)),
    binary main_arg0 main_v88 main_v89 ((fun x i => Host.gather gather_S16384x8x256_S3x5x1_S16384x3x5x256_03_1_n_n_1_2_163841256 x i) : (⟨S16384x8x256, .f32⟩ : BufTy).Contents (Elt F) → (⟨S3x5x1, .i32⟩ : BufTy).Contents (Elt F) → (⟨S16384x3x5x256, .f32⟩ : BufTy).Contents (Elt F)),
    reshape main_v89 main_v90 rfl shapeCasts_S16384x3x5x256_S16384x3x1280,
    TRef.nullary main_call6.cst (constant S_ .f32 0x00000000#32),
    TRef.unary main_call6.cst main_call6.v0 (broadcastInDim S16384x3x1280 ![] bcast_S_S16384x3x1280),
    TRef.binary (.of main_v90) main_call6.v0 main_call6.v1 maximumf,
    unary main_arg1 main_v92 ((extractStridedSlice S1x1280x256 ![3, 0, 0] · slices_S7x2048x256_S1x1280x256_3_0_0) : (⟨S7x2048x256, .f32⟩ : BufTy).Contents (Elt F) → (⟨S1x1280x256, .f32⟩ : BufTy).Contents (Elt F)),
    reshape main_v92 main_v93 rfl shapeCasts_S1x1280x256_S1280x256,
    binary main_v91 main_v93 main_v94 ((fun l r => Host.dotGeneral dot_S16384x3x1280_S1280x256_S16384x3x256_2_0_01_1_n_n none l r) : (⟨S16384x3x1280, .f32⟩ : BufTy).Contents (Elt F) → (⟨S1280x256, .f32⟩ : BufTy).Contents (Elt F) → (⟨S16384x3x256, .f32⟩ : BufTy).Contents (Elt F)),
    unary main_arg2 main_v95 ((extractStridedSlice S1x256 ![3, 0] · slices_S7x256_S1x256_3_0) : (⟨S7x256, .f32⟩ : BufTy).Contents (Elt F) → (⟨S1x256, .f32⟩ : BufTy).Contents (Elt F)),
    reshape main_v95 main_v96 rfl shapeCasts_S1x256_S256,
    unary main_v96 main_v97 (broadcastInDim S1x1x256 ![2] bcast_S256_S1x1x256_2 : (⟨S256, .f32⟩ : BufTy).Contents (Elt F) → (⟨S1x1x256, .f32⟩ : BufTy).Contents (Elt F)),
    unary main_v97 main_v98 (broadcastInDim S16384x3x256 ![0, 1, 2] bcast_S1x1x256_S16384x3x256_0_1_2 : (⟨S1x1x256, .f32⟩ : BufTy).Contents (Elt F) → (⟨S16384x3x256, .f32⟩ : BufTy).Contents (Elt F)),
    binary main_v94 main_v98 main_v99 (addf : (⟨S16384x3x256, .f32⟩ : BufTy).Contents (Elt F) → (⟨S16384x3x256, .f32⟩ : BufTy).Contents (Elt F) → (⟨S16384x3x256, .f32⟩ : BufTy).Contents (Elt F)),
    TRef.nullary main_call7.cst (constant S_ .f32 0x00000000#32),
    TRef.unary main_call7.cst main_call7.v0 (broadcastInDim S16384x3x256 ![] bcast_S_S16384x3x256),
    TRef.binary (.of main_v99) main_call7.v0 main_call7.v1 maximumf,
    unary main_arg3 main_v101 ((extractStridedSlice S1x256x174 ![3, 0, 0] · slices_S7x256x174_S1x256x174_3_0_0) : (⟨S7x256x174, .f32⟩ : BufTy).Contents (Elt F) → (⟨S1x256x174, .f32⟩ : BufTy).Contents (Elt F)),
    reshape main_v101 main_v102 rfl shapeCasts_S1x256x174_S256x174,
    binary main_v100 main_v102 main_v103 ((fun l r => Host.dotGeneral dot_S16384x3x256_S256x174_S16384x3x174_2_0_01_1_n_n none l r) : (⟨S16384x3x256, .f32⟩ : BufTy).Contents (Elt F) → (⟨S256x174, .f32⟩ : BufTy).Contents (Elt F) → (⟨S16384x3x174, .f32⟩ : BufTy).Contents (Elt F)),
    unary main_arg4 main_v104 ((extractStridedSlice S1x174 ![3, 0] · slices_S7x174_S1x174_3_0) : (⟨S7x174, .f32⟩ : BufTy).Contents (Elt F) → (⟨S1x174, .f32⟩ : BufTy).Contents (Elt F)),
    reshape main_v104 main_v105 rfl shapeCasts_S1x174_S174,
    unary main_v105 main_v106 (broadcastInDim S1x1x174 ![2] bcast_S174_S1x1x174_2 : (⟨S174, .f32⟩ : BufTy).Contents (Elt F) → (⟨S1x1x174, .f32⟩ : BufTy).Contents (Elt F)),
    unary main_v106 main_v107 (broadcastInDim S16384x3x174 ![0, 1, 2] bcast_S1x1x174_S16384x3x174_0_1_2 : (⟨S1x1x174, .f32⟩ : BufTy).Contents (Elt F) → (⟨S16384x3x174, .f32⟩ : BufTy).Contents (Elt F)),
    binary main_v103 main_v107 main_v108 (addf : (⟨S16384x3x174, .f32⟩ : BufTy).Contents (Elt F) → (⟨S16384x3x174, .f32⟩ : BufTy).Contents (Elt F) → (⟨S16384x3x174, .f32⟩ : BufTy).Contents (Elt F)),
    nullary main_cst_16 (constant S_ .f32 0x00000000#32),
    binary main_v108 main_cst_16 main_v109 ((fun x v => Host.reduceAdd x v reducesTo_S16384x3x174_S16384x174_d1 h_S_) : (⟨S16384x3x174, .f32⟩ : BufTy).Contents (Elt F) → (⟨S_, .f32⟩ : BufTy).Contents (Elt F) → (⟨S16384x174, .f32⟩ : BufTy).Contents (Elt F)),
    binary main_v82 main_v109 main_v110 (addf : (⟨S16384x174, .f32⟩ : BufTy).Contents (Elt F) → (⟨S16384x174, .f32⟩ : BufTy).Contents (Elt F) → (⟨S16384x174, .f32⟩ : BufTy).Contents (Elt F)) ]

/-- Scale 4: its start indices, gather, two layers and the sum over its relations, added to the running total. (35 operations) -/
abbrev sc4 : List (HloOp τ sig (Elt F)) :=
  [ nullary main_c_17 (constantI S_ 32 0#32),
    unary main_c_17 main_v111 (broadcastInDim S3x4 ![] bcast_S_S3x4 : (⟨S_, .i32⟩ : BufTy).Contents (Elt F) → (⟨S3x4, .i32⟩ : BufTy).Contents (Elt F)),
    binary main_c_3 main_v111 main_v112 (cmpi .slt : (⟨S3x4, .i32⟩ : BufTy).Contents (Elt F) → (⟨S3x4, .i32⟩ : BufTy).Contents (Elt F) → (⟨S3x4, .i1⟩ : BufTy).Contents (Elt F)),
    nullary main_c_18 (constantI S_ 32 8#32),
    unary main_c_18 main_v113 (broadcastInDim S3x4 ![] bcast_S_S3x4 : (⟨S_, .i32⟩ : BufTy).Contents (Elt F) → (⟨S3x4, .i32⟩ : BufTy).Contents (Elt F)),
    binary main_c_3 main_v113 main_v114 (addi : (⟨S3x4, .i32⟩ : BufTy).Contents (Elt F) → (⟨S3x4, .i32⟩ : BufTy).Contents (Elt F) → (⟨S3x4, .i32⟩ : BufTy).Contents (Elt F)),
    ternary main_v112 main_v114 main_c_3 main_v115 (select : (⟨S3x4, .i1⟩ : BufTy).Contents (Elt F) → (⟨S3x4, .i32⟩ : BufTy).Contents (Elt F) → (⟨S3x4, .i32⟩ : BufTy).Contents (Elt F) → (⟨S3x4, .i32⟩ : BufTy).Contents (Elt F)),
    unary main_v115 main_v116 (broadcastInDim S3x4x1 ![0, 1] bcast_S3x4_S3x4x1_0_1 : (⟨S3x4, .i32⟩ : BufTy).Contents (Elt F) → (⟨S3x4x1, .i32⟩ : BufTy).Contents (Elt F)),
    binary main_arg0 main_v116 main_v117 ((fun x i => Host.gather gather_S16384x8x256_S3x4x1_S16384x3x4x256_03_1_n_n_1_2_163841256 x i) : (⟨S16384x8x256, .f32⟩ : BufTy).Contents (Elt F) → (⟨S3x4x1, .i32⟩ : BufTy).Contents (Elt F) → (⟨S16384x3x4x256, .f32⟩ : BufTy).Contents (Elt F)),
    reshape main_v117 main_v118 rfl shapeCasts_S16384x3x4x256_S16384x3x1024,
    TRef.nullary main_call8.cst (constant S_ .f32 0x00000000#32),
    TRef.unary main_call8.cst main_call8.v0 (broadcastInDim S16384x3x1024 ![] bcast_S_S16384x3x1024),
    TRef.binary (.of main_v118) main_call8.v0 main_call8.v1 maximumf,
    unary main_arg1 main_v120 ((extractStridedSlice S1x1024x256 ![4, 0, 0] · slices_S7x2048x256_S1x1024x256_4_0_0) : (⟨S7x2048x256, .f32⟩ : BufTy).Contents (Elt F) → (⟨S1x1024x256, .f32⟩ : BufTy).Contents (Elt F)),
    reshape main_v120 main_v121 rfl shapeCasts_S1x1024x256_S1024x256,
    binary main_v119 main_v121 main_v122 ((fun l r => Host.dotGeneral dot_S16384x3x1024_S1024x256_S16384x3x256_2_0_01_1_n_n none l r) : (⟨S16384x3x1024, .f32⟩ : BufTy).Contents (Elt F) → (⟨S1024x256, .f32⟩ : BufTy).Contents (Elt F) → (⟨S16384x3x256, .f32⟩ : BufTy).Contents (Elt F)),
    unary main_arg2 main_v123 ((extractStridedSlice S1x256 ![4, 0] · slices_S7x256_S1x256_4_0) : (⟨S7x256, .f32⟩ : BufTy).Contents (Elt F) → (⟨S1x256, .f32⟩ : BufTy).Contents (Elt F)),
    reshape main_v123 main_v124 rfl shapeCasts_S1x256_S256,
    unary main_v124 main_v125 (broadcastInDim S1x1x256 ![2] bcast_S256_S1x1x256_2 : (⟨S256, .f32⟩ : BufTy).Contents (Elt F) → (⟨S1x1x256, .f32⟩ : BufTy).Contents (Elt F)),
    unary main_v125 main_v126 (broadcastInDim S16384x3x256 ![0, 1, 2] bcast_S1x1x256_S16384x3x256_0_1_2 : (⟨S1x1x256, .f32⟩ : BufTy).Contents (Elt F) → (⟨S16384x3x256, .f32⟩ : BufTy).Contents (Elt F)),
    binary main_v122 main_v126 main_v127 (addf : (⟨S16384x3x256, .f32⟩ : BufTy).Contents (Elt F) → (⟨S16384x3x256, .f32⟩ : BufTy).Contents (Elt F) → (⟨S16384x3x256, .f32⟩ : BufTy).Contents (Elt F)),
    TRef.nullary main_call9.cst (constant S_ .f32 0x00000000#32),
    TRef.unary main_call9.cst main_call9.v0 (broadcastInDim S16384x3x256 ![] bcast_S_S16384x3x256),
    TRef.binary (.of main_v127) main_call9.v0 main_call9.v1 maximumf,
    unary main_arg3 main_v129 ((extractStridedSlice S1x256x174 ![4, 0, 0] · slices_S7x256x174_S1x256x174_4_0_0) : (⟨S7x256x174, .f32⟩ : BufTy).Contents (Elt F) → (⟨S1x256x174, .f32⟩ : BufTy).Contents (Elt F)),
    reshape main_v129 main_v130 rfl shapeCasts_S1x256x174_S256x174,
    binary main_v128 main_v130 main_v131 ((fun l r => Host.dotGeneral dot_S16384x3x256_S256x174_S16384x3x174_2_0_01_1_n_n none l r) : (⟨S16384x3x256, .f32⟩ : BufTy).Contents (Elt F) → (⟨S256x174, .f32⟩ : BufTy).Contents (Elt F) → (⟨S16384x3x174, .f32⟩ : BufTy).Contents (Elt F)),
    unary main_arg4 main_v132 ((extractStridedSlice S1x174 ![4, 0] · slices_S7x174_S1x174_4_0) : (⟨S7x174, .f32⟩ : BufTy).Contents (Elt F) → (⟨S1x174, .f32⟩ : BufTy).Contents (Elt F)),
    reshape main_v132 main_v133 rfl shapeCasts_S1x174_S174,
    unary main_v133 main_v134 (broadcastInDim S1x1x174 ![2] bcast_S174_S1x1x174_2 : (⟨S174, .f32⟩ : BufTy).Contents (Elt F) → (⟨S1x1x174, .f32⟩ : BufTy).Contents (Elt F)),
    unary main_v134 main_v135 (broadcastInDim S16384x3x174 ![0, 1, 2] bcast_S1x1x174_S16384x3x174_0_1_2 : (⟨S1x1x174, .f32⟩ : BufTy).Contents (Elt F) → (⟨S16384x3x174, .f32⟩ : BufTy).Contents (Elt F)),
    binary main_v131 main_v135 main_v136 (addf : (⟨S16384x3x174, .f32⟩ : BufTy).Contents (Elt F) → (⟨S16384x3x174, .f32⟩ : BufTy).Contents (Elt F) → (⟨S16384x3x174, .f32⟩ : BufTy).Contents (Elt F)),
    nullary main_cst_19 (constant S_ .f32 0x00000000#32),
    binary main_v136 main_cst_19 main_v137 ((fun x v => Host.reduceAdd x v reducesTo_S16384x3x174_S16384x174_d1 h_S_) : (⟨S16384x3x174, .f32⟩ : BufTy).Contents (Elt F) → (⟨S_, .f32⟩ : BufTy).Contents (Elt F) → (⟨S16384x174, .f32⟩ : BufTy).Contents (Elt F)),
    binary main_v110 main_v137 main_v138 (addf : (⟨S16384x174, .f32⟩ : BufTy).Contents (Elt F) → (⟨S16384x174, .f32⟩ : BufTy).Contents (Elt F) → (⟨S16384x174, .f32⟩ : BufTy).Contents (Elt F)) ]

/-- Scale 5: its start indices, gather, two layers and the sum over its relations, added to the running total. (35 operations) -/
abbrev sc5 : List (HloOp τ sig (Elt F)) :=
  [ nullary main_c_20 (constantI S_ 32 0#32),
    unary main_c_20 main_v139 (broadcastInDim S3x3 ![] bcast_S_S3x3 : (⟨S_, .i32⟩ : BufTy).Contents (Elt F) → (⟨S3x3, .i32⟩ : BufTy).Contents (Elt F)),
    binary main_c_4 main_v139 main_v140 (cmpi .slt : (⟨S3x3, .i32⟩ : BufTy).Contents (Elt F) → (⟨S3x3, .i32⟩ : BufTy).Contents (Elt F) → (⟨S3x3, .i1⟩ : BufTy).Contents (Elt F)),
    nullary main_c_21 (constantI S_ 32 8#32),
    unary main_c_21 main_v141 (broadcastInDim S3x3 ![] bcast_S_S3x3 : (⟨S_, .i32⟩ : BufTy).Contents (Elt F) → (⟨S3x3, .i32⟩ : BufTy).Contents (Elt F)),
    binary main_c_4 main_v141 main_v142 (addi : (⟨S3x3, .i32⟩ : BufTy).Contents (Elt F) → (⟨S3x3, .i32⟩ : BufTy).Contents (Elt F) → (⟨S3x3, .i32⟩ : BufTy).Contents (Elt F)),
    ternary main_v140 main_v142 main_c_4 main_v143 (select : (⟨S3x3, .i1⟩ : BufTy).Contents (Elt F) → (⟨S3x3, .i32⟩ : BufTy).Contents (Elt F) → (⟨S3x3, .i32⟩ : BufTy).Contents (Elt F) → (⟨S3x3, .i32⟩ : BufTy).Contents (Elt F)),
    unary main_v143 main_v144 (broadcastInDim S3x3x1 ![0, 1] bcast_S3x3_S3x3x1_0_1 : (⟨S3x3, .i32⟩ : BufTy).Contents (Elt F) → (⟨S3x3x1, .i32⟩ : BufTy).Contents (Elt F)),
    binary main_arg0 main_v144 main_v145 ((fun x i => Host.gather gather_S16384x8x256_S3x3x1_S16384x3x3x256_03_1_n_n_1_2_163841256 x i) : (⟨S16384x8x256, .f32⟩ : BufTy).Contents (Elt F) → (⟨S3x3x1, .i32⟩ : BufTy).Contents (Elt F) → (⟨S16384x3x3x256, .f32⟩ : BufTy).Contents (Elt F)),
    reshape main_v145 main_v146 rfl shapeCasts_S16384x3x3x256_S16384x3x768,
    TRef.nullary main_call10.cst (constant S_ .f32 0x00000000#32),
    TRef.unary main_call10.cst main_call10.v0 (broadcastInDim S16384x3x768 ![] bcast_S_S16384x3x768),
    TRef.binary (.of main_v146) main_call10.v0 main_call10.v1 maximumf,
    unary main_arg1 main_v148 ((extractStridedSlice S1x768x256 ![5, 0, 0] · slices_S7x2048x256_S1x768x256_5_0_0) : (⟨S7x2048x256, .f32⟩ : BufTy).Contents (Elt F) → (⟨S1x768x256, .f32⟩ : BufTy).Contents (Elt F)),
    reshape main_v148 main_v149 rfl shapeCasts_S1x768x256_S768x256,
    binary main_v147 main_v149 main_v150 ((fun l r => Host.dotGeneral dot_S16384x3x768_S768x256_S16384x3x256_2_0_01_1_n_n none l r) : (⟨S16384x3x768, .f32⟩ : BufTy).Contents (Elt F) → (⟨S768x256, .f32⟩ : BufTy).Contents (Elt F) → (⟨S16384x3x256, .f32⟩ : BufTy).Contents (Elt F)),
    unary main_arg2 main_v151 ((extractStridedSlice S1x256 ![5, 0] · slices_S7x256_S1x256_5_0) : (⟨S7x256, .f32⟩ : BufTy).Contents (Elt F) → (⟨S1x256, .f32⟩ : BufTy).Contents (Elt F)),
    reshape main_v151 main_v152 rfl shapeCasts_S1x256_S256,
    unary main_v152 main_v153 (broadcastInDim S1x1x256 ![2] bcast_S256_S1x1x256_2 : (⟨S256, .f32⟩ : BufTy).Contents (Elt F) → (⟨S1x1x256, .f32⟩ : BufTy).Contents (Elt F)),
    unary main_v153 main_v154 (broadcastInDim S16384x3x256 ![0, 1, 2] bcast_S1x1x256_S16384x3x256_0_1_2 : (⟨S1x1x256, .f32⟩ : BufTy).Contents (Elt F) → (⟨S16384x3x256, .f32⟩ : BufTy).Contents (Elt F)),
    binary main_v150 main_v154 main_v155 (addf : (⟨S16384x3x256, .f32⟩ : BufTy).Contents (Elt F) → (⟨S16384x3x256, .f32⟩ : BufTy).Contents (Elt F) → (⟨S16384x3x256, .f32⟩ : BufTy).Contents (Elt F)),
    TRef.nullary main_call11.cst (constant S_ .f32 0x00000000#32),
    TRef.unary main_call11.cst main_call11.v0 (broadcastInDim S16384x3x256 ![] bcast_S_S16384x3x256),
    TRef.binary (.of main_v155) main_call11.v0 main_call11.v1 maximumf,
    unary main_arg3 main_v157 ((extractStridedSlice S1x256x174 ![5, 0, 0] · slices_S7x256x174_S1x256x174_5_0_0) : (⟨S7x256x174, .f32⟩ : BufTy).Contents (Elt F) → (⟨S1x256x174, .f32⟩ : BufTy).Contents (Elt F)),
    reshape main_v157 main_v158 rfl shapeCasts_S1x256x174_S256x174,
    binary main_v156 main_v158 main_v159 ((fun l r => Host.dotGeneral dot_S16384x3x256_S256x174_S16384x3x174_2_0_01_1_n_n none l r) : (⟨S16384x3x256, .f32⟩ : BufTy).Contents (Elt F) → (⟨S256x174, .f32⟩ : BufTy).Contents (Elt F) → (⟨S16384x3x174, .f32⟩ : BufTy).Contents (Elt F)),
    unary main_arg4 main_v160 ((extractStridedSlice S1x174 ![5, 0] · slices_S7x174_S1x174_5_0) : (⟨S7x174, .f32⟩ : BufTy).Contents (Elt F) → (⟨S1x174, .f32⟩ : BufTy).Contents (Elt F)),
    reshape main_v160 main_v161 rfl shapeCasts_S1x174_S174,
    unary main_v161 main_v162 (broadcastInDim S1x1x174 ![2] bcast_S174_S1x1x174_2 : (⟨S174, .f32⟩ : BufTy).Contents (Elt F) → (⟨S1x1x174, .f32⟩ : BufTy).Contents (Elt F)),
    unary main_v162 main_v163 (broadcastInDim S16384x3x174 ![0, 1, 2] bcast_S1x1x174_S16384x3x174_0_1_2 : (⟨S1x1x174, .f32⟩ : BufTy).Contents (Elt F) → (⟨S16384x3x174, .f32⟩ : BufTy).Contents (Elt F)),
    binary main_v159 main_v163 main_v164 (addf : (⟨S16384x3x174, .f32⟩ : BufTy).Contents (Elt F) → (⟨S16384x3x174, .f32⟩ : BufTy).Contents (Elt F) → (⟨S16384x3x174, .f32⟩ : BufTy).Contents (Elt F)),
    nullary main_cst_22 (constant S_ .f32 0x00000000#32),
    binary main_v164 main_cst_22 main_v165 ((fun x v => Host.reduceAdd x v reducesTo_S16384x3x174_S16384x174_d1 h_S_) : (⟨S16384x3x174, .f32⟩ : BufTy).Contents (Elt F) → (⟨S_, .f32⟩ : BufTy).Contents (Elt F) → (⟨S16384x174, .f32⟩ : BufTy).Contents (Elt F)),
    binary main_v138 main_v165 main_v166 (addf : (⟨S16384x174, .f32⟩ : BufTy).Contents (Elt F) → (⟨S16384x174, .f32⟩ : BufTy).Contents (Elt F) → (⟨S16384x174, .f32⟩ : BufTy).Contents (Elt F)) ]

/-- Scale 6: its start indices, gather, two layers and the sum over its relations, added to the running total. (35 operations) -/
abbrev sc6 : List (HloOp τ sig (Elt F)) :=
  [ nullary main_c_23 (constantI S_ 32 0#32),
    unary main_c_23 main_v167 (broadcastInDim S3x2 ![] bcast_S_S3x2 : (⟨S_, .i32⟩ : BufTy).Contents (Elt F) → (⟨S3x2, .i32⟩ : BufTy).Contents (Elt F)),
    binary main_c_5 main_v167 main_v168 (cmpi .slt : (⟨S3x2, .i32⟩ : BufTy).Contents (Elt F) → (⟨S3x2, .i32⟩ : BufTy).Contents (Elt F) → (⟨S3x2, .i1⟩ : BufTy).Contents (Elt F)),
    nullary main_c_24 (constantI S_ 32 8#32),
    unary main_c_24 main_v169 (broadcastInDim S3x2 ![] bcast_S_S3x2 : (⟨S_, .i32⟩ : BufTy).Contents (Elt F) → (⟨S3x2, .i32⟩ : BufTy).Contents (Elt F)),
    binary main_c_5 main_v169 main_v170 (addi : (⟨S3x2, .i32⟩ : BufTy).Contents (Elt F) → (⟨S3x2, .i32⟩ : BufTy).Contents (Elt F) → (⟨S3x2, .i32⟩ : BufTy).Contents (Elt F)),
    ternary main_v168 main_v170 main_c_5 main_v171 (select : (⟨S3x2, .i1⟩ : BufTy).Contents (Elt F) → (⟨S3x2, .i32⟩ : BufTy).Contents (Elt F) → (⟨S3x2, .i32⟩ : BufTy).Contents (Elt F) → (⟨S3x2, .i32⟩ : BufTy).Contents (Elt F)),
    unary main_v171 main_v172 (broadcastInDim S3x2x1 ![0, 1] bcast_S3x2_S3x2x1_0_1 : (⟨S3x2, .i32⟩ : BufTy).Contents (Elt F) → (⟨S3x2x1, .i32⟩ : BufTy).Contents (Elt F)),
    binary main_arg0 main_v172 main_v173 ((fun x i => Host.gather gather_S16384x8x256_S3x2x1_S16384x3x2x256_03_1_n_n_1_2_163841256 x i) : (⟨S16384x8x256, .f32⟩ : BufTy).Contents (Elt F) → (⟨S3x2x1, .i32⟩ : BufTy).Contents (Elt F) → (⟨S16384x3x2x256, .f32⟩ : BufTy).Contents (Elt F)),
    reshape main_v173 main_v174 rfl shapeCasts_S16384x3x2x256_S16384x3x512,
    TRef.nullary main_call12.cst (constant S_ .f32 0x00000000#32),
    TRef.unary main_call12.cst main_call12.v0 (broadcastInDim S16384x3x512 ![] bcast_S_S16384x3x512),
    TRef.binary (.of main_v174) main_call12.v0 main_call12.v1 maximumf,
    unary main_arg1 main_v176 ((extractStridedSlice S1x512x256 ![6, 0, 0] · slices_S7x2048x256_S1x512x256_6_0_0) : (⟨S7x2048x256, .f32⟩ : BufTy).Contents (Elt F) → (⟨S1x512x256, .f32⟩ : BufTy).Contents (Elt F)),
    reshape main_v176 main_v177 rfl shapeCasts_S1x512x256_S512x256,
    binary main_v175 main_v177 main_v178 ((fun l r => Host.dotGeneral dot_S16384x3x512_S512x256_S16384x3x256_2_0_01_1_n_n none l r) : (⟨S16384x3x512, .f32⟩ : BufTy).Contents (Elt F) → (⟨S512x256, .f32⟩ : BufTy).Contents (Elt F) → (⟨S16384x3x256, .f32⟩ : BufTy).Contents (Elt F)),
    unary main_arg2 main_v179 ((extractStridedSlice S1x256 ![6, 0] · slices_S7x256_S1x256_6_0) : (⟨S7x256, .f32⟩ : BufTy).Contents (Elt F) → (⟨S1x256, .f32⟩ : BufTy).Contents (Elt F)),
    reshape main_v179 main_v180 rfl shapeCasts_S1x256_S256,
    unary main_v180 main_v181 (broadcastInDim S1x1x256 ![2] bcast_S256_S1x1x256_2 : (⟨S256, .f32⟩ : BufTy).Contents (Elt F) → (⟨S1x1x256, .f32⟩ : BufTy).Contents (Elt F)),
    unary main_v181 main_v182 (broadcastInDim S16384x3x256 ![0, 1, 2] bcast_S1x1x256_S16384x3x256_0_1_2 : (⟨S1x1x256, .f32⟩ : BufTy).Contents (Elt F) → (⟨S16384x3x256, .f32⟩ : BufTy).Contents (Elt F)),
    binary main_v178 main_v182 main_v183 (addf : (⟨S16384x3x256, .f32⟩ : BufTy).Contents (Elt F) → (⟨S16384x3x256, .f32⟩ : BufTy).Contents (Elt F) → (⟨S16384x3x256, .f32⟩ : BufTy).Contents (Elt F)),
    TRef.nullary main_call13.cst (constant S_ .f32 0x00000000#32),
    TRef.unary main_call13.cst main_call13.v0 (broadcastInDim S16384x3x256 ![] bcast_S_S16384x3x256),
    TRef.binary (.of main_v183) main_call13.v0 main_call13.v1 maximumf,
    unary main_arg3 main_v185 ((extractStridedSlice S1x256x174 ![6, 0, 0] · slices_S7x256x174_S1x256x174_6_0_0) : (⟨S7x256x174, .f32⟩ : BufTy).Contents (Elt F) → (⟨S1x256x174, .f32⟩ : BufTy).Contents (Elt F)),
    reshape main_v185 main_v186 rfl shapeCasts_S1x256x174_S256x174,
    binary main_v184 main_v186 main_v187 ((fun l r => Host.dotGeneral dot_S16384x3x256_S256x174_S16384x3x174_2_0_01_1_n_n none l r) : (⟨S16384x3x256, .f32⟩ : BufTy).Contents (Elt F) → (⟨S256x174, .f32⟩ : BufTy).Contents (Elt F) → (⟨S16384x3x174, .f32⟩ : BufTy).Contents (Elt F)),
    unary main_arg4 main_v188 ((extractStridedSlice S1x174 ![6, 0] · slices_S7x174_S1x174_6_0) : (⟨S7x174, .f32⟩ : BufTy).Contents (Elt F) → (⟨S1x174, .f32⟩ : BufTy).Contents (Elt F)),
    reshape main_v188 main_v189 rfl shapeCasts_S1x174_S174,
    unary main_v189 main_v190 (broadcastInDim S1x1x174 ![2] bcast_S174_S1x1x174_2 : (⟨S174, .f32⟩ : BufTy).Contents (Elt F) → (⟨S1x1x174, .f32⟩ : BufTy).Contents (Elt F)),
    unary main_v190 main_v191 (broadcastInDim S16384x3x174 ![0, 1, 2] bcast_S1x1x174_S16384x3x174_0_1_2 : (⟨S1x1x174, .f32⟩ : BufTy).Contents (Elt F) → (⟨S16384x3x174, .f32⟩ : BufTy).Contents (Elt F)),
    binary main_v187 main_v191 main_v192 (addf : (⟨S16384x3x174, .f32⟩ : BufTy).Contents (Elt F) → (⟨S16384x3x174, .f32⟩ : BufTy).Contents (Elt F) → (⟨S16384x3x174, .f32⟩ : BufTy).Contents (Elt F)),
    nullary main_cst_25 (constant S_ .f32 0x00000000#32),
    binary main_v192 main_cst_25 main_v193 ((fun x v => Host.reduceAdd x v reducesTo_S16384x3x174_S16384x174_d1 h_S_) : (⟨S16384x3x174, .f32⟩ : BufTy).Contents (Elt F) → (⟨S_, .f32⟩ : BufTy).Contents (Elt F) → (⟨S16384x174, .f32⟩ : BufTy).Contents (Elt F)),
    binary main_v166 main_v193 main_v194 (addf : (⟨S16384x174, .f32⟩ : BufTy).Contents (Elt F) → (⟨S16384x174, .f32⟩ : BufTy).Contents (Elt F) → (⟨S16384x174, .f32⟩ : BufTy).Contents (Elt F)) ]

/-- The operations of the printed window main_part0 (statements 1 to 60; 68 operations). -/
abbrev part0 : List (HloOp τ sig (Elt F)) :=
  [ nullary main_c (fun i => lit0 (S1x8.rowMajor i)),
    nullary main_c_0 (fun i => lit1 (S3x7.rowMajor i)),
    nullary main_c_1 (fun i => lit2 (S3x6.rowMajor i)),
    nullary main_c_2 (fun i => lit3 (S3x5.rowMajor i)),
    nullary main_c_3 (fun i => lit4 (S3x4.rowMajor i)),
    nullary main_c_4 (fun i => lit5 (S3x3.rowMajor i)),
    nullary main_c_5 (fun i => lit6 (S3x2.rowMajor i)),
    nullary main_c_6 (constantI S_ 32 0#32),
    unary main_c_6 main_v0 (broadcastInDim S1x8 ![] bcast_S_S1x8 : (⟨S_, .i32⟩ : BufTy).Contents (Elt F) → (⟨S1x8, .i32⟩ : BufTy).Contents (Elt F)),
    binary main_c main_v0 main_v1 (cmpi .slt : (⟨S1x8, .i32⟩ : BufTy).Contents (Elt F) → (⟨S1x8, .i32⟩ : BufTy).Contents (Elt F) → (⟨S1x8, .i1⟩ : BufTy).Contents (Elt F)),
    nullary main_c_7 (constantI S_ 32 8#32),
    unary main_c_7 main_v2 (broadcastInDim S1x8 ![] bcast_S_S1x8 : (⟨S_, .i32⟩ : BufTy).Contents (Elt F) → (⟨S1x8, .i32⟩ : BufTy).Contents (Elt F)),
    binary main_c main_v2 main_v3 (addi : (⟨S1x8, .i32⟩ : BufTy).Contents (Elt F) → (⟨S1x8, .i32⟩ : BufTy).Contents (Elt F) → (⟨S1x8, .i32⟩ : BufTy).Contents (Elt F)),
    ternary main_v1 main_v3 main_c main_v4 (select : (⟨S1x8, .i1⟩ : BufTy).Contents (Elt F) → (⟨S1x8, .i32⟩ : BufTy).Contents (Elt F) → (⟨S1x8, .i32⟩ : BufTy).Contents (Elt F) → (⟨S1x8, .i32⟩ : BufTy).Contents (Elt F)),
    unary main_v4 main_v5 (broadcastInDim S1x8x1 ![0, 1] bcast_S1x8_S1x8x1_0_1 : (⟨S1x8, .i32⟩ : BufTy).Contents (Elt F) → (⟨S1x8x1, .i32⟩ : BufTy).Contents (Elt F)),
    binary main_arg0 main_v5 main_v6 ((fun x i => Host.gather gather_S16384x8x256_S1x8x1_S16384x1x8x256_03_1_n_n_1_2_163841256 x i) : (⟨S16384x8x256, .f32⟩ : BufTy).Contents (Elt F) → (⟨S1x8x1, .i32⟩ : BufTy).Contents (Elt F) → (⟨S16384x1x8x256, .f32⟩ : BufTy).Contents (Elt F)),
    reshape main_v6 main_v7 rfl shapeCasts_S16384x1x8x256_S16384x1x2048,
    TRef.nullary main_call0.cst (constant S_ .f32 0x00000000#32),
    TRef.unary main_call0.cst main_call0.v0 (broadcastInDim S16384x1x2048 ![] bcast_S_S16384x1x2048),
    TRef.binary (.of main_v7) main_call0.v0 main_call0.v1 maximumf,
    unary main_arg1 main_v9 ((extractStridedSlice S1x2048x256 ![0, 0, 0] · slices_S7x2048x256_S1x2048x256_0_0_0) : (⟨S7x2048x256, .f32⟩ : BufTy).Contents (Elt F) → (⟨S1x2048x256, .f32⟩ : BufTy).Contents (Elt F)),
    reshape main_v9 main_v10 rfl shapeCasts_S1x2048x256_S2048x256,
    binary main_v8 main_v10 main_v11 ((fun l r => Host.dotGeneral dot_S16384x1x2048_S2048x256_S16384x1x256_2_0_01_1_n_n none l r) : (⟨S16384x1x2048, .f32⟩ : BufTy).Contents (Elt F) → (⟨S2048x256, .f32⟩ : BufTy).Contents (Elt F) → (⟨S16384x1x256, .f32⟩ : BufTy).Contents (Elt F)),
    unary main_arg2 main_v12 ((extractStridedSlice S1x256 ![0, 0] · slices_S7x256_S1x256_0_0) : (⟨S7x256, .f32⟩ : BufTy).Contents (Elt F) → (⟨S1x256, .f32⟩ : BufTy).Contents (Elt F)),
    reshape main_v12 main_v13 rfl shapeCasts_S1x256_S256,
    unary main_v13 main_v14 (broadcastInDim S1x1x256 ![2] bcast_S256_S1x1x256_2 : (⟨S256, .f32⟩ : BufTy).Contents (Elt F) → (⟨S1x1x256, .f32⟩ : BufTy).Contents (Elt F)),
    unary main_v14 main_v15 (broadcastInDim S16384x1x256 ![0, 1, 2] bcast_S1x1x256_S16384x1x256_0_1_2 : (⟨S1x1x256, .f32⟩ : BufTy).Contents (Elt F) → (⟨S16384x1x256, .f32⟩ : BufTy).Contents (Elt F)),
    binary main_v11 main_v15 main_v16 (addf : (⟨S16384x1x256, .f32⟩ : BufTy).Contents (Elt F) → (⟨S16384x1x256, .f32⟩ : BufTy).Contents (Elt F) → (⟨S16384x1x256, .f32⟩ : BufTy).Contents (Elt F)),
    TRef.nullary main_call1.cst (constant S_ .f32 0x00000000#32),
    TRef.unary main_call1.cst main_call1.v0 (broadcastInDim S16384x1x256 ![] bcast_S_S16384x1x256),
    TRef.binary (.of main_v16) main_call1.v0 main_call1.v1 maximumf,
    unary main_arg3 main_v18 ((extractStridedSlice S1x256x174 ![0, 0, 0] · slices_S7x256x174_S1x256x174_0_0_0) : (⟨S7x256x174, .f32⟩ : BufTy).Contents (Elt F) → (⟨S1x256x174, .f32⟩ : BufTy).Contents (Elt F)),
    reshape main_v18 main_v19 rfl shapeCasts_S1x256x174_S256x174,
    binary main_v17 main_v19 main_v20 ((fun l r => Host.dotGeneral dot_S16384x1x256_S256x174_S16384x1x174_2_0_01_1_n_n none l r) : (⟨S16384x1x256, .f32⟩ : BufTy).Contents (Elt F) → (⟨S256x174, .f32⟩ : BufTy).Contents (Elt F) → (⟨S16384x1x174, .f32⟩ : BufTy).Contents (Elt F)),
    unary main_arg4 main_v21 ((extractStridedSlice S1x174 ![0, 0] · slices_S7x174_S1x174_0_0) : (⟨S7x174, .f32⟩ : BufTy).Contents (Elt F) → (⟨S1x174, .f32⟩ : BufTy).Contents (Elt F)),
    reshape main_v21 main_v22 rfl shapeCasts_S1x174_S174,
    unary main_v22 main_v23 (broadcastInDim S1x1x174 ![2] bcast_S174_S1x1x174_2 : (⟨S174, .f32⟩ : BufTy).Contents (Elt F) → (⟨S1x1x174, .f32⟩ : BufTy).Contents (Elt F)),
    unary main_v23 main_v24 (broadcastInDim S16384x1x174 ![0, 1, 2] bcast_S1x1x174_S16384x1x174_0_1_2 : (⟨S1x1x174, .f32⟩ : BufTy).Contents (Elt F) → (⟨S16384x1x174, .f32⟩ : BufTy).Contents (Elt F)),
    binary main_v20 main_v24 main_v25 (addf : (⟨S16384x1x174, .f32⟩ : BufTy).Contents (Elt F) → (⟨S16384x1x174, .f32⟩ : BufTy).Contents (Elt F) → (⟨S16384x1x174, .f32⟩ : BufTy).Contents (Elt F)),
    nullary main_cst (constant S_ .f32 0x00000000#32),
    binary main_v25 main_cst main_v26 ((fun x v => Host.reduceAdd x v reducesTo_S16384x1x174_S16384x174_d1 h_S_) : (⟨S16384x1x174, .f32⟩ : BufTy).Contents (Elt F) → (⟨S_, .f32⟩ : BufTy).Contents (Elt F) → (⟨S16384x174, .f32⟩ : BufTy).Contents (Elt F)),
    nullary main_c_8 (constantI S_ 32 0#32),
    unary main_c_8 main_v27 (broadcastInDim S3x7 ![] bcast_S_S3x7 : (⟨S_, .i32⟩ : BufTy).Contents (Elt F) → (⟨S3x7, .i32⟩ : BufTy).Contents (Elt F)),
    binary main_c_0 main_v27 main_v28 (cmpi .slt : (⟨S3x7, .i32⟩ : BufTy).Contents (Elt F) → (⟨S3x7, .i32⟩ : BufTy).Contents (Elt F) → (⟨S3x7, .i1⟩ : BufTy).Contents (Elt F)),
    nullary main_c_9 (constantI S_ 32 8#32),
    unary main_c_9 main_v29 (broadcastInDim S3x7 ![] bcast_S_S3x7 : (⟨S_, .i32⟩ : BufTy).Contents (Elt F) → (⟨S3x7, .i32⟩ : BufTy).Contents (Elt F)),
    binary main_c_0 main_v29 main_v30 (addi : (⟨S3x7, .i32⟩ : BufTy).Contents (Elt F) → (⟨S3x7, .i32⟩ : BufTy).Contents (Elt F) → (⟨S3x7, .i32⟩ : BufTy).Contents (Elt F)),
    ternary main_v28 main_v30 main_c_0 main_v31 (select : (⟨S3x7, .i1⟩ : BufTy).Contents (Elt F) → (⟨S3x7, .i32⟩ : BufTy).Contents (Elt F) → (⟨S3x7, .i32⟩ : BufTy).Contents (Elt F) → (⟨S3x7, .i32⟩ : BufTy).Contents (Elt F)),
    unary main_v31 main_v32 (broadcastInDim S3x7x1 ![0, 1] bcast_S3x7_S3x7x1_0_1 : (⟨S3x7, .i32⟩ : BufTy).Contents (Elt F) → (⟨S3x7x1, .i32⟩ : BufTy).Contents (Elt F)),
    binary main_arg0 main_v32 main_v33 ((fun x i => Host.gather gather_S16384x8x256_S3x7x1_S16384x3x7x256_03_1_n_n_1_2_163841256 x i) : (⟨S16384x8x256, .f32⟩ : BufTy).Contents (Elt F) → (⟨S3x7x1, .i32⟩ : BufTy).Contents (Elt F) → (⟨S16384x3x7x256, .f32⟩ : BufTy).Contents (Elt F)),
    reshape main_v33 main_v34 rfl shapeCasts_S16384x3x7x256_S16384x3x1792,
    TRef.nullary main_call2.cst (constant S_ .f32 0x00000000#32),
    TRef.unary main_call2.cst main_call2.v0 (broadcastInDim S16384x3x1792 ![] bcast_S_S16384x3x1792),
    TRef.binary (.of main_v34) main_call2.v0 main_call2.v1 maximumf,
    unary main_arg1 main_v36 ((extractStridedSlice S1x1792x256 ![1, 0, 0] · slices_S7x2048x256_S1x1792x256_1_0_0) : (⟨S7x2048x256, .f32⟩ : BufTy).Contents (Elt F) → (⟨S1x1792x256, .f32⟩ : BufTy).Contents (Elt F)),
    reshape main_v36 main_v37 rfl shapeCasts_S1x1792x256_S1792x256,
    binary main_v35 main_v37 main_v38 ((fun l r => Host.dotGeneral dot_S16384x3x1792_S1792x256_S16384x3x256_2_0_01_1_n_n none l r) : (⟨S16384x3x1792, .f32⟩ : BufTy).Contents (Elt F) → (⟨S1792x256, .f32⟩ : BufTy).Contents (Elt F) → (⟨S16384x3x256, .f32⟩ : BufTy).Contents (Elt F)),
    unary main_arg2 main_v39 ((extractStridedSlice S1x256 ![1, 0] · slices_S7x256_S1x256_1_0) : (⟨S7x256, .f32⟩ : BufTy).Contents (Elt F) → (⟨S1x256, .f32⟩ : BufTy).Contents (Elt F)),
    reshape main_v39 main_v40 rfl shapeCasts_S1x256_S256,
    unary main_v40 main_v41 (broadcastInDim S1x1x256 ![2] bcast_S256_S1x1x256_2 : (⟨S256, .f32⟩ : BufTy).Contents (Elt F) → (⟨S1x1x256, .f32⟩ : BufTy).Contents (Elt F)),
    unary main_v41 main_v42 (broadcastInDim S16384x3x256 ![0, 1, 2] bcast_S1x1x256_S16384x3x256_0_1_2 : (⟨S1x1x256, .f32⟩ : BufTy).Contents (Elt F) → (⟨S16384x3x256, .f32⟩ : BufTy).Contents (Elt F)),
    binary main_v38 main_v42 main_v43 (addf : (⟨S16384x3x256, .f32⟩ : BufTy).Contents (Elt F) → (⟨S16384x3x256, .f32⟩ : BufTy).Contents (Elt F) → (⟨S16384x3x256, .f32⟩ : BufTy).Contents (Elt F)),
    TRef.nullary main_call3.cst (constant S_ .f32 0x00000000#32),
    TRef.unary main_call3.cst main_call3.v0 (broadcastInDim S16384x3x256 ![] bcast_S_S16384x3x256),
    TRef.binary (.of main_v43) main_call3.v0 main_call3.v1 maximumf,
    unary main_arg3 main_v45 ((extractStridedSlice S1x256x174 ![1, 0, 0] · slices_S7x256x174_S1x256x174_1_0_0) : (⟨S7x256x174, .f32⟩ : BufTy).Contents (Elt F) → (⟨S1x256x174, .f32⟩ : BufTy).Contents (Elt F)),
    reshape main_v45 main_v46 rfl shapeCasts_S1x256x174_S256x174,
    binary main_v44 main_v46 main_v47 ((fun l r => Host.dotGeneral dot_S16384x3x256_S256x174_S16384x3x174_2_0_01_1_n_n none l r) : (⟨S16384x3x256, .f32⟩ : BufTy).Contents (Elt F) → (⟨S256x174, .f32⟩ : BufTy).Contents (Elt F) → (⟨S16384x3x174, .f32⟩ : BufTy).Contents (Elt F)) ]

/-- The operations of the printed window main_part1 (statements 61 to 120; 68 operations). -/
abbrev part1 : List (HloOp τ sig (Elt F)) :=
  [ unary main_arg4 main_v48 ((extractStridedSlice S1x174 ![1, 0] · slices_S7x174_S1x174_1_0) : (⟨S7x174, .f32⟩ : BufTy).Contents (Elt F) → (⟨S1x174, .f32⟩ : BufTy).Contents (Elt F)),
    reshape main_v48 main_v49 rfl shapeCasts_S1x174_S174,
    unary main_v49 main_v50 (broadcastInDim S1x1x174 ![2] bcast_S174_S1x1x174_2 : (⟨S174, .f32⟩ : BufTy).Contents (Elt F) → (⟨S1x1x174, .f32⟩ : BufTy).Contents (Elt F)),
    unary main_v50 main_v51 (broadcastInDim S16384x3x174 ![0, 1, 2] bcast_S1x1x174_S16384x3x174_0_1_2 : (⟨S1x1x174, .f32⟩ : BufTy).Contents (Elt F) → (⟨S16384x3x174, .f32⟩ : BufTy).Contents (Elt F)),
    binary main_v47 main_v51 main_v52 (addf : (⟨S16384x3x174, .f32⟩ : BufTy).Contents (Elt F) → (⟨S16384x3x174, .f32⟩ : BufTy).Contents (Elt F) → (⟨S16384x3x174, .f32⟩ : BufTy).Contents (Elt F)),
    nullary main_cst_10 (constant S_ .f32 0x00000000#32),
    binary main_v52 main_cst_10 main_v53 ((fun x v => Host.reduceAdd x v reducesTo_S16384x3x174_S16384x174_d1 h_S_) : (⟨S16384x3x174, .f32⟩ : BufTy).Contents (Elt F) → (⟨S_, .f32⟩ : BufTy).Contents (Elt F) → (⟨S16384x174, .f32⟩ : BufTy).Contents (Elt F)),
    binary main_v26 main_v53 main_v54 (addf : (⟨S16384x174, .f32⟩ : BufTy).Contents (Elt F) → (⟨S16384x174, .f32⟩ : BufTy).Contents (Elt F) → (⟨S16384x174, .f32⟩ : BufTy).Contents (Elt F)),
    nullary main_c_11 (constantI S_ 32 0#32),
    unary main_c_11 main_v55 (broadcastInDim S3x6 ![] bcast_S_S3x6 : (⟨S_, .i32⟩ : BufTy).Contents (Elt F) → (⟨S3x6, .i32⟩ : BufTy).Contents (Elt F)),
    binary main_c_1 main_v55 main_v56 (cmpi .slt : (⟨S3x6, .i32⟩ : BufTy).Contents (Elt F) → (⟨S3x6, .i32⟩ : BufTy).Contents (Elt F) → (⟨S3x6, .i1⟩ : BufTy).Contents (Elt F)),
    nullary main_c_12 (constantI S_ 32 8#32),
    unary main_c_12 main_v57 (broadcastInDim S3x6 ![] bcast_S_S3x6 : (⟨S_, .i32⟩ : BufTy).Contents (Elt F) → (⟨S3x6, .i32⟩ : BufTy).Contents (Elt F)),
    binary main_c_1 main_v57 main_v58 (addi : (⟨S3x6, .i32⟩ : BufTy).Contents (Elt F) → (⟨S3x6, .i32⟩ : BufTy).Contents (Elt F) → (⟨S3x6, .i32⟩ : BufTy).Contents (Elt F)),
    ternary main_v56 main_v58 main_c_1 main_v59 (select : (⟨S3x6, .i1⟩ : BufTy).Contents (Elt F) → (⟨S3x6, .i32⟩ : BufTy).Contents (Elt F) → (⟨S3x6, .i32⟩ : BufTy).Contents (Elt F) → (⟨S3x6, .i32⟩ : BufTy).Contents (Elt F)),
    unary main_v59 main_v60 (broadcastInDim S3x6x1 ![0, 1] bcast_S3x6_S3x6x1_0_1 : (⟨S3x6, .i32⟩ : BufTy).Contents (Elt F) → (⟨S3x6x1, .i32⟩ : BufTy).Contents (Elt F)),
    binary main_arg0 main_v60 main_v61 ((fun x i => Host.gather gather_S16384x8x256_S3x6x1_S16384x3x6x256_03_1_n_n_1_2_163841256 x i) : (⟨S16384x8x256, .f32⟩ : BufTy).Contents (Elt F) → (⟨S3x6x1, .i32⟩ : BufTy).Contents (Elt F) → (⟨S16384x3x6x256, .f32⟩ : BufTy).Contents (Elt F)),
    reshape main_v61 main_v62 rfl shapeCasts_S16384x3x6x256_S16384x3x1536,
    TRef.nullary main_call4.cst (constant S_ .f32 0x00000000#32),
    TRef.unary main_call4.cst main_call4.v0 (broadcastInDim S16384x3x1536 ![] bcast_S_S16384x3x1536),
    TRef.binary (.of main_v62) main_call4.v0 main_call4.v1 maximumf,
    unary main_arg1 main_v64 ((extractStridedSlice S1x1536x256 ![2, 0, 0] · slices_S7x2048x256_S1x1536x256_2_0_0) : (⟨S7x2048x256, .f32⟩ : BufTy).Contents (Elt F) → (⟨S1x1536x256, .f32⟩ : BufTy).Contents (Elt F)),
    reshape main_v64 main_v65 rfl shapeCasts_S1x1536x256_S1536x256,
    binary main_v63 main_v65 main_v66 ((fun l r => Host.dotGeneral dot_S16384x3x1536_S1536x256_S16384x3x256_2_0_01_1_n_n none l r) : (⟨S16384x3x1536, .f32⟩ : BufTy).Contents (Elt F) → (⟨S1536x256, .f32⟩ : BufTy).Contents (Elt F) → (⟨S16384x3x256, .f32⟩ : BufTy).Contents (Elt F)),
    unary main_arg2 main_v67 ((extractStridedSlice S1x256 ![2, 0] · slices_S7x256_S1x256_2_0) : (⟨S7x256, .f32⟩ : BufTy).Contents (Elt F) → (⟨S1x256, .f32⟩ : BufTy).Contents (Elt F)),
    reshape main_v67 main_v68 rfl shapeCasts_S1x256_S256,
    unary main_v68 main_v69 (broadcastInDim S1x1x256 ![2] bcast_S256_S1x1x256_2 : (⟨S256, .f32⟩ : BufTy).Contents (Elt F) → (⟨S1x1x256, .f32⟩ : BufTy).Contents (Elt F)),
    unary main_v69 main_v70 (broadcastInDim S16384x3x256 ![0, 1, 2] bcast_S1x1x256_S16384x3x256_0_1_2 : (⟨S1x1x256, .f32⟩ : BufTy).Contents (Elt F) → (⟨S16384x3x256, .f32⟩ : BufTy).Contents (Elt F)),
    binary main_v66 main_v70 main_v71 (addf : (⟨S16384x3x256, .f32⟩ : BufTy).Contents (Elt F) → (⟨S16384x3x256, .f32⟩ : BufTy).Contents (Elt F) → (⟨S16384x3x256, .f32⟩ : BufTy).Contents (Elt F)),
    TRef.nullary main_call5.cst (constant S_ .f32 0x00000000#32),
    TRef.unary main_call5.cst main_call5.v0 (broadcastInDim S16384x3x256 ![] bcast_S_S16384x3x256),
    TRef.binary (.of main_v71) main_call5.v0 main_call5.v1 maximumf,
    unary main_arg3 main_v73 ((extractStridedSlice S1x256x174 ![2, 0, 0] · slices_S7x256x174_S1x256x174_2_0_0) : (⟨S7x256x174, .f32⟩ : BufTy).Contents (Elt F) → (⟨S1x256x174, .f32⟩ : BufTy).Contents (Elt F)),
    reshape main_v73 main_v74 rfl shapeCasts_S1x256x174_S256x174,
    binary main_v72 main_v74 main_v75 ((fun l r => Host.dotGeneral dot_S16384x3x256_S256x174_S16384x3x174_2_0_01_1_n_n none l r) : (⟨S16384x3x256, .f32⟩ : BufTy).Contents (Elt F) → (⟨S256x174, .f32⟩ : BufTy).Contents (Elt F) → (⟨S16384x3x174, .f32⟩ : BufTy).Contents (Elt F)),
    unary main_arg4 main_v76 ((extractStridedSlice S1x174 ![2, 0] · slices_S7x174_S1x174_2_0) : (⟨S7x174, .f32⟩ : BufTy).Contents (Elt F) → (⟨S1x174, .f32⟩ : BufTy).Contents (Elt F)),
    reshape main_v76 main_v77 rfl shapeCasts_S1x174_S174,
    unary main_v77 main_v78 (broadcastInDim S1x1x174 ![2] bcast_S174_S1x1x174_2 : (⟨S174, .f32⟩ : BufTy).Contents (Elt F) → (⟨S1x1x174, .f32⟩ : BufTy).Contents (Elt F)),
    unary main_v78 main_v79 (broadcastInDim S16384x3x174 ![0, 1, 2] bcast_S1x1x174_S16384x3x174_0_1_2 : (⟨S1x1x174, .f32⟩ : BufTy).Contents (Elt F) → (⟨S16384x3x174, .f32⟩ : BufTy).Contents (Elt F)),
    binary main_v75 main_v79 main_v80 (addf : (⟨S16384x3x174, .f32⟩ : BufTy).Contents (Elt F) → (⟨S16384x3x174, .f32⟩ : BufTy).Contents (Elt F) → (⟨S16384x3x174, .f32⟩ : BufTy).Contents (Elt F)),
    nullary main_cst_13 (constant S_ .f32 0x00000000#32),
    binary main_v80 main_cst_13 main_v81 ((fun x v => Host.reduceAdd x v reducesTo_S16384x3x174_S16384x174_d1 h_S_) : (⟨S16384x3x174, .f32⟩ : BufTy).Contents (Elt F) → (⟨S_, .f32⟩ : BufTy).Contents (Elt F) → (⟨S16384x174, .f32⟩ : BufTy).Contents (Elt F)),
    binary main_v54 main_v81 main_v82 (addf : (⟨S16384x174, .f32⟩ : BufTy).Contents (Elt F) → (⟨S16384x174, .f32⟩ : BufTy).Contents (Elt F) → (⟨S16384x174, .f32⟩ : BufTy).Contents (Elt F)),
    nullary main_c_14 (constantI S_ 32 0#32),
    unary main_c_14 main_v83 (broadcastInDim S3x5 ![] bcast_S_S3x5 : (⟨S_, .i32⟩ : BufTy).Contents (Elt F) → (⟨S3x5, .i32⟩ : BufTy).Contents (Elt F)),
    binary main_c_2 main_v83 main_v84 (cmpi .slt : (⟨S3x5, .i32⟩ : BufTy).Contents (Elt F) → (⟨S3x5, .i32⟩ : BufTy).Contents (Elt F) → (⟨S3x5, .i1⟩ : BufTy).Contents (Elt F)),
    nullary main_c_15 (constantI S_ 32 8#32),
    unary main_c_15 main_v85 (broadcastInDim S3x5 ![] bcast_S_S3x5 : (⟨S_, .i32⟩ : BufTy).Contents (Elt F) → (⟨S3x5, .i32⟩ : BufTy).Contents (Elt F)),
    binary main_c_2 main_v85 main_v86 (addi : (⟨S3x5, .i32⟩ : BufTy).Contents (Elt F) → (⟨S3x5, .i32⟩ : BufTy).Contents (Elt F) → (⟨S3x5, .i32⟩ : BufTy).Contents (Elt F)),
    ternary main_v84 main_v86 main_c_2 main_v87 (select : (⟨S3x5, .i1⟩ : BufTy).Contents (Elt F) → (⟨S3x5, .i32⟩ : BufTy).Contents (Elt F) → (⟨S3x5, .i32⟩ : BufTy).Contents (Elt F) → (⟨S3x5, .i32⟩ : BufTy).Contents (Elt F)),
    unary main_v87 main_v88 (broadcastInDim S3x5x1 ![0, 1] bcast_S3x5_S3x5x1_0_1 : (⟨S3x5, .i32⟩ : BufTy).Contents (Elt F) → (⟨S3x5x1, .i32⟩ : BufTy).Contents (Elt F)),
    binary main_arg0 main_v88 main_v89 ((fun x i => Host.gather gather_S16384x8x256_S3x5x1_S16384x3x5x256_03_1_n_n_1_2_163841256 x i) : (⟨S16384x8x256, .f32⟩ : BufTy).Contents (Elt F) → (⟨S3x5x1, .i32⟩ : BufTy).Contents (Elt F) → (⟨S16384x3x5x256, .f32⟩ : BufTy).Contents (Elt F)),
    reshape main_v89 main_v90 rfl shapeCasts_S16384x3x5x256_S16384x3x1280,
    TRef.nullary main_call6.cst (constant S_ .f32 0x00000000#32),
    TRef.unary main_call6.cst main_call6.v0 (broadcastInDim S16384x3x1280 ![] bcast_S_S16384x3x1280),
    TRef.binary (.of main_v90) main_call6.v0 main_call6.v1 maximumf,
    unary main_arg1 main_v92 ((extractStridedSlice S1x1280x256 ![3, 0, 0] · slices_S7x2048x256_S1x1280x256_3_0_0) : (⟨S7x2048x256, .f32⟩ : BufTy).Contents (Elt F) → (⟨S1x1280x256, .f32⟩ : BufTy).Contents (Elt F)),
    reshape main_v92 main_v93 rfl shapeCasts_S1x1280x256_S1280x256,
    binary main_v91 main_v93 main_v94 ((fun l r => Host.dotGeneral dot_S16384x3x1280_S1280x256_S16384x3x256_2_0_01_1_n_n none l r) : (⟨S16384x3x1280, .f32⟩ : BufTy).Contents (Elt F) → (⟨S1280x256, .f32⟩ : BufTy).Contents (Elt F) → (⟨S16384x3x256, .f32⟩ : BufTy).Contents (Elt F)),
    unary main_arg2 main_v95 ((extractStridedSlice S1x256 ![3, 0] · slices_S7x256_S1x256_3_0) : (⟨S7x256, .f32⟩ : BufTy).Contents (Elt F) → (⟨S1x256, .f32⟩ : BufTy).Contents (Elt F)),
    reshape main_v95 main_v96 rfl shapeCasts_S1x256_S256,
    unary main_v96 main_v97 (broadcastInDim S1x1x256 ![2] bcast_S256_S1x1x256_2 : (⟨S256, .f32⟩ : BufTy).Contents (Elt F) → (⟨S1x1x256, .f32⟩ : BufTy).Contents (Elt F)),
    unary main_v97 main_v98 (broadcastInDim S16384x3x256 ![0, 1, 2] bcast_S1x1x256_S16384x3x256_0_1_2 : (⟨S1x1x256, .f32⟩ : BufTy).Contents (Elt F) → (⟨S16384x3x256, .f32⟩ : BufTy).Contents (Elt F)),
    binary main_v94 main_v98 main_v99 (addf : (⟨S16384x3x256, .f32⟩ : BufTy).Contents (Elt F) → (⟨S16384x3x256, .f32⟩ : BufTy).Contents (Elt F) → (⟨S16384x3x256, .f32⟩ : BufTy).Contents (Elt F)),
    TRef.nullary main_call7.cst (constant S_ .f32 0x00000000#32),
    TRef.unary main_call7.cst main_call7.v0 (broadcastInDim S16384x3x256 ![] bcast_S_S16384x3x256),
    TRef.binary (.of main_v99) main_call7.v0 main_call7.v1 maximumf,
    unary main_arg3 main_v101 ((extractStridedSlice S1x256x174 ![3, 0, 0] · slices_S7x256x174_S1x256x174_3_0_0) : (⟨S7x256x174, .f32⟩ : BufTy).Contents (Elt F) → (⟨S1x256x174, .f32⟩ : BufTy).Contents (Elt F)) ]

/-- The operations of the printed window main_part2 (statements 121 to 180; 66 operations). -/
abbrev part2 : List (HloOp τ sig (Elt F)) :=
  [ reshape main_v101 main_v102 rfl shapeCasts_S1x256x174_S256x174,
    binary main_v100 main_v102 main_v103 ((fun l r => Host.dotGeneral dot_S16384x3x256_S256x174_S16384x3x174_2_0_01_1_n_n none l r) : (⟨S16384x3x256, .f32⟩ : BufTy).Contents (Elt F) → (⟨S256x174, .f32⟩ : BufTy).Contents (Elt F) → (⟨S16384x3x174, .f32⟩ : BufTy).Contents (Elt F)),
    unary main_arg4 main_v104 ((extractStridedSlice S1x174 ![3, 0] · slices_S7x174_S1x174_3_0) : (⟨S7x174, .f32⟩ : BufTy).Contents (Elt F) → (⟨S1x174, .f32⟩ : BufTy).Contents (Elt F)),
    reshape main_v104 main_v105 rfl shapeCasts_S1x174_S174,
    unary main_v105 main_v106 (broadcastInDim S1x1x174 ![2] bcast_S174_S1x1x174_2 : (⟨S174, .f32⟩ : BufTy).Contents (Elt F) → (⟨S1x1x174, .f32⟩ : BufTy).Contents (Elt F)),
    unary main_v106 main_v107 (broadcastInDim S16384x3x174 ![0, 1, 2] bcast_S1x1x174_S16384x3x174_0_1_2 : (⟨S1x1x174, .f32⟩ : BufTy).Contents (Elt F) → (⟨S16384x3x174, .f32⟩ : BufTy).Contents (Elt F)),
    binary main_v103 main_v107 main_v108 (addf : (⟨S16384x3x174, .f32⟩ : BufTy).Contents (Elt F) → (⟨S16384x3x174, .f32⟩ : BufTy).Contents (Elt F) → (⟨S16384x3x174, .f32⟩ : BufTy).Contents (Elt F)),
    nullary main_cst_16 (constant S_ .f32 0x00000000#32),
    binary main_v108 main_cst_16 main_v109 ((fun x v => Host.reduceAdd x v reducesTo_S16384x3x174_S16384x174_d1 h_S_) : (⟨S16384x3x174, .f32⟩ : BufTy).Contents (Elt F) → (⟨S_, .f32⟩ : BufTy).Contents (Elt F) → (⟨S16384x174, .f32⟩ : BufTy).Contents (Elt F)),
    binary main_v82 main_v109 main_v110 (addf : (⟨S16384x174, .f32⟩ : BufTy).Contents (Elt F) → (⟨S16384x174, .f32⟩ : BufTy).Contents (Elt F) → (⟨S16384x174, .f32⟩ : BufTy).Contents (Elt F)),
    nullary main_c_17 (constantI S_ 32 0#32),
    unary main_c_17 main_v111 (broadcastInDim S3x4 ![] bcast_S_S3x4 : (⟨S_, .i32⟩ : BufTy).Contents (Elt F) → (⟨S3x4, .i32⟩ : BufTy).Contents (Elt F)),
    binary main_c_3 main_v111 main_v112 (cmpi .slt : (⟨S3x4, .i32⟩ : BufTy).Contents (Elt F) → (⟨S3x4, .i32⟩ : BufTy).Contents (Elt F) → (⟨S3x4, .i1⟩ : BufTy).Contents (Elt F)),
    nullary main_c_18 (constantI S_ 32 8#32),
    unary main_c_18 main_v113 (broadcastInDim S3x4 ![] bcast_S_S3x4 : (⟨S_, .i32⟩ : BufTy).Contents (Elt F) → (⟨S3x4, .i32⟩ : BufTy).Contents (Elt F)),
    binary main_c_3 main_v113 main_v114 (addi : (⟨S3x4, .i32⟩ : BufTy).Contents (Elt F) → (⟨S3x4, .i32⟩ : BufTy).Contents (Elt F) → (⟨S3x4, .i32⟩ : BufTy).Contents (Elt F)),
    ternary main_v112 main_v114 main_c_3 main_v115 (select : (⟨S3x4, .i1⟩ : BufTy).Contents (Elt F) → (⟨S3x4, .i32⟩ : BufTy).Contents (Elt F) → (⟨S3x4, .i32⟩ : BufTy).Contents (Elt F) → (⟨S3x4, .i32⟩ : BufTy).Contents (Elt F)),
    unary main_v115 main_v116 (broadcastInDim S3x4x1 ![0, 1] bcast_S3x4_S3x4x1_0_1 : (⟨S3x4, .i32⟩ : BufTy).Contents (Elt F) → (⟨S3x4x1, .i32⟩ : BufTy).Contents (Elt F)),
    binary main_arg0 main_v116 main_v117 ((fun x i => Host.gather gather_S16384x8x256_S3x4x1_S16384x3x4x256_03_1_n_n_1_2_163841256 x i) : (⟨S16384x8x256, .f32⟩ : BufTy).Contents (Elt F) → (⟨S3x4x1, .i32⟩ : BufTy).Contents (Elt F) → (⟨S16384x3x4x256, .f32⟩ : BufTy).Contents (Elt F)),
    reshape main_v117 main_v118 rfl shapeCasts_S16384x3x4x256_S16384x3x1024,
    TRef.nullary main_call8.cst (constant S_ .f32 0x00000000#32),
    TRef.unary main_call8.cst main_call8.v0 (broadcastInDim S16384x3x1024 ![] bcast_S_S16384x3x1024),
    TRef.binary (.of main_v118) main_call8.v0 main_call8.v1 maximumf,
    unary main_arg1 main_v120 ((extractStridedSlice S1x1024x256 ![4, 0, 0] · slices_S7x2048x256_S1x1024x256_4_0_0) : (⟨S7x2048x256, .f32⟩ : BufTy).Contents (Elt F) → (⟨S1x1024x256, .f32⟩ : BufTy).Contents (Elt F)),
    reshape main_v120 main_v121 rfl shapeCasts_S1x1024x256_S1024x256,
    binary main_v119 main_v121 main_v122 ((fun l r => Host.dotGeneral dot_S16384x3x1024_S1024x256_S16384x3x256_2_0_01_1_n_n none l r) : (⟨S16384x3x1024, .f32⟩ : BufTy).Contents (Elt F) → (⟨S1024x256, .f32⟩ : BufTy).Contents (Elt F) → (⟨S16384x3x256, .f32⟩ : BufTy).Contents (Elt F)),
    unary main_arg2 main_v123 ((extractStridedSlice S1x256 ![4, 0] · slices_S7x256_S1x256_4_0) : (⟨S7x256, .f32⟩ : BufTy).Contents (Elt F) → (⟨S1x256, .f32⟩ : BufTy).Contents (Elt F)),
    reshape main_v123 main_v124 rfl shapeCasts_S1x256_S256,
    unary main_v124 main_v125 (broadcastInDim S1x1x256 ![2] bcast_S256_S1x1x256_2 : (⟨S256, .f32⟩ : BufTy).Contents (Elt F) → (⟨S1x1x256, .f32⟩ : BufTy).Contents (Elt F)),
    unary main_v125 main_v126 (broadcastInDim S16384x3x256 ![0, 1, 2] bcast_S1x1x256_S16384x3x256_0_1_2 : (⟨S1x1x256, .f32⟩ : BufTy).Contents (Elt F) → (⟨S16384x3x256, .f32⟩ : BufTy).Contents (Elt F)),
    binary main_v122 main_v126 main_v127 (addf : (⟨S16384x3x256, .f32⟩ : BufTy).Contents (Elt F) → (⟨S16384x3x256, .f32⟩ : BufTy).Contents (Elt F) → (⟨S16384x3x256, .f32⟩ : BufTy).Contents (Elt F)),
    TRef.nullary main_call9.cst (constant S_ .f32 0x00000000#32),
    TRef.unary main_call9.cst main_call9.v0 (broadcastInDim S16384x3x256 ![] bcast_S_S16384x3x256),
    TRef.binary (.of main_v127) main_call9.v0 main_call9.v1 maximumf,
    unary main_arg3 main_v129 ((extractStridedSlice S1x256x174 ![4, 0, 0] · slices_S7x256x174_S1x256x174_4_0_0) : (⟨S7x256x174, .f32⟩ : BufTy).Contents (Elt F) → (⟨S1x256x174, .f32⟩ : BufTy).Contents (Elt F)),
    reshape main_v129 main_v130 rfl shapeCasts_S1x256x174_S256x174,
    binary main_v128 main_v130 main_v131 ((fun l r => Host.dotGeneral dot_S16384x3x256_S256x174_S16384x3x174_2_0_01_1_n_n none l r) : (⟨S16384x3x256, .f32⟩ : BufTy).Contents (Elt F) → (⟨S256x174, .f32⟩ : BufTy).Contents (Elt F) → (⟨S16384x3x174, .f32⟩ : BufTy).Contents (Elt F)),
    unary main_arg4 main_v132 ((extractStridedSlice S1x174 ![4, 0] · slices_S7x174_S1x174_4_0) : (⟨S7x174, .f32⟩ : BufTy).Contents (Elt F) → (⟨S1x174, .f32⟩ : BufTy).Contents (Elt F)),
    reshape main_v132 main_v133 rfl shapeCasts_S1x174_S174,
    unary main_v133 main_v134 (broadcastInDim S1x1x174 ![2] bcast_S174_S1x1x174_2 : (⟨S174, .f32⟩ : BufTy).Contents (Elt F) → (⟨S1x1x174, .f32⟩ : BufTy).Contents (Elt F)),
    unary main_v134 main_v135 (broadcastInDim S16384x3x174 ![0, 1, 2] bcast_S1x1x174_S16384x3x174_0_1_2 : (⟨S1x1x174, .f32⟩ : BufTy).Contents (Elt F) → (⟨S16384x3x174, .f32⟩ : BufTy).Contents (Elt F)),
    binary main_v131 main_v135 main_v136 (addf : (⟨S16384x3x174, .f32⟩ : BufTy).Contents (Elt F) → (⟨S16384x3x174, .f32⟩ : BufTy).Contents (Elt F) → (⟨S16384x3x174, .f32⟩ : BufTy).Contents (Elt F)),
    nullary main_cst_19 (constant S_ .f32 0x00000000#32),
    binary main_v136 main_cst_19 main_v137 ((fun x v => Host.reduceAdd x v reducesTo_S16384x3x174_S16384x174_d1 h_S_) : (⟨S16384x3x174, .f32⟩ : BufTy).Contents (Elt F) → (⟨S_, .f32⟩ : BufTy).Contents (Elt F) → (⟨S16384x174, .f32⟩ : BufTy).Contents (Elt F)),
    binary main_v110 main_v137 main_v138 (addf : (⟨S16384x174, .f32⟩ : BufTy).Contents (Elt F) → (⟨S16384x174, .f32⟩ : BufTy).Contents (Elt F) → (⟨S16384x174, .f32⟩ : BufTy).Contents (Elt F)),
    nullary main_c_20 (constantI S_ 32 0#32),
    unary main_c_20 main_v139 (broadcastInDim S3x3 ![] bcast_S_S3x3 : (⟨S_, .i32⟩ : BufTy).Contents (Elt F) → (⟨S3x3, .i32⟩ : BufTy).Contents (Elt F)),
    binary main_c_4 main_v139 main_v140 (cmpi .slt : (⟨S3x3, .i32⟩ : BufTy).Contents (Elt F) → (⟨S3x3, .i32⟩ : BufTy).Contents (Elt F) → (⟨S3x3, .i1⟩ : BufTy).Contents (Elt F)),
    nullary main_c_21 (constantI S_ 32 8#32),
    unary main_c_21 main_v141 (broadcastInDim S3x3 ![] bcast_S_S3x3 : (⟨S_, .i32⟩ : BufTy).Contents (Elt F) → (⟨S3x3, .i32⟩ : BufTy).Contents (Elt F)),
    binary main_c_4 main_v141 main_v142 (addi : (⟨S3x3, .i32⟩ : BufTy).Contents (Elt F) → (⟨S3x3, .i32⟩ : BufTy).Contents (Elt F) → (⟨S3x3, .i32⟩ : BufTy).Contents (Elt F)),
    ternary main_v140 main_v142 main_c_4 main_v143 (select : (⟨S3x3, .i1⟩ : BufTy).Contents (Elt F) → (⟨S3x3, .i32⟩ : BufTy).Contents (Elt F) → (⟨S3x3, .i32⟩ : BufTy).Contents (Elt F) → (⟨S3x3, .i32⟩ : BufTy).Contents (Elt F)),
    unary main_v143 main_v144 (broadcastInDim S3x3x1 ![0, 1] bcast_S3x3_S3x3x1_0_1 : (⟨S3x3, .i32⟩ : BufTy).Contents (Elt F) → (⟨S3x3x1, .i32⟩ : BufTy).Contents (Elt F)),
    binary main_arg0 main_v144 main_v145 ((fun x i => Host.gather gather_S16384x8x256_S3x3x1_S16384x3x3x256_03_1_n_n_1_2_163841256 x i) : (⟨S16384x8x256, .f32⟩ : BufTy).Contents (Elt F) → (⟨S3x3x1, .i32⟩ : BufTy).Contents (Elt F) → (⟨S16384x3x3x256, .f32⟩ : BufTy).Contents (Elt F)),
    reshape main_v145 main_v146 rfl shapeCasts_S16384x3x3x256_S16384x3x768,
    TRef.nullary main_call10.cst (constant S_ .f32 0x00000000#32),
    TRef.unary main_call10.cst main_call10.v0 (broadcastInDim S16384x3x768 ![] bcast_S_S16384x3x768),
    TRef.binary (.of main_v146) main_call10.v0 main_call10.v1 maximumf,
    unary main_arg1 main_v148 ((extractStridedSlice S1x768x256 ![5, 0, 0] · slices_S7x2048x256_S1x768x256_5_0_0) : (⟨S7x2048x256, .f32⟩ : BufTy).Contents (Elt F) → (⟨S1x768x256, .f32⟩ : BufTy).Contents (Elt F)),
    reshape main_v148 main_v149 rfl shapeCasts_S1x768x256_S768x256,
    binary main_v147 main_v149 main_v150 ((fun l r => Host.dotGeneral dot_S16384x3x768_S768x256_S16384x3x256_2_0_01_1_n_n none l r) : (⟨S16384x3x768, .f32⟩ : BufTy).Contents (Elt F) → (⟨S768x256, .f32⟩ : BufTy).Contents (Elt F) → (⟨S16384x3x256, .f32⟩ : BufTy).Contents (Elt F)),
    unary main_arg2 main_v151 ((extractStridedSlice S1x256 ![5, 0] · slices_S7x256_S1x256_5_0) : (⟨S7x256, .f32⟩ : BufTy).Contents (Elt F) → (⟨S1x256, .f32⟩ : BufTy).Contents (Elt F)),
    reshape main_v151 main_v152 rfl shapeCasts_S1x256_S256,
    unary main_v152 main_v153 (broadcastInDim S1x1x256 ![2] bcast_S256_S1x1x256_2 : (⟨S256, .f32⟩ : BufTy).Contents (Elt F) → (⟨S1x1x256, .f32⟩ : BufTy).Contents (Elt F)),
    unary main_v153 main_v154 (broadcastInDim S16384x3x256 ![0, 1, 2] bcast_S1x1x256_S16384x3x256_0_1_2 : (⟨S1x1x256, .f32⟩ : BufTy).Contents (Elt F) → (⟨S16384x3x256, .f32⟩ : BufTy).Contents (Elt F)),
    binary main_v150 main_v154 main_v155 (addf : (⟨S16384x3x256, .f32⟩ : BufTy).Contents (Elt F) → (⟨S16384x3x256, .f32⟩ : BufTy).Contents (Elt F) → (⟨S16384x3x256, .f32⟩ : BufTy).Contents (Elt F)) ]

/-- The operations of the printed window main_part3 (statements 181 to 223; 49 operations). -/
abbrev part3 : List (HloOp τ sig (Elt F)) :=
  [ TRef.nullary main_call11.cst (constant S_ .f32 0x00000000#32),
    TRef.unary main_call11.cst main_call11.v0 (broadcastInDim S16384x3x256 ![] bcast_S_S16384x3x256),
    TRef.binary (.of main_v155) main_call11.v0 main_call11.v1 maximumf,
    unary main_arg3 main_v157 ((extractStridedSlice S1x256x174 ![5, 0, 0] · slices_S7x256x174_S1x256x174_5_0_0) : (⟨S7x256x174, .f32⟩ : BufTy).Contents (Elt F) → (⟨S1x256x174, .f32⟩ : BufTy).Contents (Elt F)),
    reshape main_v157 main_v158 rfl shapeCasts_S1x256x174_S256x174,
    binary main_v156 main_v158 main_v159 ((fun l r => Host.dotGeneral dot_S16384x3x256_S256x174_S16384x3x174_2_0_01_1_n_n none l r) : (⟨S16384x3x256, .f32⟩ : BufTy).Contents (Elt F) → (⟨S256x174, .f32⟩ : BufTy).Contents (Elt F) → (⟨S16384x3x174, .f32⟩ : BufTy).Contents (Elt F)),
    unary main_arg4 main_v160 ((extractStridedSlice S1x174 ![5, 0] · slices_S7x174_S1x174_5_0) : (⟨S7x174, .f32⟩ : BufTy).Contents (Elt F) → (⟨S1x174, .f32⟩ : BufTy).Contents (Elt F)),
    reshape main_v160 main_v161 rfl shapeCasts_S1x174_S174,
    unary main_v161 main_v162 (broadcastInDim S1x1x174 ![2] bcast_S174_S1x1x174_2 : (⟨S174, .f32⟩ : BufTy).Contents (Elt F) → (⟨S1x1x174, .f32⟩ : BufTy).Contents (Elt F)),
    unary main_v162 main_v163 (broadcastInDim S16384x3x174 ![0, 1, 2] bcast_S1x1x174_S16384x3x174_0_1_2 : (⟨S1x1x174, .f32⟩ : BufTy).Contents (Elt F) → (⟨S16384x3x174, .f32⟩ : BufTy).Contents (Elt F)),
    binary main_v159 main_v163 main_v164 (addf : (⟨S16384x3x174, .f32⟩ : BufTy).Contents (Elt F) → (⟨S16384x3x174, .f32⟩ : BufTy).Contents (Elt F) → (⟨S16384x3x174, .f32⟩ : BufTy).Contents (Elt F)),
    nullary main_cst_22 (constant S_ .f32 0x00000000#32),
    binary main_v164 main_cst_22 main_v165 ((fun x v => Host.reduceAdd x v reducesTo_S16384x3x174_S16384x174_d1 h_S_) : (⟨S16384x3x174, .f32⟩ : BufTy).Contents (Elt F) → (⟨S_, .f32⟩ : BufTy).Contents (Elt F) → (⟨S16384x174, .f32⟩ : BufTy).Contents (Elt F)),
    binary main_v138 main_v165 main_v166 (addf : (⟨S16384x174, .f32⟩ : BufTy).Contents (Elt F) → (⟨S16384x174, .f32⟩ : BufTy).Contents (Elt F) → (⟨S16384x174, .f32⟩ : BufTy).Contents (Elt F)),
    nullary main_c_23 (constantI S_ 32 0#32),
    unary main_c_23 main_v167 (broadcastInDim S3x2 ![] bcast_S_S3x2 : (⟨S_, .i32⟩ : BufTy).Contents (Elt F) → (⟨S3x2, .i32⟩ : BufTy).Contents (Elt F)),
    binary main_c_5 main_v167 main_v168 (cmpi .slt : (⟨S3x2, .i32⟩ : BufTy).Contents (Elt F) → (⟨S3x2, .i32⟩ : BufTy).Contents (Elt F) → (⟨S3x2, .i1⟩ : BufTy).Contents (Elt F)),
    nullary main_c_24 (constantI S_ 32 8#32),
    unary main_c_24 main_v169 (broadcastInDim S3x2 ![] bcast_S_S3x2 : (⟨S_, .i32⟩ : BufTy).Contents (Elt F) → (⟨S3x2, .i32⟩ : BufTy).Contents (Elt F)),
    binary main_c_5 main_v169 main_v170 (addi : (⟨S3x2, .i32⟩ : BufTy).Contents (Elt F) → (⟨S3x2, .i32⟩ : BufTy).Contents (Elt F) → (⟨S3x2, .i32⟩ : BufTy).Contents (Elt F)),
    ternary main_v168 main_v170 main_c_5 main_v171 (select : (⟨S3x2, .i1⟩ : BufTy).Contents (Elt F) → (⟨S3x2, .i32⟩ : BufTy).Contents (Elt F) → (⟨S3x2, .i32⟩ : BufTy).Contents (Elt F) → (⟨S3x2, .i32⟩ : BufTy).Contents (Elt F)),
    unary main_v171 main_v172 (broadcastInDim S3x2x1 ![0, 1] bcast_S3x2_S3x2x1_0_1 : (⟨S3x2, .i32⟩ : BufTy).Contents (Elt F) → (⟨S3x2x1, .i32⟩ : BufTy).Contents (Elt F)),
    binary main_arg0 main_v172 main_v173 ((fun x i => Host.gather gather_S16384x8x256_S3x2x1_S16384x3x2x256_03_1_n_n_1_2_163841256 x i) : (⟨S16384x8x256, .f32⟩ : BufTy).Contents (Elt F) → (⟨S3x2x1, .i32⟩ : BufTy).Contents (Elt F) → (⟨S16384x3x2x256, .f32⟩ : BufTy).Contents (Elt F)),
    reshape main_v173 main_v174 rfl shapeCasts_S16384x3x2x256_S16384x3x512,
    TRef.nullary main_call12.cst (constant S_ .f32 0x00000000#32),
    TRef.unary main_call12.cst main_call12.v0 (broadcastInDim S16384x3x512 ![] bcast_S_S16384x3x512),
    TRef.binary (.of main_v174) main_call12.v0 main_call12.v1 maximumf,
    unary main_arg1 main_v176 ((extractStridedSlice S1x512x256 ![6, 0, 0] · slices_S7x2048x256_S1x512x256_6_0_0) : (⟨S7x2048x256, .f32⟩ : BufTy).Contents (Elt F) → (⟨S1x512x256, .f32⟩ : BufTy).Contents (Elt F)),
    reshape main_v176 main_v177 rfl shapeCasts_S1x512x256_S512x256,
    binary main_v175 main_v177 main_v178 ((fun l r => Host.dotGeneral dot_S16384x3x512_S512x256_S16384x3x256_2_0_01_1_n_n none l r) : (⟨S16384x3x512, .f32⟩ : BufTy).Contents (Elt F) → (⟨S512x256, .f32⟩ : BufTy).Contents (Elt F) → (⟨S16384x3x256, .f32⟩ : BufTy).Contents (Elt F)),
    unary main_arg2 main_v179 ((extractStridedSlice S1x256 ![6, 0] · slices_S7x256_S1x256_6_0) : (⟨S7x256, .f32⟩ : BufTy).Contents (Elt F) → (⟨S1x256, .f32⟩ : BufTy).Contents (Elt F)),
    reshape main_v179 main_v180 rfl shapeCasts_S1x256_S256,
    unary main_v180 main_v181 (broadcastInDim S1x1x256 ![2] bcast_S256_S1x1x256_2 : (⟨S256, .f32⟩ : BufTy).Contents (Elt F) → (⟨S1x1x256, .f32⟩ : BufTy).Contents (Elt F)),
    unary main_v181 main_v182 (broadcastInDim S16384x3x256 ![0, 1, 2] bcast_S1x1x256_S16384x3x256_0_1_2 : (⟨S1x1x256, .f32⟩ : BufTy).Contents (Elt F) → (⟨S16384x3x256, .f32⟩ : BufTy).Contents (Elt F)),
    binary main_v178 main_v182 main_v183 (addf : (⟨S16384x3x256, .f32⟩ : BufTy).Contents (Elt F) → (⟨S16384x3x256, .f32⟩ : BufTy).Contents (Elt F) → (⟨S16384x3x256, .f32⟩ : BufTy).Contents (Elt F)),
    TRef.nullary main_call13.cst (constant S_ .f32 0x00000000#32),
    TRef.unary main_call13.cst main_call13.v0 (broadcastInDim S16384x3x256 ![] bcast_S_S16384x3x256),
    TRef.binary (.of main_v183) main_call13.v0 main_call13.v1 maximumf,
    unary main_arg3 main_v185 ((extractStridedSlice S1x256x174 ![6, 0, 0] · slices_S7x256x174_S1x256x174_6_0_0) : (⟨S7x256x174, .f32⟩ : BufTy).Contents (Elt F) → (⟨S1x256x174, .f32⟩ : BufTy).Contents (Elt F)),
    reshape main_v185 main_v186 rfl shapeCasts_S1x256x174_S256x174,
    binary main_v184 main_v186 main_v187 ((fun l r => Host.dotGeneral dot_S16384x3x256_S256x174_S16384x3x174_2_0_01_1_n_n none l r) : (⟨S16384x3x256, .f32⟩ : BufTy).Contents (Elt F) → (⟨S256x174, .f32⟩ : BufTy).Contents (Elt F) → (⟨S16384x3x174, .f32⟩ : BufTy).Contents (Elt F)),
    unary main_arg4 main_v188 ((extractStridedSlice S1x174 ![6, 0] · slices_S7x174_S1x174_6_0) : (⟨S7x174, .f32⟩ : BufTy).Contents (Elt F) → (⟨S1x174, .f32⟩ : BufTy).Contents (Elt F)),
    reshape main_v188 main_v189 rfl shapeCasts_S1x174_S174,
    unary main_v189 main_v190 (broadcastInDim S1x1x174 ![2] bcast_S174_S1x1x174_2 : (⟨S174, .f32⟩ : BufTy).Contents (Elt F) → (⟨S1x1x174, .f32⟩ : BufTy).Contents (Elt F)),
    unary main_v190 main_v191 (broadcastInDim S16384x3x174 ![0, 1, 2] bcast_S1x1x174_S16384x3x174_0_1_2 : (⟨S1x1x174, .f32⟩ : BufTy).Contents (Elt F) → (⟨S16384x3x174, .f32⟩ : BufTy).Contents (Elt F)),
    binary main_v187 main_v191 main_v192 (addf : (⟨S16384x3x174, .f32⟩ : BufTy).Contents (Elt F) → (⟨S16384x3x174, .f32⟩ : BufTy).Contents (Elt F) → (⟨S16384x3x174, .f32⟩ : BufTy).Contents (Elt F)),
    nullary main_cst_25 (constant S_ .f32 0x00000000#32),
    binary main_v192 main_cst_25 main_v193 ((fun x v => Host.reduceAdd x v reducesTo_S16384x3x174_S16384x174_d1 h_S_) : (⟨S16384x3x174, .f32⟩ : BufTy).Contents (Elt F) → (⟨S_, .f32⟩ : BufTy).Contents (Elt F) → (⟨S16384x174, .f32⟩ : BufTy).Contents (Elt F)),
    binary main_v166 main_v193 main_v194 (addf : (⟨S16384x174, .f32⟩ : BufTy).Contents (Elt F) → (⟨S16384x174, .f32⟩ : BufTy).Contents (Elt F) → (⟨S16384x174, .f32⟩ : BufTy).Contents (Elt F)) ]

/-- The whole program, stretch after stretch. -/
abbrev ops : List (HloOp τ sig (Elt F)) :=
  pre ++ (sc0 ++ (sc1 ++ (sc2 ++ (sc3 ++ (sc4 ++ (sc5 ++ sc6))))))

end Cert.ReferenceIdeal.Ops

end
-- ==== Proof.RefRunP0.lean ====
/-
  Window 0 of the reference program is the straight line of its operations: the relu functions
  unfolded at their calls, sequencing reassociated.
-/
import proofs.«120356_j936302870703_2_alg».proof.Proof.RefOps

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Window 0 of the reference program is the sequence of its operations, the relu calls inlined. -/
theorem part0_eq (c : Dev nD) : main_part0 (F := F) c = seq Ops.part0 := by
  simp only [main_part0, fn_relu.body, fn_relu_0.body, fn_relu_1.body, fn_relu_2.body, fn_relu_3.body, fn_relu_4.body,
    fn_relu_5.body, fn_relu_6.body, fn_relu_7.body, seq, bind_assoc, pure_bind]
  rfl

end Cert.ReferenceIdeal.Run

end
-- ==== Proof.RefRunP1.lean ====
/-
  Window 1 of the reference program is the straight line of its operations: the relu functions
  unfolded at their calls, sequencing reassociated.
-/
import proofs.«120356_j936302870703_2_alg».proof.Proof.RefOps

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Window 1 of the reference program is the sequence of its operations, the relu calls inlined. -/
theorem part1_eq (c : Dev nD) : main_part1 (F := F) c = seq Ops.part1 := by
  simp only [main_part1, fn_relu.body, fn_relu_0.body, fn_relu_1.body, fn_relu_2.body, fn_relu_3.body, fn_relu_4.body,
    fn_relu_5.body, fn_relu_6.body, fn_relu_7.body, seq, bind_assoc, pure_bind]
  rfl

end Cert.ReferenceIdeal.Run

end
-- ==== Proof.RefRunP2.lean ====
/-
  Window 2 of the reference program is the straight line of its operations: the relu functions
  unfolded at their calls, sequencing reassociated.
-/
import proofs.«120356_j936302870703_2_alg».proof.Proof.RefOps

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Window 2 of the reference program is the sequence of its operations, the relu calls inlined. -/
theorem part2_eq (c : Dev nD) : main_part2 (F := F) c = seq Ops.part2 := by
  simp only [main_part2, fn_relu.body, fn_relu_0.body, fn_relu_1.body, fn_relu_2.body, fn_relu_3.body, fn_relu_4.body,
    fn_relu_5.body, fn_relu_6.body, fn_relu_7.body, seq, bind_assoc, pure_bind]
  rfl

end Cert.ReferenceIdeal.Run

end
-- ==== Proof.RefRunP3.lean ====
/-
  Window 3 of the reference program is the straight line of its operations: the relu functions
  unfolded at their calls, sequencing reassociated.
-/
import proofs.«120356_j936302870703_2_alg».proof.Proof.RefOps

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Window 3 of the reference program is the sequence of its operations, the relu calls inlined. -/
theorem part3_eq (c : Dev nD) : main_part3 (F := F) c = seq Ops.part3 := by
  simp only [main_part3, fn_relu.body, fn_relu_0.body, fn_relu_1.body, fn_relu_2.body, fn_relu_3.body, fn_relu_4.body,
    fn_relu_5.body, fn_relu_6.body, fn_relu_7.body, seq, bind_assoc, pure_bind]

end Cert.ReferenceIdeal.Run

end
-- ==== Proof.LibWrites.lean ====
/-
  Host operations that write only buffers numbered from `n` on.

  A straight line of host operations each of which writes one result buffer of its own, all of them
  numbered `n` or higher among the TensorCore references, leaves every reference numbered below `n` as
  it found it. With the program's arguments numbered first, this is "no host operation writes an
  argument".
-/
import Idealize.ShloMosaic.Lib.StableHlo.Run

noncomputable section

namespace Idealize.ShloMosaic.StableHlo

open Idealize.ShloMosaic.TcCoe

variable {τ : Topo} {sig : RefSig} {Val : EltTy → Type}

/-- Every buffer the operation writes is a TensorCore reference whose index is at least `n`. -/
def WritesFrom (n : ℕ) (op : HloOp τ sig Val) : Prop :=
  ∀ b ∈ op.writes, ∃ y : Ref sig .tc, b = Proc.devRef .tc y ∧ n ≤ y.idx.val

/-- A line of such operations leaves every reference numbered below `n` as it found it. -/
theorem after_below (n : ℕ) (ops : List (HloOp τ sig Val)) (W : Valuation τ sig Val)
    (h : ops.Forall (WritesFrom n)) (r : Ref sig .tc) (hr : r.idx.val < n) :
    after ops W (Proc.devRef .tc r) = W (Proc.devRef .tc r) :=
  after_of_forall_not_mem ops W fun op hop hb => by
    obtain ⟨y, e, hy⟩ := (List.forall_iff_forall_mem.mp h) op hop _ hb
    obtain rfl : r = y := Proc.devRef_injective _ e
    omega

/-- Any stretch cut from the front or the back of such a line is such a line. -/
theorem WritesFrom.take (n k : ℕ) (ops : List (HloOp τ sig Val)) (h : ops.Forall (WritesFrom n)) :
    (ops.take k).Forall (WritesFrom n) :=
  List.forall_iff_forall_mem.mpr fun op hop => (List.forall_iff_forall_mem.mp h) op (List.mem_of_mem_take hop)

theorem WritesFrom.drop (n k : ℕ) (ops : List (HloOp τ sig Val)) (h : ops.Forall (WritesFrom n)) :
    (ops.drop k).Forall (WritesFrom n) :=
  List.forall_iff_forall_mem.mpr fun op hop => (List.forall_iff_forall_mem.mp h) op (List.mem_of_mem_drop hop)

/-- One operation at a time over a literal line: the buffer written is the operation's own result. -/
macro "writes_own" : tactic =>
  `(tactic| (simp only [List.Forall]; repeat' constructor
             all_goals exact fun b hb => ⟨_, Finset.mem_singleton.mp hb, by decide⟩))

/-- Two lines one after the other. -/
theorem after_two : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_two l₁ l₂]

/-- A line run in two stretches. -/
theorem after_take_drop (k : ℕ) (ops : List (HloOp τ sig Val)) (W : Valuation τ sig Val) :
    after ops W = after (ops.drop k) (after (ops.take k) W) := by
  rw [← after_two, List.take_append_drop]

end Idealize.ShloMosaic.StableHlo

end
-- ==== Proof.RefRunPre.lean ====
/-
  The seven constant tables of frame indices the reference program starts with: what they hold once
  written, and that writing them touches no argument.
-/
import proofs.«120356_j936302870703_2_alg».proof.Proof.RefOps
import proofs.«120356_j936302870703_2_alg».proof.Proof.LibWrites
import Idealize.ShloMosaic.PureOps.Ideal

noncomputable section

namespace Cert.ReferenceIdeal.Run

open Cert.ReferenceIdeal Cert.ReferenceIdeal.Gen Idealize.ShloMosaic Idealize.ShloMosaic.TcCoe Idealize.SL.Sem Idealize.ShloMosaic.StableHlo

/-- Every table is written to a buffer numbered 5 or higher. -/
theorem pre_writes : (Ops.pre (F := Ideal)).Forall (WritesFrom 5) := by
  writes_own

/-- The tables' operations touch TensorCore references only. -/
theorem pre_sub : (Ops.pre (F := Ideal)).Forall fun op => op.bufs ⊆ tcRefs τ sig :=
  ⟨nullary_bufs_sub .., nullary_bufs_sub .., nullary_bufs_sub .., nullary_bufs_sub .., nullary_bufs_sub .., nullary_bufs_sub ..,
    nullary_bufs_sub ..⟩

/-- The tables' operations determine all they write. -/
theorem pre_fresh : (Ops.pre (F := Ideal)).Forall fun op => op.fresh = ∅ :=
  ⟨rfl, rfl, rfl, rfl, rfl, rfl, rfl⟩

/-- Writing the tables leaves every reference numbered below 5 (the arguments) as it was. -/
theorem pre_below (W : Valuation τ sig (Elt Ideal)) (r : Ref sig .tc) (hr : r.idx.val < 5) :
    after (Ops.pre (F := Ideal)) W (Proc.devRef .tc r) = W (Proc.devRef .tc r) :=
  after_below 5 _ W pre_writes r hr

/-- After the tables are written, the table of scale 0 holds its literal entries. -/
theorem pre_tab0 (W : Valuation τ sig (Elt Ideal)) :
    after (Ops.pre (F := Ideal)) W (main_c : DevRef τ sig) = fun i => lit0 (S1x8.rowMajor i) := by
  simp only [Ops.pre]
  after_results_simp
  rfl

/-- After the tables are written, the table of scale 1 holds its literal entries. -/
theorem pre_tab1 (W : Valuation τ sig (Elt Ideal)) :
    after (Ops.pre (F := Ideal)) W (main_c_0 : DevRef τ sig) = fun i => lit1 (S3x7.rowMajor i) := by
  simp only [Ops.pre]
  after_results_simp
  rfl

/-- After the tables are written, the table of scale 2 holds its literal entries. -/
theorem pre_tab2 (W : Valuation τ sig (Elt Ideal)) :
    after (Ops.pre (F := Ideal)) W (main_c_1 : DevRef τ sig) = fun i => lit2 (S3x6.rowMajor i) := by
  simp only [Ops.pre]
  after_results_simp
  rfl

/-- After the tables are written, the table of scale 3 holds its literal entries. -/
theorem pre_tab3 (W : Valuation τ sig (Elt Ideal)) :
    after (Ops.pre (F := Ideal)) W (main_c_2 : DevRef τ sig) = fun i => lit3 (S3x5.rowMajor i) := by
  simp only [Ops.pre]
  after_results_simp
  rfl

/-- After the tables are written, the table of scale 4 holds its literal entries. -/
theorem pre_tab4 (W : Valuation τ sig (Elt Ideal)) :
    after (Ops.pre (F := Ideal)) W (main_c_3 : DevRef τ sig) = fun i => lit4 (S3x4.rowMajor i) := by
  simp only [Ops.pre]
  after_results_simp
  rfl

/-- After the tables are written, the table of scale 5 holds its literal entries. -/
theorem pre_tab5 (W : Valuation τ sig (Elt Ideal)) :
    after (Ops.pre (F := Ideal)) W (main_c_4 : DevRef τ sig) = fun i => lit5 (S3x3.rowMajor i) := by
  simp only [Ops.pre]
  after_results_simp
  rfl

/-- After the tables are written, the table of scale 6 holds its literal entries. -/
theorem pre_tab6 (W : Valuation τ sig (Elt Ideal)) :
    after (Ops.pre (F := Ideal)) W (main_c_5 : DevRef τ sig) = fun i => lit6 (S3x2.rowMajor i) := by
  simp only [Ops.pre]
  after_results_simp
  rfl

end Cert.ReferenceIdeal.Run

end
-- ==== Proof.RefTerm.lean ====
import proofs.«120356_j936302870703_2_alg».proof.Proof.Gen.ReferenceIdeal
import Idealize.ShloMosaic.PureOps.Ideal

noncomputable section

namespace Cert.ReferenceIdeal.Term

open Cert.ReferenceIdeal Cert.ReferenceIdeal.Gen Idealize.ShloMosaic

/-- Scale 0: the start indices handed to the gather (the table of frame indices, wrapped where negative, with a unit last axis). -/
def idx0 : IVec S1x8x1 32 :=
  (broadcastInDim S1x8x1 ![0, 1] bcast_S1x8_S1x8x1_0_1 (select (cmpi .slt (fun i => lit0 (S1x8.rowMajor i)) (broadcastInDim S1x8 ![] bcast_S_S1x8 (constantI S_ 32 0#32))) (addi (fun i => lit0 (S1x8.rowMajor i)) (broadcastInDim S1x8 ![] bcast_S_S1x8 (constantI S_ 32 8#32))) (fun i => lit0 (S1x8.rowMajor i))))

/-- Scale 0: the gathered frames of every relation, laid side by side, after the input relu. -/
def G0 (x : FVec Ideal S16384x8x256 .f32) : FVec Ideal S16384x1x2048 .f32 :=
  (maximumf (shapeCast _ (Host.gather gather_S16384x8x256_S1x8x1_S16384x1x8x256_03_1_n_n_1_2_163841256 x idx0) shapeCasts_S16384x1x8x256_S16384x1x2048) (broadcastInDim S16384x1x2048 ![] bcast_S_S16384x1x2048 (constant (F := Ideal) S_ .f32 0x00000000#32)))

/-- Scale 0: the hidden layer of every relation after its relu. -/
def H0 (x : FVec Ideal S16384x8x256 .f32) (W1 : FVec Ideal S7x2048x256 .f32) (b1 : FVec Ideal S7x256 .f32) : FVec Ideal S16384x1x256 .f32 :=
  (maximumf (addf (Host.dotGeneral dot_S16384x1x2048_S2048x256_S16384x1x256_2_0_01_1_n_n none (G0 x) (shapeCast _ (extractStridedSlice S1x2048x256 ![0, 0, 0] W1 slices_S7x2048x256_S1x2048x256_0_0_0) shapeCasts_S1x2048x256_S2048x256)) (broadcastInDim S16384x1x256 ![0, 1, 2] bcast_S1x1x256_S16384x1x256_0_1_2 (broadcastInDim S1x1x256 ![2] bcast_S256_S1x1x256_2 (shapeCast _ (extractStridedSlice S1x256 ![0, 0] b1 slices_S7x256_S1x256_0_0) shapeCasts_S1x256_S256)))) (broadcastInDim S16384x1x256 ![] bcast_S_S16384x1x256 (constant (F := Ideal) S_ .f32 0x00000000#32)))

/-- Scale 0: the output layer summed over the scale's relations. -/
def Y0 (x : FVec Ideal S16384x8x256 .f32) (W1 : FVec Ideal S7x2048x256 .f32) (b1 : FVec Ideal S7x256 .f32) (W2 : FVec Ideal S7x256x174 .f32) (b2 : FVec Ideal S7x174 .f32) : FVec Ideal S16384x174 .f32 :=
  (Host.reduceAdd (addf (Host.dotGeneral dot_S16384x1x256_S256x174_S16384x1x174_2_0_01_1_n_n none (H0 x W1 b1) (shapeCast _ (extractStridedSlice S1x256x174 ![0, 0, 0] W2 slices_S7x256x174_S1x256x174_0_0_0) shapeCasts_S1x256x174_S256x174)) (broadcastInDim S16384x1x174 ![0, 1, 2] bcast_S1x1x174_S16384x1x174_0_1_2 (broadcastInDim S1x1x174 ![2] bcast_S174_S1x1x174_2 (shapeCast _ (extractStridedSlice S1x174 ![0, 0] b2 slices_S7x174_S1x174_0_0) shapeCasts_S1x174_S174)))) (constant (F := Ideal) S_ .f32 0x00000000#32) reducesTo_S16384x1x174_S16384x174_d1 h_S_)

/-- Scale 1: the start indices handed to the gather (the table of frame indices, wrapped where negative, with a unit last axis). -/
def idx1 : IVec S3x7x1 32 :=
  (broadcastInDim S3x7x1 ![0, 1] bcast_S3x7_S3x7x1_0_1 (select (cmpi .slt (fun i => lit1 (S3x7.rowMajor i)) (broadcastInDim S3x7 ![] bcast_S_S3x7 (constantI S_ 32 0#32))) (addi (fun i => lit1 (S3x7.rowMajor i)) (broadcastInDim S3x7 ![] bcast_S_S3x7 (constantI S_ 32 8#32))) (fun i => lit1 (S3x7.rowMajor i))))

/-- Scale 1: the gathered frames of every relation, laid side by side, after the input relu. -/
def G1 (x : FVec Ideal S16384x8x256 .f32) : FVec Ideal S16384x3x1792 .f32 :=
  (maximumf (shapeCast _ (Host.gather gather_S16384x8x256_S3x7x1_S16384x3x7x256_03_1_n_n_1_2_163841256 x idx1) shapeCasts_S16384x3x7x256_S16384x3x1792) (broadcastInDim S16384x3x1792 ![] bcast_S_S16384x3x1792 (constant (F := Ideal) S_ .f32 0x00000000#32)))

/-- Scale 1: the hidden layer of every relation after its relu. -/
def H1 (x : FVec Ideal S16384x8x256 .f32) (W1 : FVec Ideal S7x2048x256 .f32) (b1 : FVec Ideal S7x256 .f32) : FVec Ideal S16384x3x256 .f32 :=
  (maximumf (addf (Host.dotGeneral dot_S16384x3x1792_S1792x256_S16384x3x256_2_0_01_1_n_n none (G1 x) (shapeCast _ (extractStridedSlice S1x1792x256 ![1, 0, 0] W1 slices_S7x2048x256_S1x1792x256_1_0_0) shapeCasts_S1x1792x256_S1792x256)) (broadcastInDim S16384x3x256 ![0, 1, 2] bcast_S1x1x256_S16384x3x256_0_1_2 (broadcastInDim S1x1x256 ![2] bcast_S256_S1x1x256_2 (shapeCast _ (extractStridedSlice S1x256 ![1, 0] b1 slices_S7x256_S1x256_1_0) shapeCasts_S1x256_S256)))) (broadcastInDim S16384x3x256 ![] bcast_S_S16384x3x256 (constant (F := Ideal) S_ .f32 0x00000000#32)))

/-- Scale 1: the output layer summed over the scale's relations. -/
def Y1 (x : FVec Ideal S16384x8x256 .f32) (W1 : FVec Ideal S7x2048x256 .f32) (b1 : FVec Ideal S7x256 .f32) (W2 : FVec Ideal S7x256x174 .f32) (b2 : FVec Ideal S7x174 .f32) : FVec Ideal S16384x174 .f32 :=
  (Host.reduceAdd (addf (Host.dotGeneral dot_S16384x3x256_S256x174_S16384x3x174_2_0_01_1_n_n none (H1 x W1 b1) (shapeCast _ (extractStridedSlice S1x256x174 ![1, 0, 0] W2 slices_S7x256x174_S1x256x174_1_0_0) shapeCasts_S1x256x174_S256x174)) (broadcastInDim S16384x3x174 ![0, 1, 2] bcast_S1x1x174_S16384x3x174_0_1_2 (broadcastInDim S1x1x174 ![2] bcast_S174_S1x1x174_2 (shapeCast _ (extractStridedSlice S1x174 ![1, 0] b2 slices_S7x174_S1x174_1_0) shapeCasts_S1x174_S174)))) (constant (F := Ideal) S_ .f32 0x00000000#32) reducesTo_S16384x3x174_S16384x174_d1 h_S_)

/-- Scale 2: the start indices handed to the gather (the table of frame indices, wrapped where negative, with a unit last axis). -/
def idx2 : IVec S3x6x1 32 :=
  (broadcastInDim S3x6x1 ![0, 1] bcast_S3x6_S3x6x1_0_1 (select (cmpi .slt (fun i => lit2 (S3x6.rowMajor i)) (broadcastInDim S3x6 ![] bcast_S_S3x6 (constantI S_ 32 0#32))) (addi (fun i => lit2 (S3x6.rowMajor i)) (broadcastInDim S3x6 ![] bcast_S_S3x6 (constantI S_ 32 8#32))) (fun i => lit2 (S3x6.rowMajor i))))

/-- Scale 2: the gathered frames of every relation, laid side by side, after the input relu. -/
def G2 (x : FVec Ideal S16384x8x256 .f32) : FVec Ideal S16384x3x1536 .f32 :=
  (maximumf (shapeCast _ (Host.gather gather_S16384x8x256_S3x6x1_S16384x3x6x256_03_1_n_n_1_2_163841256 x idx2) shapeCasts_S16384x3x6x256_S16384x3x1536) (broadcastInDim S16384x3x1536 ![] bcast_S_S16384x3x1536 (constant (F := Ideal) S_ .f32 0x00000000#32)))

/-- Scale 2: the hidden layer of every relation after its relu. -/
def H2 (x : FVec Ideal S16384x8x256 .f32) (W1 : FVec Ideal S7x2048x256 .f32) (b1 : FVec Ideal S7x256 .f32) : FVec Ideal S16384x3x256 .f32 :=
  (maximumf (addf (Host.dotGeneral dot_S16384x3x1536_S1536x256_S16384x3x256_2_0_01_1_n_n none (G2 x) (shapeCast _ (extractStridedSlice S1x1536x256 ![2, 0, 0] W1 slices_S7x2048x256_S1x1536x256_2_0_0) shapeCasts_S1x1536x256_S1536x256)) (broadcastInDim S16384x3x256 ![0, 1, 2] bcast_S1x1x256_S16384x3x256_0_1_2 (broadcastInDim S1x1x256 ![2] bcast_S256_S1x1x256_2 (shapeCast _ (extractStridedSlice S1x256 ![2, 0] b1 slices_S7x256_S1x256_2_0) shapeCasts_S1x256_S256)))) (broadcastInDim S16384x3x256 ![] bcast_S_S16384x3x256 (constant (F := Ideal) S_ .f32 0x00000000#32)))

/-- Scale 2: the output layer summed over the scale's relations. -/
def Y2 (x : FVec Ideal S16384x8x256 .f32) (W1 : FVec Ideal S7x2048x256 .f32) (b1 : FVec Ideal S7x256 .f32) (W2 : FVec Ideal S7x256x174 .f32) (b2 : FVec Ideal S7x174 .f32) : FVec Ideal S16384x174 .f32 :=
  (Host.reduceAdd (addf (Host.dotGeneral dot_S16384x3x256_S256x174_S16384x3x174_2_0_01_1_n_n none (H2 x W1 b1) (shapeCast _ (extractStridedSlice S1x256x174 ![2, 0, 0] W2 slices_S7x256x174_S1x256x174_2_0_0) shapeCasts_S1x256x174_S256x174)) (broadcastInDim S16384x3x174 ![0, 1, 2] bcast_S1x1x174_S16384x3x174_0_1_2 (broadcastInDim S1x1x174 ![2] bcast_S174_S1x1x174_2 (shapeCast _ (extractStridedSlice S1x174 ![2, 0] b2 slices_S7x174_S1x174_2_0) shapeCasts_S1x174_S174)))) (constant (F := Ideal) S_ .f32 0x00000000#32) reducesTo_S16384x3x174_S16384x174_d1 h_S_)

/-- Scale 3: the start indices handed to the gather (the table of frame indices, wrapped where negative, with a unit last axis). -/
def idx3 : IVec S3x5x1 32 :=
  (broadcastInDim S3x5x1 ![0, 1] bcast_S3x5_S3x5x1_0_1 (select (cmpi .slt (fun i => lit3 (S3x5.rowMajor i)) (broadcastInDim S3x5 ![] bcast_S_S3x5 (constantI S_ 32 0#32))) (addi (fun i => lit3 (S3x5.rowMajor i)) (broadcastInDim S3x5 ![] bcast_S_S3x5 (constantI S_ 32 8#32))) (fun i => lit3 (S3x5.rowMajor i))))

/-- Scale 3: the gathered frames of every relation, laid side by side, after the input relu. -/
def G3 (x : FVec Ideal S16384x8x256 .f32) : FVec Ideal S16384x3x1280 .f32 :=
  (maximumf (shapeCast _ (Host.gather gather_S16384x8x256_S3x5x1_S16384x3x5x256_03_1_n_n_1_2_163841256 x idx3) shapeCasts_S16384x3x5x256_S16384x3x1280) (broadcastInDim S16384x3x1280 ![] bcast_S_S16384x3x1280 (constant (F := Ideal) S_ .f32 0x00000000#32)))

/-- Scale 3: the hidden layer of every relation after its relu. -/
def H3 (x : FVec Ideal S16384x8x256 .f32) (W1 : FVec Ideal S7x2048x256 .f32) (b1 : FVec Ideal S7x256 .f32) : FVec Ideal S16384x3x256 .f32 :=
  (maximumf (addf (Host.dotGeneral dot_S16384x3x1280_S1280x256_S16384x3x256_2_0_01_1_n_n none (G3 x) (shapeCast _ (extractStridedSlice S1x1280x256 ![3, 0, 0] W1 slices_S7x2048x256_S1x1280x256_3_0_0) shapeCasts_S1x1280x256_S1280x256)) (broadcastInDim S16384x3x256 ![0, 1, 2] bcast_S1x1x256_S16384x3x256_0_1_2 (broadcastInDim S1x1x256 ![2] bcast_S256_S1x1x256_2 (shapeCast _ (extractStridedSlice S1x256 ![3, 0] b1 slices_S7x256_S1x256_3_0) shapeCasts_S1x256_S256)))) (broadcastInDim S16384x3x256 ![] bcast_S_S16384x3x256 (constant (F := Ideal) S_ .f32 0x00000000#32)))

/-- Scale 3: the output layer summed over the scale's relations. -/
def Y3 (x : FVec Ideal S16384x8x256 .f32) (W1 : FVec Ideal S7x2048x256 .f32) (b1 : FVec Ideal S7x256 .f32) (W2 : FVec Ideal S7x256x174 .f32) (b2 : FVec Ideal S7x174 .f32) : FVec Ideal S16384x174 .f32 :=
  (Host.reduceAdd (addf (Host.dotGeneral dot_S16384x3x256_S256x174_S16384x3x174_2_0_01_1_n_n none (H3 x W1 b1) (shapeCast _ (extractStridedSlice S1x256x174 ![3, 0, 0] W2 slices_S7x256x174_S1x256x174_3_0_0) shapeCasts_S1x256x174_S256x174)) (broadcastInDim S16384x3x174 ![0, 1, 2] bcast_S1x1x174_S16384x3x174_0_1_2 (broadcastInDim S1x1x174 ![2] bcast_S174_S1x1x174_2 (shapeCast _ (extractStridedSlice S1x174 ![3, 0] b2 slices_S7x174_S1x174_3_0) shapeCasts_S1x174_S174)))) (constant (F := Ideal) S_ .f32 0x00000000#32) reducesTo_S16384x3x174_S16384x174_d1 h_S_)

/-- Scale 4: the start indices handed to the gather (the table of frame indices, wrapped where negative, with a unit last axis). -/
def idx4 : IVec S3x4x1 32 :=
  (broadcastInDim S3x4x1 ![0, 1] bcast_S3x4_S3x4x1_0_1 (select (cmpi .slt (fun i => lit4 (S3x4.rowMajor i)) (broadcastInDim S3x4 ![] bcast_S_S3x4 (constantI S_ 32 0#32))) (addi (fun i => lit4 (S3x4.rowMajor i)) (broadcastInDim S3x4 ![] bcast_S_S3x4 (constantI S_ 32 8#32))) (fun i => lit4 (S3x4.rowMajor i))))

/-- Scale 4: the gathered frames of every relation, laid side by side, after the input relu. -/
def G4 (x : FVec Ideal S16384x8x256 .f32) : FVec Ideal S16384x3x1024 .f32 :=
  (maximumf (shapeCast _ (Host.gather gather_S16384x8x256_S3x4x1_S16384x3x4x256_03_1_n_n_1_2_163841256 x idx4) shapeCasts_S16384x3x4x256_S16384x3x1024) (broadcastInDim S16384x3x1024 ![] bcast_S_S16384x3x1024 (constant (F := Ideal) S_ .f32 0x00000000#32)))

/-- Scale 4: the hidden layer of every relation after its relu. -/
def H4 (x : FVec Ideal S16384x8x256 .f32) (W1 : FVec Ideal S7x2048x256 .f32) (b1 : FVec Ideal S7x256 .f32) : FVec Ideal S16384x3x256 .f32 :=
  (maximumf (addf (Host.dotGeneral dot_S16384x3x1024_S1024x256_S16384x3x256_2_0_01_1_n_n none (G4 x) (shapeCast _ (extractStridedSlice S1x1024x256 ![4, 0, 0] W1 slices_S7x2048x256_S1x1024x256_4_0_0) shapeCasts_S1x1024x256_S1024x256)) (broadcastInDim S16384x3x256 ![0, 1, 2] bcast_S1x1x256_S16384x3x256_0_1_2 (broadcastInDim S1x1x256 ![2] bcast_S256_S1x1x256_2 (shapeCast _ (extractStridedSlice S1x256 ![4, 0] b1 slices_S7x256_S1x256_4_0) shapeCasts_S1x256_S256)))) (broadcastInDim S16384x3x256 ![] bcast_S_S16384x3x256 (constant (F := Ideal) S_ .f32 0x00000000#32)))

/-- Scale 4: the output layer summed over the scale's relations. -/
def Y4 (x : FVec Ideal S16384x8x256 .f32) (W1 : FVec Ideal S7x2048x256 .f32) (b1 : FVec Ideal S7x256 .f32) (W2 : FVec Ideal S7x256x174 .f32) (b2 : FVec Ideal S7x174 .f32) : FVec Ideal S16384x174 .f32 :=
  (Host.reduceAdd (addf (Host.dotGeneral dot_S16384x3x256_S256x174_S16384x3x174_2_0_01_1_n_n none (H4 x W1 b1) (shapeCast _ (extractStridedSlice S1x256x174 ![4, 0, 0] W2 slices_S7x256x174_S1x256x174_4_0_0) shapeCasts_S1x256x174_S256x174)) (broadcastInDim S16384x3x174 ![0, 1, 2] bcast_S1x1x174_S16384x3x174_0_1_2 (broadcastInDim S1x1x174 ![2] bcast_S174_S1x1x174_2 (shapeCast _ (extractStridedSlice S1x174 ![4, 0] b2 slices_S7x174_S1x174_4_0) shapeCasts_S1x174_S174)))) (constant (F := Ideal) S_ .f32 0x00000000#32) reducesTo_S16384x3x174_S16384x174_d1 h_S_)

/-- Scale 5: the start indices handed to the gather (the table of frame indices, wrapped where negative, with a unit last axis). -/
def idx5 : IVec S3x3x1 32 :=
  (broadcastInDim S3x3x1 ![0, 1] bcast_S3x3_S3x3x1_0_1 (select (cmpi .slt (fun i => lit5 (S3x3.rowMajor i)) (broadcastInDim S3x3 ![] bcast_S_S3x3 (constantI S_ 32 0#32))) (addi (fun i => lit5 (S3x3.rowMajor i)) (broadcastInDim S3x3 ![] bcast_S_S3x3 (constantI S_ 32 8#32))) (fun i => lit5 (S3x3.rowMajor i))))

/-- Scale 5: the gathered frames of every relation, laid side by side, after the input relu. -/
def G5 (x : FVec Ideal S16384x8x256 .f32) : FVec Ideal S16384x3x768 .f32 :=
  (maximumf (shapeCast _ (Host.gather gather_S16384x8x256_S3x3x1_S16384x3x3x256_03_1_n_n_1_2_163841256 x idx5) shapeCasts_S16384x3x3x256_S16384x3x768) (broadcastInDim S16384x3x768 ![] bcast_S_S16384x3x768 (constant (F := Ideal) S_ .f32 0x00000000#32)))

/-- Scale 5: the hidden layer of every relation after its relu. -/
def H5 (x : FVec Ideal S16384x8x256 .f32) (W1 : FVec Ideal S7x2048x256 .f32) (b1 : FVec Ideal S7x256 .f32) : FVec Ideal S16384x3x256 .f32 :=
  (maximumf (addf (Host.dotGeneral dot_S16384x3x768_S768x256_S16384x3x256_2_0_01_1_n_n none (G5 x) (shapeCast _ (extractStridedSlice S1x768x256 ![5, 0, 0] W1 slices_S7x2048x256_S1x768x256_5_0_0) shapeCasts_S1x768x256_S768x256)) (broadcastInDim S16384x3x256 ![0, 1, 2] bcast_S1x1x256_S16384x3x256_0_1_2 (broadcastInDim S1x1x256 ![2] bcast_S256_S1x1x256_2 (shapeCast _ (extractStridedSlice S1x256 ![5, 0] b1 slices_S7x256_S1x256_5_0) shapeCasts_S1x256_S256)))) (broadcastInDim S16384x3x256 ![] bcast_S_S16384x3x256 (constant (F := Ideal) S_ .f32 0x00000000#32)))

/-- Scale 5: the output layer summed over the scale's relations. -/
def Y5 (x : FVec Ideal S16384x8x256 .f32) (W1 : FVec Ideal S7x2048x256 .f32) (b1 : FVec Ideal S7x256 .f32) (W2 : FVec Ideal S7x256x174 .f32) (b2 : FVec Ideal S7x174 .f32) : FVec Ideal S16384x174 .f32 :=
  (Host.reduceAdd (addf (Host.dotGeneral dot_S16384x3x256_S256x174_S16384x3x174_2_0_01_1_n_n none (H5 x W1 b1) (shapeCast _ (extractStridedSlice S1x256x174 ![5, 0, 0] W2 slices_S7x256x174_S1x256x174_5_0_0) shapeCasts_S1x256x174_S256x174)) (broadcastInDim S16384x3x174 ![0, 1, 2] bcast_S1x1x174_S16384x3x174_0_1_2 (broadcastInDim S1x1x174 ![2] bcast_S174_S1x1x174_2 (shapeCast _ (extractStridedSlice S1x174 ![5, 0] b2 slices_S7x174_S1x174_5_0) shapeCasts_S1x174_S174)))) (constant (F := Ideal) S_ .f32 0x00000000#32) reducesTo_S16384x3x174_S16384x174_d1 h_S_)

/-- Scale 6: the start indices handed to the gather (the table of frame indices, wrapped where negative, with a unit last axis). -/
def idx6 : IVec S3x2x1 32 :=
  (broadcastInDim S3x2x1 ![0, 1] bcast_S3x2_S3x2x1_0_1 (select (cmpi .slt (fun i => lit6 (S3x2.rowMajor i)) (broadcastInDim S3x2 ![] bcast_S_S3x2 (constantI S_ 32 0#32))) (addi (fun i => lit6 (S3x2.rowMajor i)) (broadcastInDim S3x2 ![] bcast_S_S3x2 (constantI S_ 32 8#32))) (fun i => lit6 (S3x2.rowMajor i))))

/-- Scale 6: the gathered frames of every relation, laid side by side, after the input relu. -/
def G6 (x : FVec Ideal S16384x8x256 .f32) : FVec Ideal S16384x3x512 .f32 :=
  (maximumf (shapeCast _ (Host.gather gather_S16384x8x256_S3x2x1_S16384x3x2x256_03_1_n_n_1_2_163841256 x idx6) shapeCasts_S16384x3x2x256_S16384x3x512) (broadcastInDim S16384x3x512 ![] bcast_S_S16384x3x512 (constant (F := Ideal) S_ .f32 0x00000000#32)))

/-- Scale 6: the hidden layer of every relation after its relu. -/
def H6 (x : FVec Ideal S16384x8x256 .f32) (W1 : FVec Ideal S7x2048x256 .f32) (b1 : FVec Ideal S7x256 .f32) : FVec Ideal S16384x3x256 .f32 :=
  (maximumf (addf (Host.dotGeneral dot_S16384x3x512_S512x256_S16384x3x256_2_0_01_1_n_n none (G6 x) (shapeCast _ (extractStridedSlice S1x512x256 ![6, 0, 0] W1 slices_S7x2048x256_S1x512x256_6_0_0) shapeCasts_S1x512x256_S512x256)) (broadcastInDim S16384x3x256 ![0, 1, 2] bcast_S1x1x256_S16384x3x256_0_1_2 (broadcastInDim S1x1x256 ![2] bcast_S256_S1x1x256_2 (shapeCast _ (extractStridedSlice S1x256 ![6, 0] b1 slices_S7x256_S1x256_6_0) shapeCasts_S1x256_S256)))) (broadcastInDim S16384x3x256 ![] bcast_S_S16384x3x256 (constant (F := Ideal) S_ .f32 0x00000000#32)))

/-- Scale 6: the output layer summed over the scale's relations. -/
def Y6 (x : FVec Ideal S16384x8x256 .f32) (W1 : FVec Ideal S7x2048x256 .f32) (b1 : FVec Ideal S7x256 .f32) (W2 : FVec Ideal S7x256x174 .f32) (b2 : FVec Ideal S7x174 .f32) : FVec Ideal S16384x174 .f32 :=
  (Host.reduceAdd (addf (Host.dotGeneral dot_S16384x3x256_S256x174_S16384x3x174_2_0_01_1_n_n none (H6 x W1 b1) (shapeCast _ (extractStridedSlice S1x256x174 ![6, 0, 0] W2 slices_S7x256x174_S1x256x174_6_0_0) shapeCasts_S1x256x174_S256x174)) (broadcastInDim S16384x3x174 ![0, 1, 2] bcast_S1x1x174_S16384x3x174_0_1_2 (broadcastInDim S1x1x174 ![2] bcast_S174_S1x1x174_2 (shapeCast _ (extractStridedSlice S1x174 ![6, 0] b2 slices_S7x174_S1x174_6_0) shapeCasts_S1x174_S174)))) (constant (F := Ideal) S_ .f32 0x00000000#32) reducesTo_S16384x3x174_S16384x174_d1 h_S_)

/-- The reference's result: the scales' contributions added in order. -/
def total (x : FVec Ideal S16384x8x256 .f32) (W1 : FVec Ideal S7x2048x256 .f32) (b1 : FVec Ideal S7x256 .f32) (W2 : FVec Ideal S7x256x174 .f32) (b2 : FVec Ideal S7x174 .f32) : FVec Ideal S16384x174 .f32 :=
  addf (addf (addf (addf (addf (addf (Y0 x W1 b1 W2 b2) (Y1 x W1 b1 W2 b2)) (Y2 x W1 b1 W2 b2)) (Y3 x W1 b1 W2 b2)) (Y4 x W1 b1 W2 b2)) (Y5 x W1 b1 W2 b2)) (Y6 x W1 b1 W2 b2)

end Cert.ReferenceIdeal.Term

end
-- ==== Proof.RefRunS0.lean ====
/-
  Scale 0 of the reference program: what its operations leave in the buffer of the running total,
  and that they write no buffer numbered below their own first one.
-/
import proofs.«120356_j936302870703_2_alg».proof.Proof.RefOps
import proofs.«120356_j936302870703_2_alg».proof.Proof.RefTerm
import proofs.«120356_j936302870703_2_alg».proof.Proof.LibWrites

noncomputable section

namespace Cert.ReferenceIdeal.Run

open Cert.ReferenceIdeal Cert.ReferenceIdeal.Gen Idealize.ShloMosaic Idealize.ShloMosaic.TcCoe Idealize.SL.Sem Idealize.ShloMosaic.StableHlo

/-- Every operation of scale 0 writes a buffer numbered 12 or higher. -/
theorem sc0_writes : (Ops.sc0 (F := Ideal)).Forall (WritesFrom 12) := by
  writes_own

/-- Every operation of scale 0 touches TensorCore references only. -/
theorem sc0_sub : (Ops.sc0 (F := Ideal)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., binary_bufs_sub ..⟩

/-- Every operation of scale 0 determines all it writes. -/
theorem sc0_fresh : (Ops.sc0 (F := Ideal)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

/-- Scale 0's operations leave every reference numbered below 12 as they found it. -/
theorem sc0_below (W : Valuation τ sig (Elt Ideal)) (r : Ref sig .tc) (hr : r.idx.val < 12) :
    after (Ops.sc0 (F := Ideal)) W (Proc.devRef .tc r) = W (Proc.devRef .tc r) :=
  after_below 12 _ W sc0_writes r hr

attribute [local irreducible] Host.gather Host.reduceAdd in
set_option maxRecDepth 65536 in
set_option maxHeartbeats 4000000 in
/-- If the scale-0 table of frame indices holds its literal entries, scale 0's operations leave the scale's contribution in the running total's buffer. -/
theorem sc0_val (W : Valuation τ sig (Elt Ideal))
    (hT : W (main_c : DevRef τ sig) = fun i => lit0 (S1x8.rowMajor i)) :
    after (Ops.sc0 (F := Ideal)) W (main_v26 : DevRef τ sig) = Term.Y0 (W (main_arg0 : DevRef τ sig)) (W (main_arg1 : DevRef τ sig)) (W (main_arg2 : DevRef τ sig)) (W (main_arg3 : DevRef τ sig)) (W (main_arg4 : DevRef τ sig)) := by
  simp only [Ops.sc0]
  after_results_simp
  rw [hT]
  rfl

end Cert.ReferenceIdeal.Run

end
-- ==== Proof.RefRunS1.lean ====
/-
  Scale 1 of the reference program: what its operations leave in the buffer of the running total,
  and that they write no buffer numbered below their own first one.
-/
import proofs.«120356_j936302870703_2_alg».proof.Proof.RefOps
import proofs.«120356_j936302870703_2_alg».proof.Proof.RefTerm
import proofs.«120356_j936302870703_2_alg».proof.Proof.LibWrites

noncomputable section

namespace Cert.ReferenceIdeal.Run

open Cert.ReferenceIdeal Cert.ReferenceIdeal.Gen Idealize.ShloMosaic Idealize.ShloMosaic.TcCoe Idealize.SL.Sem Idealize.ShloMosaic.StableHlo

/-- Every operation of scale 1 writes a buffer numbered 46 or higher. -/
theorem sc1_writes : (Ops.sc1 (F := Ideal)).Forall (WritesFrom 46) := by
  writes_own

/-- Every operation of scale 1 touches TensorCore references only. -/
theorem sc1_sub : (Ops.sc1 (F := Ideal)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., binary_bufs_sub .., binary_bufs_sub ..⟩

/-- Every operation of scale 1 determines all it writes. -/
theorem sc1_fresh : (Ops.sc1 (F := Ideal)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

/-- Scale 1's operations leave every reference numbered below 46 as they found it. -/
theorem sc1_below (W : Valuation τ sig (Elt Ideal)) (r : Ref sig .tc) (hr : r.idx.val < 46) :
    after (Ops.sc1 (F := Ideal)) W (Proc.devRef .tc r) = W (Proc.devRef .tc r) :=
  after_below 46 _ W sc1_writes r hr

attribute [local irreducible] Host.gather Host.reduceAdd in
set_option maxRecDepth 65536 in
set_option maxHeartbeats 4000000 in
/-- If the scale-1 table of frame indices holds its literal entries, scale 1's operations leave the previous running total plus the scale's contribution in the running total's buffer. -/
theorem sc1_val (W : Valuation τ sig (Elt Ideal))
    (hT : W (main_c_0 : DevRef τ sig) = fun i => lit1 (S3x7.rowMajor i)) :
    after (Ops.sc1 (F := Ideal)) W (main_v54 : DevRef τ sig) = addf (W (main_v26 : DevRef τ sig)) (Term.Y1 (W (main_arg0 : DevRef τ sig)) (W (main_arg1 : DevRef τ sig)) (W (main_arg2 : DevRef τ sig)) (W (main_arg3 : DevRef τ sig)) (W (main_arg4 : DevRef τ sig))) := by
  simp only [Ops.sc1]
  after_results_simp
  rw [hT]
  rfl

end Cert.ReferenceIdeal.Run

end
-- ==== Proof.RefRunS2.lean ====
/-
  Scale 2 of the reference program: what its operations leave in the buffer of the running total,
  and that they write no buffer numbered below their own first one.
-/
import proofs.«120356_j936302870703_2_alg».proof.Proof.RefOps
import proofs.«120356_j936302870703_2_alg».proof.Proof.RefTerm
import proofs.«120356_j936302870703_2_alg».proof.Proof.LibWrites

noncomputable section

namespace Cert.ReferenceIdeal.Run

open Cert.ReferenceIdeal Cert.ReferenceIdeal.Gen Idealize.ShloMosaic Idealize.ShloMosaic.TcCoe Idealize.SL.Sem Idealize.ShloMosaic.StableHlo

/-- Every operation of scale 2 writes a buffer numbered 81 or higher. -/
theorem sc2_writes : (Ops.sc2 (F := Ideal)).Forall (WritesFrom 81) := by
  writes_own

/-- Every operation of scale 2 touches TensorCore references only. -/
theorem sc2_sub : (Ops.sc2 (F := Ideal)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., binary_bufs_sub .., binary_bufs_sub ..⟩

/-- Every operation of scale 2 determines all it writes. -/
theorem sc2_fresh : (Ops.sc2 (F := Ideal)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

/-- Scale 2's operations leave every reference numbered below 81 as they found it. -/
theorem sc2_below (W : Valuation τ sig (Elt Ideal)) (r : Ref sig .tc) (hr : r.idx.val < 81) :
    after (Ops.sc2 (F := Ideal)) W (Proc.devRef .tc r) = W (Proc.devRef .tc r) :=
  after_below 81 _ W sc2_writes r hr

attribute [local irreducible] Host.gather Host.reduceAdd in
set_option maxRecDepth 65536 in
set_option maxHeartbeats 4000000 in
/-- If the scale-2 table of frame indices holds its literal entries, scale 2's operations leave the previous running total plus the scale's contribution in the running total's buffer. -/
theorem sc2_val (W : Valuation τ sig (Elt Ideal))
    (hT : W (main_c_1 : DevRef τ sig) = fun i => lit2 (S3x6.rowMajor i)) :
    after (Ops.sc2 (F := Ideal)) W (main_v82 : DevRef τ sig) = addf (W (main_v54 : DevRef τ sig)) (Term.Y2 (W (main_arg0 : DevRef τ sig)) (W (main_arg1 : DevRef τ sig)) (W (main_arg2 : DevRef τ sig)) (W (main_arg3 : DevRef τ sig)) (W (main_arg4 : DevRef τ sig))) := by
  simp only [Ops.sc2]
  after_results_simp
  rw [hT]
  rfl

end Cert.ReferenceIdeal.Run

end
-- ==== Proof.RefRunS3.lean ====
/-
  Scale 3 of the reference program: what its operations leave in the buffer of the running total,
  and that they write no buffer numbered below their own first one.
-/
import proofs.«120356_j936302870703_2_alg».proof.Proof.RefOps
import proofs.«120356_j936302870703_2_alg».proof.Proof.RefTerm
import proofs.«120356_j936302870703_2_alg».proof.Proof.LibWrites

noncomputable section

namespace Cert.ReferenceIdeal.Run

open Cert.ReferenceIdeal Cert.ReferenceIdeal.Gen Idealize.ShloMosaic Idealize.ShloMosaic.TcCoe Idealize.SL.Sem Idealize.ShloMosaic.StableHlo

/-- Every operation of scale 3 writes a buffer numbered 116 or higher. -/
theorem sc3_writes : (Ops.sc3 (F := Ideal)).Forall (WritesFrom 116) := by
  writes_own

/-- Every operation of scale 3 touches TensorCore references only. -/
theorem sc3_sub : (Ops.sc3 (F := Ideal)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., binary_bufs_sub .., binary_bufs_sub ..⟩

/-- Every operation of scale 3 determines all it writes. -/
theorem sc3_fresh : (Ops.sc3 (F := Ideal)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

/-- Scale 3's operations leave every reference numbered below 116 as they found it. -/
theorem sc3_below (W : Valuation τ sig (Elt Ideal)) (r : Ref sig .tc) (hr : r.idx.val < 116) :
    after (Ops.sc3 (F := Ideal)) W (Proc.devRef .tc r) = W (Proc.devRef .tc r) :=
  after_below 116 _ W sc3_writes r hr

attribute [local irreducible] Host.gather Host.reduceAdd in
set_option maxRecDepth 65536 in
set_option maxHeartbeats 4000000 in
/-- If the scale-3 table of frame indices holds its literal entries, scale 3's operations leave the previous running total plus the scale's contribution in the running total's buffer. -/
theorem sc3_val (W : Valuation τ sig (Elt Ideal))
    (hT : W (main_c_2 : DevRef τ sig) = fun i => lit3 (S3x5.rowMajor i)) :
    after (Ops.sc3 (F := Ideal)) W (main_v110 : DevRef τ sig) = addf (W (main_v82 : DevRef τ sig)) (Term.Y3 (W (main_arg0 : DevRef τ sig)) (W (main_arg1 : DevRef τ sig)) (W (main_arg2 : DevRef τ sig)) (W (main_arg3 : DevRef τ sig)) (W (main_arg4 : DevRef τ sig))) := by
  simp only [Ops.sc3]
  after_results_simp
  rw [hT]
  rfl

end Cert.ReferenceIdeal.Run

end
-- ==== Proof.RefRunS4.lean ====
/-
  Scale 4 of the reference program: what its operations leave in the buffer of the running total,
  and that they write no buffer numbered below their own first one.
-/
import proofs.«120356_j936302870703_2_alg».proof.Proof.RefOps
import proofs.«120356_j936302870703_2_alg».proof.Proof.RefTerm
import proofs.«120356_j936302870703_2_alg».proof.Proof.LibWrites

noncomputable section

namespace Cert.ReferenceIdeal.Run

open Cert.ReferenceIdeal Cert.ReferenceIdeal.Gen Idealize.ShloMosaic Idealize.ShloMosaic.TcCoe Idealize.SL.Sem Idealize.ShloMosaic.StableHlo

/-- Every operation of scale 4 writes a buffer numbered 151 or higher. -/
theorem sc4_writes : (Ops.sc4 (F := Ideal)).Forall (WritesFrom 151) := by
  writes_own

/-- Every operation of scale 4 touches TensorCore references only. -/
theorem sc4_sub : (Ops.sc4 (F := Ideal)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., binary_bufs_sub .., binary_bufs_sub ..⟩

/-- Every operation of scale 4 determines all it writes. -/
theorem sc4_fresh : (Ops.sc4 (F := Ideal)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

/-- Scale 4's operations leave every reference numbered below 151 as they found it. -/
theorem sc4_below (W : Valuation τ sig (Elt Ideal)) (r : Ref sig .tc) (hr : r.idx.val < 151) :
    after (Ops.sc4 (F := Ideal)) W (Proc.devRef .tc r) = W (Proc.devRef .tc r) :=
  after_below 151 _ W sc4_writes r hr

attribute [local irreducible] Host.gather Host.reduceAdd in
set_option maxRecDepth 65536 in
set_option maxHeartbeats 4000000 in
/-- If the scale-4 table of frame indices holds its literal entries, scale 4's operations leave the previous running total plus the scale's contribution in the running total's buffer. -/
theorem sc4_val (W : Valuation τ sig (Elt Ideal))
    (hT : W (main_c_3 : DevRef τ sig) = fun i => lit4 (S3x4.rowMajor i)) :
    after (Ops.sc4 (F := Ideal)) W (main_v138 : DevRef τ sig) = addf (W (main_v110 : DevRef τ sig)) (Term.Y4 (W (main_arg0 : DevRef τ sig)) (W (main_arg1 : DevRef τ sig)) (W (main_arg2 : DevRef τ sig)) (W (main_arg3 : DevRef τ sig)) (W (main_arg4 : DevRef τ sig))) := by
  simp only [Ops.sc4]
  after_results_simp
  rw [hT]
  rfl

end Cert.ReferenceIdeal.Run

end
-- ==== Proof.RefRunS5.lean ====
/-
  Scale 5 of the reference program: what its operations leave in the buffer of the running total,
  and that they write no buffer numbered below their own first one.
-/
import proofs.«120356_j936302870703_2_alg».proof.Proof.RefOps
import proofs.«120356_j936302870703_2_alg».proof.Proof.RefTerm
import proofs.«120356_j936302870703_2_alg».proof.Proof.LibWrites

noncomputable section

namespace Cert.ReferenceIdeal.Run

open Cert.ReferenceIdeal Cert.ReferenceIdeal.Gen Idealize.ShloMosaic Idealize.ShloMosaic.TcCoe Idealize.SL.Sem Idealize.ShloMosaic.StableHlo

/-- Every operation of scale 5 writes a buffer numbered 186 or higher. -/
theorem sc5_writes : (Ops.sc5 (F := Ideal)).Forall (WritesFrom 186) := by
  writes_own

/-- Every operation of scale 5 touches TensorCore references only. -/
theorem sc5_sub : (Ops.sc5 (F := Ideal)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., binary_bufs_sub .., binary_bufs_sub ..⟩

/-- Every operation of scale 5 determines all it writes. -/
theorem sc5_fresh : (Ops.sc5 (F := Ideal)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

/-- Scale 5's operations leave every reference numbered below 186 as they found it. -/
theorem sc5_below (W : Valuation τ sig (Elt Ideal)) (r : Ref sig .tc) (hr : r.idx.val < 186) :
    after (Ops.sc5 (F := Ideal)) W (Proc.devRef .tc r) = W (Proc.devRef .tc r) :=
  after_below 186 _ W sc5_writes r hr

attribute [local irreducible] Host.gather Host.reduceAdd in
set_option maxRecDepth 65536 in
set_option maxHeartbeats 4000000 in
/-- If the scale-5 table of frame indices holds its literal entries, scale 5's operations leave the previous running total plus the scale's contribution in the running total's buffer. -/
theorem sc5_val (W : Valuation τ sig (Elt Ideal))
    (hT : W (main_c_4 : DevRef τ sig) = fun i => lit5 (S3x3.rowMajor i)) :
    after (Ops.sc5 (F := Ideal)) W (main_v166 : DevRef τ sig) = addf (W (main_v138 : DevRef τ sig)) (Term.Y5 (W (main_arg0 : DevRef τ sig)) (W (main_arg1 : DevRef τ sig)) (W (main_arg2 : DevRef τ sig)) (W (main_arg3 : DevRef τ sig)) (W (main_arg4 : DevRef τ sig))) := by
  simp only [Ops.sc5]
  after_results_simp
  rw [hT]
  rfl

end Cert.ReferenceIdeal.Run

end
-- ==== Proof.RefRunS6.lean ====
/-
  Scale 6 of the reference program: what its operations leave in the buffer of the running total,
  and that they write no buffer numbered below their own first one.
-/
import proofs.«120356_j936302870703_2_alg».proof.Proof.RefOps
import proofs.«120356_j936302870703_2_alg».proof.Proof.RefTerm
import proofs.«120356_j936302870703_2_alg».proof.Proof.LibWrites

noncomputable section

namespace Cert.ReferenceIdeal.Run

open Cert.ReferenceIdeal Cert.ReferenceIdeal.Gen Idealize.ShloMosaic Idealize.ShloMosaic.TcCoe Idealize.SL.Sem Idealize.ShloMosaic.StableHlo

/-- Every operation of scale 6 writes a buffer numbered 221 or higher. -/
theorem sc6_writes : (Ops.sc6 (F := Ideal)).Forall (WritesFrom 221) := by
  writes_own

/-- Every operation of scale 6 touches TensorCore references only. -/
theorem sc6_sub : (Ops.sc6 (F := Ideal)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., binary_bufs_sub .., binary_bufs_sub ..⟩

/-- Every operation of scale 6 determines all it writes. -/
theorem sc6_fresh : (Ops.sc6 (F := Ideal)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

/-- Scale 6's operations leave every reference numbered below 221 as they found it. -/
theorem sc6_below (W : Valuation τ sig (Elt Ideal)) (r : Ref sig .tc) (hr : r.idx.val < 221) :
    after (Ops.sc6 (F := Ideal)) W (Proc.devRef .tc r) = W (Proc.devRef .tc r) :=
  after_below 221 _ W sc6_writes r hr

attribute [local irreducible] Host.gather Host.reduceAdd in
set_option maxRecDepth 65536 in
set_option maxHeartbeats 4000000 in
/-- If the scale-6 table of frame indices holds its literal entries, scale 6's operations leave the previous running total plus the scale's contribution in the running total's buffer. -/
theorem sc6_val (W : Valuation τ sig (Elt Ideal))
    (hT : W (main_c_5 : DevRef τ sig) = fun i => lit6 (S3x2.rowMajor i)) :
    after (Ops.sc6 (F := Ideal)) W (main_v194 : DevRef τ sig) = addf (W (main_v166 : DevRef τ sig)) (Term.Y6 (W (main_arg0 : DevRef τ sig)) (W (main_arg1 : DevRef τ sig)) (W (main_arg2 : DevRef τ sig)) (W (main_arg3 : DevRef τ sig)) (W (main_arg4 : DevRef τ sig))) := by
  simp only [Ops.sc6]
  after_results_simp
  rw [hT]
  rfl

end Cert.ReferenceIdeal.Run

end
-- ==== Proof.RefRun.lean ====
/-
  The reference program's run: the program is the straight line of its operations, every fair
  execution of it terminates, and at the end the result buffer holds the scales' contributions added
  in order while the five arguments hold what they held at the start.
-/
import proofs.«120356_j936302870703_2_alg».proof.Proof.RefRunP0
import proofs.«120356_j936302870703_2_alg».proof.Proof.RefRunP1
import proofs.«120356_j936302870703_2_alg».proof.Proof.RefRunP2
import proofs.«120356_j936302870703_2_alg».proof.Proof.RefRunP3
import proofs.«120356_j936302870703_2_alg».proof.Proof.RefRunPre
import proofs.«120356_j936302870703_2_alg».proof.Proof.RefRunS0
import proofs.«120356_j936302870703_2_alg».proof.Proof.RefRunS1
import proofs.«120356_j936302870703_2_alg».proof.Proof.RefRunS2
import proofs.«120356_j936302870703_2_alg».proof.Proof.RefRunS3
import proofs.«120356_j936302870703_2_alg».proof.Proof.RefRunS4
import proofs.«120356_j936302870703_2_alg».proof.Proof.RefRunS5
import proofs.«120356_j936302870703_2_alg».proof.Proof.RefRunS6

noncomputable section

namespace Cert.ReferenceIdeal.Run

open Cert.ReferenceIdeal Cert.ReferenceIdeal.Gen Idealize.ShloMosaic Idealize.ShloMosaic.TcCoe Idealize.SL.Sem Idealize.ShloMosaic.StableHlo

/-- The four windows' operations, one after the other, are the program's operations cut per scale. -/
theorem ops_parts : (Ops.ops (F := Ideal)) = Ops.part0 ++ (Ops.part1 ++ (Ops.part2 ++ Ops.part3)) := rfl

/-- The reference program is the straight line of its operations. -/
theorem main_eq (c : Dev nD) : main (F := Ideal) c = seq Ops.ops := by
  rw [ops_parts, seq_append, seq_append, seq_append, ← part0_eq c, ← part1_eq c, ← part2_eq c, ← part3_eq c]
  rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of the program touches TensorCore references only. -/
theorem ops_sub : (Ops.ops (F := Ideal)).Forall fun op => op.bufs ⊆ tcRefs τ sig :=
  List.forall_append.mpr ⟨pre_sub, List.forall_append.mpr ⟨sc0_sub, List.forall_append.mpr ⟨sc1_sub,
    List.forall_append.mpr ⟨sc2_sub, List.forall_append.mpr ⟨sc3_sub, List.forall_append.mpr ⟨sc4_sub,
    List.forall_append.mpr ⟨sc5_sub, sc6_sub⟩⟩⟩⟩⟩⟩⟩

/-- Every operation of the program determines all it writes. -/
theorem ops_fresh : (Ops.ops (F := Ideal)).Forall fun op => op.fresh = ∅ :=
  List.forall_append.mpr ⟨pre_fresh, List.forall_append.mpr ⟨sc0_fresh, List.forall_append.mpr ⟨sc1_fresh,
    List.forall_append.mpr ⟨sc2_fresh, List.forall_append.mpr ⟨sc3_fresh, List.forall_append.mpr ⟨sc4_fresh,
    List.forall_append.mpr ⟨sc5_fresh, sc6_fresh⟩⟩⟩⟩⟩⟩⟩

/-- From any contents, the operations leave the seven scales' contributions added in order in the result buffer, and the five arguments as they were. -/
theorem ops_vals (V : Valuation τ sig (Elt Ideal)) :
    after (Ops.ops (F := Ideal)) V (main_v194 : DevRef τ sig) = Term.total (V (main_arg0 : DevRef τ sig)) (V (main_arg1 : DevRef τ sig)) (V (main_arg2 : DevRef τ sig)) (V (main_arg3 : DevRef τ sig)) (V (main_arg4 : DevRef τ sig))
      ∧ after (Ops.ops (F := Ideal)) V (main_arg0 : DevRef τ sig) = V (main_arg0 : DevRef τ sig)
      ∧ after (Ops.ops (F := Ideal)) V (main_arg1 : DevRef τ sig) = V (main_arg1 : DevRef τ sig)
      ∧ after (Ops.ops (F := Ideal)) V (main_arg2 : DevRef τ sig) = V (main_arg2 : DevRef τ sig)
      ∧ after (Ops.ops (F := Ideal)) V (main_arg3 : DevRef τ sig) = V (main_arg3 : DevRef τ sig)
      ∧ after (Ops.ops (F := Ideal)) V (main_arg4 : DevRef τ sig) = V (main_arg4 : DevRef τ sig) := by
  have e : after (Ops.ops (F := Ideal)) V
      = after Ops.sc6 (after Ops.sc5 (after Ops.sc4 (after Ops.sc3 (after Ops.sc2 (after Ops.sc1 (after Ops.sc0 (after Ops.pre V))))))) := by
    simp only [Ops.ops, after_two]
  rw [e]
  have t0 := pre_tab0 V
  have t1 := pre_tab1 V
  have t2 := pre_tab2 V
  have t3 := pre_tab3 V
  have t4 := pre_tab4 V
  have t5 := pre_tab5 V
  have t6 := pre_tab6 V
  have c0 : ∀ r : Ref sig .tc, r.idx.val < 5 → after (Ops.pre (F := Ideal)) V (Proc.devRef .tc r) = V (Proc.devRef .tc r) :=
    fun r hr => pre_below V r hr
  generalize after (Ops.pre (F := Ideal)) V = V0 at *
  -- scale 0
  have a1 := sc0_val V0 t0
  rw [c0 main_arg0 (by decide), c0 main_arg1 (by decide), c0 main_arg2 (by decide), c0 main_arg3 (by decide), c0 main_arg4 (by decide)] at a1
  have c1 : ∀ r : Ref sig .tc, r.idx.val < 5 → after (Ops.sc0 (F := Ideal)) V0 (Proc.devRef .tc r) = V (Proc.devRef .tc r) :=
    fun r hr => (sc0_below V0 r (by omega)).trans (c0 r hr)
  have d1 : ∀ r : Ref sig .tc, r.idx.val < 12 → after (Ops.sc0 (F := Ideal)) V0 (Proc.devRef .tc r) = V0 (Proc.devRef .tc r) :=
    fun r hr => sc0_below V0 r hr
  generalize after (Ops.sc0 (F := Ideal)) V0 = V1 at *
  -- scale 1
  have a2 := sc1_val V1 ((d1 main_c_0 (by decide)).trans t1)
  rw [c1 main_arg0 (by decide), c1 main_arg1 (by decide), c1 main_arg2 (by decide), c1 main_arg3 (by decide), c1 main_arg4 (by decide)] at a2
  have c2 : ∀ r : Ref sig .tc, r.idx.val < 5 → after (Ops.sc1 (F := Ideal)) V1 (Proc.devRef .tc r) = V (Proc.devRef .tc r) :=
    fun r hr => (sc1_below V1 r (by omega)).trans (c1 r hr)
  have d2 : ∀ r : Ref sig .tc, r.idx.val < 12 → after (Ops.sc1 (F := Ideal)) V1 (Proc.devRef .tc r) = V0 (Proc.devRef .tc r) :=
    fun r hr => (sc1_below V1 r (by omega)).trans (d1 r hr)
  rw [a1] at a2
  generalize after (Ops.sc1 (F := Ideal)) V1 = V2 at *
  -- scale 2
  have a3 := sc2_val V2 ((d2 main_c_1 (by decide)).trans t2)
  rw [c2 main_arg0 (by decide), c2 main_arg1 (by decide), c2 main_arg2 (by decide), c2 main_arg3 (by decide), c2 main_arg4 (by decide)] at a3
  have c3 : ∀ r : Ref sig .tc, r.idx.val < 5 → after (Ops.sc2 (F := Ideal)) V2 (Proc.devRef .tc r) = V (Proc.devRef .tc r) :=
    fun r hr => (sc2_below V2 r (by omega)).trans (c2 r hr)
  have d3 : ∀ r : Ref sig .tc, r.idx.val < 12 → after (Ops.sc2 (F := Ideal)) V2 (Proc.devRef .tc r) = V0 (Proc.devRef .tc r) :=
    fun r hr => (sc2_below V2 r (by omega)).trans (d2 r hr)
  rw [a2] at a3
  generalize after (Ops.sc2 (F := Ideal)) V2 = V3 at *
  -- scale 3
  have a4 := sc3_val V3 ((d3 main_c_2 (by decide)).trans t3)
  rw [c3 main_arg0 (by decide), c3 main_arg1 (by decide), c3 main_arg2 (by decide), c3 main_arg3 (by decide), c3 main_arg4 (by decide)] at a4
  have c4 : ∀ r : Ref sig .tc, r.idx.val < 5 → after (Ops.sc3 (F := Ideal)) V3 (Proc.devRef .tc r) = V (Proc.devRef .tc r) :=
    fun r hr => (sc3_below V3 r (by omega)).trans (c3 r hr)
  have d4 : ∀ r : Ref sig .tc, r.idx.val < 12 → after (Ops.sc3 (F := Ideal)) V3 (Proc.devRef .tc r) = V0 (Proc.devRef .tc r) :=
    fun r hr => (sc3_below V3 r (by omega)).trans (d3 r hr)
  rw [a3] at a4
  generalize after (Ops.sc3 (F := Ideal)) V3 = V4 at *
  -- scale 4
  have a5 := sc4_val V4 ((d4 main_c_3 (by decide)).trans t4)
  rw [c4 main_arg0 (by decide), c4 main_arg1 (by decide), c4 main_arg2 (by decide), c4 main_arg3 (by decide), c4 main_arg4 (by decide)] at a5
  have c5 : ∀ r : Ref sig .tc, r.idx.val < 5 → after (Ops.sc4 (F := Ideal)) V4 (Proc.devRef .tc r) = V (Proc.devRef .tc r) :=
    fun r hr => (sc4_below V4 r (by omega)).trans (c4 r hr)
  have d5 : ∀ r : Ref sig .tc, r.idx.val < 12 → after (Ops.sc4 (F := Ideal)) V4 (Proc.devRef .tc r) = V0 (Proc.devRef .tc r) :=
    fun r hr => (sc4_below V4 r (by omega)).trans (d4 r hr)
  rw [a4] at a5
  generalize after (Ops.sc4 (F := Ideal)) V4 = V5 at *
  -- scale 5
  have a6 := sc5_val V5 ((d5 main_c_4 (by decide)).trans t5)
  rw [c5 main_arg0 (by decide), c5 main_arg1 (by decide), c5 main_arg2 (by decide), c5 main_arg3 (by decide), c5 main_arg4 (by decide)] at a6
  have c6 : ∀ r : Ref sig .tc, r.idx.val < 5 → after (Ops.sc5 (F := Ideal)) V5 (Proc.devRef .tc r) = V (Proc.devRef .tc r) :=
    fun r hr => (sc5_below V5 r (by omega)).trans (c5 r hr)
  have d6 : ∀ r : Ref sig .tc, r.idx.val < 12 → after (Ops.sc5 (F := Ideal)) V5 (Proc.devRef .tc r) = V0 (Proc.devRef .tc r) :=
    fun r hr => (sc5_below V5 r (by omega)).trans (d5 r hr)
  rw [a5] at a6
  generalize after (Ops.sc5 (F := Ideal)) V5 = V6 at *
  -- scale 6
  have a7 := sc6_val V6 ((d6 main_c_5 (by decide)).trans t6)
  rw [c6 main_arg0 (by decide), c6 main_arg1 (by decide), c6 main_arg2 (by decide), c6 main_arg3 (by decide), c6 main_arg4 (by decide)] at a7
  have c7 : ∀ r : Ref sig .tc, r.idx.val < 5 → after (Ops.sc6 (F := Ideal)) V6 (Proc.devRef .tc r) = V (Proc.devRef .tc r) :=
    fun r hr => (sc6_below V6 r (by omega)).trans (c6 r hr)
  rw [a6] at a7
  exact ⟨a7, c7 main_arg0 (by decide), c7 main_arg1 (by decide), c7 main_arg2 (by decide), c7 main_arg3 (by decide), c7 main_arg4 (by decide)⟩

/-- From any memory with zero counters, every weakly fair execution of the reference program terminates with the result buffer at the scales' contributions (of the arguments' launch contents) added in order, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v194) = Term.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      have v := ops_vals (launchContents m c)
      ⟨(h c main_v194).trans v.1, (h c main_arg0).trans v.2.1, (h c main_arg1).trans v.2.2.1,
        (h c main_arg2).trans v.2.2.2.1, (h c main_arg3).trans v.2.2.2.2.1, (h c main_arg4).trans v.2.2.2.2.2⟩)
    (run_seq scopedRefs_eq scopedSems_eq defs main (fun _ => Ops.ops) main_eq (fun _ => ops_sub) m ρ
      (fun _ => List.forall_iff_forall_mem.mp ops_fresh))

end Cert.ReferenceIdeal.Run

end
-- ==== Proof.Spec.lean ====
/-
  The multi-scale relation module, one batch row and one output class at a time, over the extended reals.

  A row holds 8 frames of 256 features. A relation of scale s picks s frames; its hidden unit k is
  relu (∑ over the picked frames j and features d of relu(x) · W1[j·256 + d, k] + b1[k]), and its output
  for a class is ∑ over k of hidden k · W2[k] + b2. A scale's contribution is the sum over its relations, and
  the result the sum over the seven scales.

  Two arrangements of the same quantity are written down: `scale` / `total` sum per relation, as the
  reference does; `kscale` / `ktotal` first add the hidden layers of a scale's relations, multiply by W2 once
  and add the relation count times b2, accumulating frame products one after the other, as the kernel does.
-/
import Idealize.ShloMosaic.Lib.ValueIdx
import Idealize.ShloMosaic.PureOps.Ideal

noncomputable section

namespace Cert.Rel

open Idealize.ShloMosaic

/-- relu on the extended reals. -/
def relu (a : EReal) : EReal := max a 0

/-- Row `j·256 + d` of a scale's first-layer weights: feature `d` of the `j`-th picked frame. -/
def wrow (j : Fin 8) (d : Fin 256) : Fin 2048 := ⟨j.val * 256 + d.val, by omega⟩

/-- The product of one picked frame with its block of weight rows: ∑ over features d of relu (x f d) · w (j·256 + d) k. -/
def fterm (xr : Fin 8 → Fin 256 → EReal) (w : Fin 2048 → Fin 256 → EReal) (f j : Fin 8) (k : Fin 256) : EReal :=
  ∑ d : Fin 256, relu (xr f d) * w (wrow j d) k

/-! ## Per relation, summed (the reference's arrangement) -/

/-- Hidden unit `k` of the relation picking frames `fr 0, …, fr (s-1)`. -/
def hid (s : ℕ) (hs : s ≤ 8) (fr : Fin s → Fin 8) (xr : Fin 8 → Fin 256 → EReal) (w : Fin 2048 → Fin 256 → EReal)
    (b : Fin 256 → EReal) (k : Fin 256) : EReal :=
  relu ((∑ j : Fin s, fterm xr w (fr j) (Fin.castLE hs j) k) + b k)

/-- One scale's contribution to one class: over its `n` relations, the output layer of each. -/
def scale (n s : ℕ) (hs : s ≤ 8) (sel : Fin n → Fin s → Fin 8) (xr : Fin 8 → Fin 256 → EReal)
    (w : Fin 2048 → Fin 256 → EReal) (b : Fin 256 → EReal) (w2 : Fin 256 → EReal) (b2 : EReal) : EReal :=
  ∑ r : Fin n, ((∑ k : Fin 256, hid s hs (sel r) xr w b k * w2 k) + b2)

/-- The frames each scale's relations pick. -/
def sel0 : Fin 1 → Fin 8 → Fin 8 := ![![0, 1, 2, 3, 4, 5, 6, 7]]
def sel1 : Fin 3 → Fin 7 → Fin 8 := ![![0, 2, 3, 4, 5, 6, 7], ![0, 1, 2, 3, 4, 6, 7], ![0, 1, 2, 3, 4, 5, 7]]
def sel2 : Fin 3 → Fin 6 → Fin 8 := ![![0, 1, 3, 4, 5, 7], ![2, 3, 4, 5, 6, 7], ![0, 2, 4, 5, 6, 7]]
def sel3 : Fin 3 → Fin 5 → Fin 8 := ![![2, 4, 5, 6, 7], ![0, 1, 2, 3, 6], ![0, 3, 5, 6, 7]]
def sel4 : Fin 3 → Fin 4 → Fin 8 := ![![0, 3, 4, 5], ![0, 1, 3, 6], ![0, 2, 6, 7]]
def sel5 : Fin 3 → Fin 3 → Fin 8 := ![![3, 5, 6], ![4, 5, 6], ![0, 1, 7]]
def sel6 : Fin 3 → Fin 2 → Fin 8 := ![![6, 7], ![1, 4], ![2, 3]]

/-- The result for one row and one class: the seven scales' contributions, added in order. `w1 i`, `b1 i`, `w2 i`,
    `b2 i` are scale `i`'s parameters (the second layer's already at the class). -/
def total (xr : Fin 8 → Fin 256 → EReal) (w1 : Fin 7 → Fin 2048 → Fin 256 → EReal) (b1 : Fin 7 → Fin 256 → EReal)
    (w2 : Fin 7 → Fin 256 → EReal) (b2 : Fin 7 → EReal) : EReal :=
  scale 1 8 (by omega) sel0 xr (w1 0) (b1 0) (w2 0) (b2 0)
    + scale 3 7 (by omega) sel1 xr (w1 1) (b1 1) (w2 1) (b2 1)
    + scale 3 6 (by omega) sel2 xr (w1 2) (b1 2) (w2 2) (b2 2)
    + scale 3 5 (by omega) sel3 xr (w1 3) (b1 3) (w2 3) (b2 3)
    + scale 3 4 (by omega) sel4 xr (w1 4) (b1 4) (w2 4) (b2 4)
    + scale 3 3 (by omega) sel5 xr (w1 5) (b1 5) (w2 5) (b2 5)
    + scale 3 2 (by omega) sel6 xr (w1 6) (b1 6) (w2 6) (b2 6)

/-! ## Hidden layers added first (the kernel's arrangement) -/

/-- Hidden unit `k` of a relation given as the list of its (frame, weight block) pairs: the frame products are added
    one after the other onto zero, then the bias, then relu. -/
def khid (xr : Fin 8 → Fin 256 → EReal) (w : Fin 2048 → Fin 256 → EReal) (b : Fin 256 → EReal) (k : Fin 256)
    (fs : List (Fin 8 × Fin 8)) : EReal :=
  relu (fs.foldl (fun a fj => a + fterm xr w fj.1 fj.2 k) 0 + b k)

/-- The hidden layers of a scale's relations, added one after the other onto zero. -/
def ksum (xr : Fin 8 → Fin 256 → EReal) (w : Fin 2048 → Fin 256 → EReal) (b : Fin 256 → EReal) (k : Fin 256)
    (rels : List (List (Fin 8 × Fin 8))) : EReal :=
  rels.foldl (fun a fs => a + khid xr w b k fs) 0

/-- One scale's contribution in the kernel's arrangement: one product with the second layer, plus `cnt` times its bias. -/
def kscale (cnt : EReal) (rels : List (List (Fin 8 × Fin 8))) (xr : Fin 8 → Fin 256 → EReal)
    (w : Fin 2048 → Fin 256 → EReal) (b : Fin 256 → EReal) (w2 : Fin 256 → EReal) (b2 : EReal) : EReal :=
  (∑ k : Fin 256, ksum xr w b k rels * w2 k) + cnt * b2

/-- Each scale's relations as (frame, weight block) pairs. -/
def krel0 : List (List (Fin 8 × Fin 8)) := [[(0, 0), (1, 1), (2, 2), (3, 3), (4, 4), (5, 5), (6, 6), (7, 7)]]
def krel1 : List (List (Fin 8 × Fin 8)) :=
  [[(0, 0), (2, 1), (3, 2), (4, 3), (5, 4), (6, 5), (7, 6)], [(0, 0), (1, 1), (2, 2), (3, 3), (4, 4), (6, 5), (7, 6)],
   [(0, 0), (1, 1), (2, 2), (3, 3), (4, 4), (5, 5), (7, 6)]]
def krel2 : List (List (Fin 8 × Fin 8)) :=
  [[(0, 0), (1, 1), (3, 2), (4, 3), (5, 4), (7, 5)], [(2, 0), (3, 1), (4, 2), (5, 3), (6, 4), (7, 5)],
   [(0, 0), (2, 1), (4, 2), (5, 3), (6, 4), (7, 5)]]
def krel3 : List (List (Fin 8 × Fin 8)) :=
  [[(2, 0), (4, 1), (5, 2), (6, 3), (7, 4)], [(0, 0), (1, 1), (2, 2), (3, 3), (6, 4)], [(0, 0), (3, 1), (5, 2), (6, 3), (7, 4)]]
def krel4 : List (List (Fin 8 × Fin 8)) :=
  [[(0, 0), (3, 1), (4, 2), (5, 3)], [(0, 0), (1, 1), (3, 2), (6, 3)], [(0, 0), (2, 1), (6, 2), (7, 3)]]
def krel5 : List (List (Fin 8 × Fin 8)) := [[(3, 0), (5, 1), (6, 2)], [(4, 0), (5, 1), (6, 2)], [(0, 0), (1, 1), (7, 2)]]
def krel6 : List (List (Fin 8 × Fin 8)) := [[(6, 0), (7, 1)], [(1, 0), (4, 1)], [(2, 0), (3, 1)]]

/-- The float words of 1.0 and 3.0, the relation counts the kernel multiplies the second bias by. -/
def one32 : EReal := Ideal.ofBits .f32 0x3F800000#32
def three32 : EReal := Ideal.ofBits .f32 0x40400000#32

/-- The kernel's accumulation: onto zero, the seven scales' contributions one after the other. -/
def ktotal (xr : Fin 8 → Fin 256 → EReal) (w1 : Fin 7 → Fin 2048 → Fin 256 → EReal) (b1 : Fin 7 → Fin 256 → EReal)
    (w2 : Fin 7 → Fin 256 → EReal) (b2 : Fin 7 → EReal) : EReal :=
  0 + kscale one32 krel0 xr (w1 0) (b1 0) (w2 0) (b2 0)
    + kscale three32 krel1 xr (w1 1) (b1 1) (w2 1) (b2 1)
    + kscale three32 krel2 xr (w1 2) (b1 2) (w2 2) (b2 2)
    + kscale three32 krel3 xr (w1 3) (b1 3) (w2 3) (b2 3)
    + kscale three32 krel4 xr (w1 4) (b1 4) (w2 4) (b2 4)
    + kscale three32 krel5 xr (w1 5) (b1 5) (w2 5) (b2 5)
    + kscale three32 krel6 xr (w1 6) (b1 6) (w2 6) (b2 6)

end Cert.Rel

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.KPayLib.lean ====
/-
  The operations of the kernel's block computation read at one index, at the exact instance.

  Every vector operation the block computation uses is either pointwise (sum, product, maximum, a change of
  float format, a splat) or reads one index of its operand (a cut of 256 columns or 256 rows, a leading unit
  axis dropped or added, one row copied down the rows), or is a plain matrix product into a zero accumulator,
  whose entry (r, c) is the sum over k of the first operand at (r, k) times the second at (k, c). The two
  products and the words the computation uses are stated here at indices given by their coordinates, so that
  the value of the whole computation at one index can be read off operation by operation.
-/
import proofs.«120356_j936302870703_2_alg».proof.Proof.Gen.KernelIdeal.Frame
import proofs.«120356_j936302870703_2_alg».proof.Proof.Spec
import proofs.«120356_j936302870703_2_alg».proof.Proof.LibDense
import Idealize.ShloMosaic.Lib.ValueLayout

noncomputable section

namespace Cert.KernelIdeal.Pay

open Idealize.ShloMosaic Idealize.ShloMosaic.ValueIdx Cert.KernelIdeal Cert.KernelIdeal.Gen

/-- The first layer's product, a [1024, 256] by [256, 256] product into zero, at (a, b): ∑ over k of l (a, k) · r (k, b). -/
theorem mm1_apply (l : FVec Ideal S1024x256 .bf16) (r : FVec Ideal S256x256 .bf16) (a : Fin 1024) (b : Fin 256) :
    matmul dot_S1024x256_S256x256_S1024x256_1_0_0_1_n_n none l r (constant S1024x256 .f32 0x00000000#32) (ix2 a b)
      = ∑ k : Fin 256, l (ix2 a k) * r (ix2 k b) :=
  Cert.LibDense.matmul_zero_plain dot_S1024x256_S256x256_S1024x256_1_0_0_1_n_n none rfl rfl
    (fun _ _ => rfl)
    (fun j q => DotDims.lhsIdx_val_of_single (d := dot_S1024x256_S256x256_S1024x256_1_0_0_1_n_n) (cl := 1) rfl j q)
    (fun j q => DotDims.rhsIdx_val_of_single (d := dot_S1024x256_S256x256_S1024x256_1_0_0_1_n_n) (cr := 0) rfl j q)
    (fun _ _ => rfl) l r a b

/-- The second layer's product, a [1024, 256] by [256, 174] product into zero, at (a, b): ∑ over k of l (a, k) · r (k, b). -/
theorem mm2_apply (l : FVec Ideal S1024x256 .bf16) (r : FVec Ideal S256x174 .bf16) (a : Fin 1024) (b : Fin 174) :
    matmul dot_S1024x256_S256x174_S1024x174_1_0_0_1_n_n none l r (constant S1024x174 .f32 0x00000000#32) (ix2 a b)
      = ∑ k : Fin 256, l (ix2 a k) * r (ix2 k b) :=
  Cert.LibDense.matmul_zero_plain dot_S1024x256_S256x174_S1024x174_1_0_0_1_n_n none rfl rfl
    (fun _ _ => rfl)
    (fun j q => DotDims.lhsIdx_val_of_single (d := dot_S1024x256_S256x174_S1024x174_1_0_0_1_n_n) (cl := 1) rfl j q)
    (fun j q => DotDims.rhsIdx_val_of_single (d := dot_S1024x256_S256x174_S1024x174_1_0_0_1_n_n) (cr := 0) rfl j q)
    (fun _ _ => rfl) l r a b

/-- The f32 zero word is the real number 0. -/
theorem word_zero : (FloatOps.ofBits .f32 0x00000000#32 : Ideal .f32) = (0 : EReal) := Ideal.ofBits_zero_f32

/-- The f32 word of 1.0 is the count of scale 0's one relation. -/
theorem word_one : (FloatOps.ofBits .f32 0x3F800000#32 : Ideal .f32) = Rel.one32 := rfl

/-- The f32 word of 3.0 is the count of every other scale's three relations. -/
theorem word_three : (FloatOps.ofBits .f32 0x40400000#32 : Ideal .f32) = Rel.three32 := rfl

/-- Column `o + d` of a row of 2048 features is feature `d` of frame `f` when `o = f · 256`. -/
theorem wrow_of (f : Fin 8) (o : ℕ) (ho : o = f.val * 256) (d : Fin 256) (h : o + d.val < 2048) :
    (⟨o + d.val, h⟩ : Fin 2048) = Rel.wrow f d := by
  subst ho; rfl

/-- The relu'd activations: the block's own cast, the maximum with the zero splat, the change of format. -/
theorem pay2_apply (xb : Vec Ideal S1024x2048 .f32) (p : Fin 1024) (c : Fin 2048) :
    k0_pay2 (F := Ideal) xb (ix2 p c) = max (xb (ix2 p c)) 0 := by
  unfold k0_pay2
  simp only [truncf_apply, maximumf_apply, broadcast_apply, shapeCast_self, word_zero]

end Cert.KernelIdeal.Pay

end
-- ==== Proof.KPayS0.lean ====
/-
  Scale 0 of the kernel's block computation read at one index of the output block.
-/
import proofs.«120356_j936302870703_2_alg».proof.Proof.KPayLib

noncomputable section

namespace Cert.KernelIdeal.Pay

open Idealize.ShloMosaic Idealize.ShloMosaic.ValueIdx Cert.KernelIdeal Cert.KernelIdeal.Gen

set_option maxHeartbeats 4000000 in
/-- Scale 0's step of the accumulation at (p, q): what was accumulated before (zero) plus the scale's contribution, the hidden
    layers of its relations added first, one product with the second layer, and the relation count times the second bias. -/
theorem scale0_apply (xb : Vec Ideal S1024x2048 .f32) (W1 : Vec Ideal S1x2048x256 .bf16) (B1 : Vec Ideal S1x256 .f32)
    (B2 : Vec Ideal S1x174 .f32) (W2 : Vec Ideal S1x256x174 .bf16) (p : Fin 1024) (q : Fin 174) :
    k0_pay12 (k0_pay2 xb) (k0_pay3 (F := Ideal)) (k0_pay4 W1) (k0_pay5 B1) (k0_pay6 B2) (k0_pay7 W2) (k0_pay8 (F := Ideal)) (k0_pay9 xb W1) (k0_pay10 xb) (k0_pay11 W1) (ix2 p q)
      = 0 + Rel.kscale Rel.one32 Rel.krel0 (fun f d => xb (ix2 p (Rel.wrow f d))) (fun j k => W1 (ix3 0 j k))
          (fun k => B1 (ix2 0 k)) (fun k => W2 (ix3 0 k q)) (B2 (ix2 0 q)) := by
  simp only [k0_pay3, k0_pay4, k0_pay5, k0_pay6, k0_pay7, k0_pay8, k0_pay9, k0_pay10, k0_pay11, k0_pay12,
    addf_apply, mulf_apply, maximumf_apply, truncf_apply, broadcast_apply, mm1_apply, mm2_apply,
    slice2_axis0_eq, slice2_axis1_eq, shapeCast_1ab_ab_apply, shapeCast_a_1a_apply, shapeCast_1a_a_apply,
    broadcastTo_1b_ab_apply, pay2_apply, word_zero, word_one, word_three,
    wrow_of 0 0 rfl, wrow_of 1 256 rfl, wrow_of 2 512 rfl, wrow_of 3 768 rfl, wrow_of 4 1024 rfl, wrow_of 5 1280 rfl,
    wrow_of 6 1536 rfl, wrow_of 7 1792 rfl,
    Rel.kscale, Rel.ksum, Rel.khid, Rel.fterm, Rel.krel0, Rel.relu, List.foldl_cons, List.foldl_nil]

end Cert.KernelIdeal.Pay

end
-- ==== Proof.KPayS1.lean ====
/-
  Scale 1 of the kernel's block computation read at one index of the output block.
-/
import proofs.«120356_j936302870703_2_alg».proof.Proof.KPayLib

noncomputable section

namespace Cert.KernelIdeal.Pay

open Idealize.ShloMosaic Idealize.ShloMosaic.ValueIdx Cert.KernelIdeal Cert.KernelIdeal.Gen

set_option maxHeartbeats 4000000 in
/-- Scale 1's step of the accumulation at (p, q): what was accumulated before plus the scale's contribution, the hidden
    layers of its relations added first, one product with the second layer, and the relation count times the second bias. -/
theorem scale1_apply (xb : Vec Ideal S1024x2048 .f32) (A : FVec Ideal S1024x174 .f32) (W1 : Vec Ideal S1x2048x256 .bf16) (B1 : Vec Ideal S1x256 .f32)
    (B2 : Vec Ideal S1x174 .f32) (W2 : Vec Ideal S1x256x174 .bf16) (p : Fin 1024) (q : Fin 174) :
    k0_pay25 A (k0_pay14 B1) (k0_pay15 B2) (k0_pay16 W2) (k0_pay22 (k0_pay2 xb) (k0_pay13 W1) (k0_pay14 B1) (k0_pay20 (k0_pay2 xb) (k0_pay13 W1) (k0_pay14 B1) (k0_pay17 (F := Ideal)) (k0_pay18 (k0_pay2 xb) W1) (k0_pay19 (k0_pay2 xb))) (k0_pay21 (k0_pay2 xb) (k0_pay13 W1))) (k0_pay23 (k0_pay2 xb) (k0_pay13 W1)) (k0_pay24 (k0_pay2 xb) (k0_pay13 W1)) (ix2 p q)
      = A (ix2 p q) + Rel.kscale Rel.three32 Rel.krel1 (fun f d => xb (ix2 p (Rel.wrow f d))) (fun j k => W1 (ix3 0 j k))
          (fun k => B1 (ix2 0 k)) (fun k => W2 (ix3 0 k q)) (B2 (ix2 0 q)) := by
  simp only [k0_pay13, k0_pay14, k0_pay15, k0_pay16, k0_pay17, k0_pay18, k0_pay19, k0_pay20, k0_pay21, k0_pay22, k0_pay23, k0_pay24, k0_pay25,
    addf_apply, mulf_apply, maximumf_apply, truncf_apply, broadcast_apply, mm1_apply, mm2_apply,
    slice2_axis0_eq, slice2_axis1_eq, shapeCast_1ab_ab_apply, shapeCast_a_1a_apply, shapeCast_1a_a_apply,
    broadcastTo_1b_ab_apply, pay2_apply, word_zero, word_one, word_three,
    wrow_of 0 0 rfl, wrow_of 1 256 rfl, wrow_of 2 512 rfl, wrow_of 3 768 rfl, wrow_of 4 1024 rfl, wrow_of 5 1280 rfl,
    wrow_of 6 1536 rfl, wrow_of 7 1792 rfl,
    Rel.kscale, Rel.ksum, Rel.khid, Rel.fterm, Rel.krel1, Rel.relu, List.foldl_cons, List.foldl_nil]

end Cert.KernelIdeal.Pay

end
-- ==== Proof.KPayS2.lean ====
/-
  Scale 2 of the kernel's block computation read at one index of the output block.
-/
import proofs.«120356_j936302870703_2_alg».proof.Proof.KPayLib

noncomputable section

namespace Cert.KernelIdeal.Pay

open Idealize.ShloMosaic Idealize.ShloMosaic.ValueIdx Cert.KernelIdeal Cert.KernelIdeal.Gen

set_option maxHeartbeats 4000000 in
/-- Scale 2's step of the accumulation at (p, q): what was accumulated before plus the scale's contribution, the hidden
    layers of its relations added first, one product with the second layer, and the relation count times the second bias. -/
theorem scale2_apply (xb : Vec Ideal S1024x2048 .f32) (A : FVec Ideal S1024x174 .f32) (W1 : Vec Ideal S1x2048x256 .bf16) (B1 : Vec Ideal S1x256 .f32)
    (B2 : Vec Ideal S1x174 .f32) (W2 : Vec Ideal S1x256x174 .bf16) (p : Fin 1024) (q : Fin 174) :
    k0_pay36 (k0_pay2 xb) A (k0_pay26 W1) (k0_pay27 B1) (k0_pay28 B2) (k0_pay29 W2) (k0_pay34 (k0_pay2 xb) (k0_pay26 W1) (k0_pay27 B1) (k0_pay30 (F := Ideal)) (k0_pay31 (k0_pay2 xb) W1) (k0_pay32 (k0_pay2 xb)) (k0_pay33 W1) (constant (F := Ideal) S1024x256 .f32 0x00000000#32)) (k0_pay35 (k0_pay2 xb) (k0_pay26 W1) (k0_pay27 B1)) (ix2 p q)
      = A (ix2 p q) + Rel.kscale Rel.three32 Rel.krel2 (fun f d => xb (ix2 p (Rel.wrow f d))) (fun j k => W1 (ix3 0 j k))
          (fun k => B1 (ix2 0 k)) (fun k => W2 (ix3 0 k q)) (B2 (ix2 0 q)) := by
  simp only [k0_pay26, k0_pay27, k0_pay28, k0_pay29, k0_pay30, k0_pay31, k0_pay32, k0_pay33, k0_pay34, k0_pay35, k0_pay36,
    addf_apply, mulf_apply, maximumf_apply, truncf_apply, broadcast_apply, mm1_apply, mm2_apply,
    slice2_axis0_eq, slice2_axis1_eq, shapeCast_1ab_ab_apply, shapeCast_a_1a_apply, shapeCast_1a_a_apply,
    broadcastTo_1b_ab_apply, pay2_apply, word_zero, word_one, word_three,
    wrow_of 0 0 rfl, wrow_of 1 256 rfl, wrow_of 2 512 rfl, wrow_of 3 768 rfl, wrow_of 4 1024 rfl, wrow_of 5 1280 rfl,
    wrow_of 6 1536 rfl, wrow_of 7 1792 rfl,
    Rel.kscale, Rel.ksum, Rel.khid, Rel.fterm, Rel.krel2, Rel.relu, List.foldl_cons, List.foldl_nil]

end Cert.KernelIdeal.Pay

end
-- ==== Proof.KPayS3.lean ====
/-
  Scale 3 of the kernel's block computation read at one index of the output block.
-/
import proofs.«120356_j936302870703_2_alg».proof.Proof.KPayLib

noncomputable section

namespace Cert.KernelIdeal.Pay

open Idealize.ShloMosaic Idealize.ShloMosaic.ValueIdx Cert.KernelIdeal Cert.KernelIdeal.Gen

set_option maxHeartbeats 4000000 in
/-- Scale 3's step of the accumulation at (p, q): what was accumulated before plus the scale's contribution, the hidden
    layers of its relations added first, one product with the second layer, and the relation count times the second bias. -/
theorem scale3_apply (xb : Vec Ideal S1024x2048 .f32) (A : FVec Ideal S1024x174 .f32) (W1 : Vec Ideal S1x2048x256 .bf16) (B1 : Vec Ideal S1x256 .f32)
    (B2 : Vec Ideal S1x174 .f32) (W2 : Vec Ideal S1x256x174 .bf16) (p : Fin 1024) (q : Fin 174) :
    k0_pay46 A (k0_pay39 B2) (k0_pay40 W2) (k0_pay44 (k0_pay2 xb) (k0_pay37 W1) (k0_pay38 B1) (k0_pay41 (k0_pay2 xb) (k0_pay37 W1) B1) (k0_pay42 (k0_pay2 xb) (k0_pay37 W1)) (k0_pay43 (k0_pay2 xb) (k0_pay37 W1))) (k0_pay45 (k0_pay2 xb) (k0_pay37 W1) (k0_pay38 B1)) (ix2 p q)
      = A (ix2 p q) + Rel.kscale Rel.three32 Rel.krel3 (fun f d => xb (ix2 p (Rel.wrow f d))) (fun j k => W1 (ix3 0 j k))
          (fun k => B1 (ix2 0 k)) (fun k => W2 (ix3 0 k q)) (B2 (ix2 0 q)) := by
  simp only [k0_pay37, k0_pay38, k0_pay39, k0_pay40, k0_pay41, k0_pay42, k0_pay43, k0_pay44, k0_pay45, k0_pay46,
    addf_apply, mulf_apply, maximumf_apply, truncf_apply, broadcast_apply, mm1_apply, mm2_apply,
    slice2_axis0_eq, slice2_axis1_eq, shapeCast_1ab_ab_apply, shapeCast_a_1a_apply, shapeCast_1a_a_apply,
    broadcastTo_1b_ab_apply, pay2_apply, word_zero, word_one, word_three,
    wrow_of 0 0 rfl, wrow_of 1 256 rfl, wrow_of 2 512 rfl, wrow_of 3 768 rfl, wrow_of 4 1024 rfl, wrow_of 5 1280 rfl,
    wrow_of 6 1536 rfl, wrow_of 7 1792 rfl,
    Rel.kscale, Rel.ksum, Rel.khid, Rel.fterm, Rel.krel3, Rel.relu, List.foldl_cons, List.foldl_nil]

end Cert.KernelIdeal.Pay

end
-- ==== Proof.KPayS4.lean ====
/-
  Scale 4 of the kernel's block computation read at one index of the output block.
-/
import proofs.«120356_j936302870703_2_alg».proof.Proof.KPayLib

noncomputable section

namespace Cert.KernelIdeal.Pay

open Idealize.ShloMosaic Idealize.ShloMosaic.ValueIdx Cert.KernelIdeal Cert.KernelIdeal.Gen

set_option maxHeartbeats 4000000 in
/-- Scale 4's step of the accumulation at (p, q): what was accumulated before plus the scale's contribution, the hidden
    layers of its relations added first, one product with the second layer, and the relation count times the second bias. -/
theorem scale4_apply (xb : Vec Ideal S1024x2048 .f32) (A : FVec Ideal S1024x174 .f32) (W1 : Vec Ideal S1x2048x256 .bf16) (B1 : Vec Ideal S1x256 .f32)
    (B2 : Vec Ideal S1x174 .f32) (W2 : Vec Ideal S1x256x174 .bf16) (p : Fin 1024) (q : Fin 174) :
    k0_pay56 A (k0_pay49 B2) (k0_pay50 W2) (k0_pay53 (k0_pay2 xb) (k0_pay47 W1) (k0_pay48 B1) (k0_pay51 (F := Ideal)) (k0_pay52 (k0_pay2 xb) W1 B1)) (k0_pay54 (k0_pay2 xb) (k0_pay47 W1) (k0_pay48 B1)) (k0_pay55 (F := Ideal)) (ix2 p q)
      = A (ix2 p q) + Rel.kscale Rel.three32 Rel.krel4 (fun f d => xb (ix2 p (Rel.wrow f d))) (fun j k => W1 (ix3 0 j k))
          (fun k => B1 (ix2 0 k)) (fun k => W2 (ix3 0 k q)) (B2 (ix2 0 q)) := by
  simp only [k0_pay47, k0_pay48, k0_pay49, k0_pay50, k0_pay51, k0_pay52, k0_pay53, k0_pay54, k0_pay55, k0_pay56,
    addf_apply, mulf_apply, maximumf_apply, truncf_apply, broadcast_apply, mm1_apply, mm2_apply,
    slice2_axis0_eq, slice2_axis1_eq, shapeCast_1ab_ab_apply, shapeCast_a_1a_apply, shapeCast_1a_a_apply,
    broadcastTo_1b_ab_apply, pay2_apply, word_zero, word_one, word_three,
    wrow_of 0 0 rfl, wrow_of 1 256 rfl, wrow_of 2 512 rfl, wrow_of 3 768 rfl, wrow_of 4 1024 rfl, wrow_of 5 1280 rfl,
    wrow_of 6 1536 rfl, wrow_of 7 1792 rfl,
    Rel.kscale, Rel.ksum, Rel.khid, Rel.fterm, Rel.krel4, Rel.relu, List.foldl_cons, List.foldl_nil]

end Cert.KernelIdeal.Pay

end
-- ==== Proof.KPayS5.lean ====
/-
  Scale 5 of the kernel's block computation read at one index of the output block.
-/
import proofs.«120356_j936302870703_2_alg».proof.Proof.KPayLib

noncomputable section

namespace Cert.KernelIdeal.Pay

open Idealize.ShloMosaic Idealize.ShloMosaic.ValueIdx Cert.KernelIdeal Cert.KernelIdeal.Gen

set_option maxHeartbeats 4000000 in
/-- Scale 5's step of the accumulation at (p, q): what was accumulated before plus the scale's contribution, the hidden
    layers of its relations added first, one product with the second layer, and the relation count times the second bias. -/
theorem scale5_apply (xb : Vec Ideal S1024x2048 .f32) (A : FVec Ideal S1024x174 .f32) (W1 : Vec Ideal S1x2048x256 .bf16) (B1 : Vec Ideal S1x256 .f32)
    (B2 : Vec Ideal S1x174 .f32) (W2 : Vec Ideal S1x256x174 .bf16) (p : Fin 1024) (q : Fin 174) :
    k0_pay64 A (k0_pay62 (k0_pay2 xb) (k0_pay57 W1) (k0_pay58 B1) (k0_pay60 W2) (k0_pay61 (k0_pay2 xb) W1 B1)) (k0_pay63 (k0_pay59 B2)) (ix2 p q)
      = A (ix2 p q) + Rel.kscale Rel.three32 Rel.krel5 (fun f d => xb (ix2 p (Rel.wrow f d))) (fun j k => W1 (ix3 0 j k))
          (fun k => B1 (ix2 0 k)) (fun k => W2 (ix3 0 k q)) (B2 (ix2 0 q)) := by
  simp only [k0_pay57, k0_pay58, k0_pay59, k0_pay60, k0_pay61, k0_pay62, k0_pay63, k0_pay64,
    addf_apply, mulf_apply, maximumf_apply, truncf_apply, broadcast_apply, mm1_apply, mm2_apply,
    slice2_axis0_eq, slice2_axis1_eq, shapeCast_1ab_ab_apply, shapeCast_a_1a_apply, shapeCast_1a_a_apply,
    broadcastTo_1b_ab_apply, pay2_apply, word_zero, word_one, word_three,
    wrow_of 0 0 rfl, wrow_of 1 256 rfl, wrow_of 2 512 rfl, wrow_of 3 768 rfl, wrow_of 4 1024 rfl, wrow_of 5 1280 rfl,
    wrow_of 6 1536 rfl, wrow_of 7 1792 rfl,
    Rel.kscale, Rel.ksum, Rel.khid, Rel.fterm, Rel.krel5, Rel.relu, List.foldl_cons, List.foldl_nil]

end Cert.KernelIdeal.Pay

end
-- ==== Proof.KPayS6.lean ====
/-
  Scale 6 of the kernel's block computation read at one index of the output block.
-/
import proofs.«120356_j936302870703_2_alg».proof.Proof.KPayLib

noncomputable section

namespace Cert.KernelIdeal.Pay

open Idealize.ShloMosaic Idealize.ShloMosaic.ValueIdx Cert.KernelIdeal Cert.KernelIdeal.Gen

set_option maxHeartbeats 4000000 in
/-- Scale 6's step of the accumulation at (p, q): what was accumulated before plus the scale's contribution, the hidden
    layers of its relations added first, one product with the second layer, and the relation count times the second bias. -/
theorem scale6_apply (xb : Vec Ideal S1024x2048 .f32) (A : FVec Ideal S1024x174 .f32) (W1 : Vec Ideal S1x2048x256 .bf16) (B1 : Vec Ideal S1x256 .f32)
    (B2 : Vec Ideal S1x174 .f32) (W2 : Vec Ideal S1x256x174 .bf16) (p : Fin 1024) (q : Fin 174) :
    k0_pay1 (k0_pay2 xb) A (k0_pay65 W1) (k0_pay66 B1) (k0_pay67 B2) (k0_pay68 W2) (k0_pay69 (k0_pay2 xb) W1 B1) (k0_pay70 (k0_pay2 xb) W1 B1) (k0_pay71 (F := Ideal)) (ix2 p q)
      = A (ix2 p q) + Rel.kscale Rel.three32 Rel.krel6 (fun f d => xb (ix2 p (Rel.wrow f d))) (fun j k => W1 (ix3 0 j k))
          (fun k => B1 (ix2 0 k)) (fun k => W2 (ix3 0 k q)) (B2 (ix2 0 q)) := by
  simp only [k0_pay1, k0_pay65, k0_pay66, k0_pay67, k0_pay68, k0_pay69, k0_pay70, k0_pay71,
    addf_apply, mulf_apply, maximumf_apply, truncf_apply, broadcast_apply, mm1_apply, mm2_apply,
    slice2_axis0_eq, slice2_axis1_eq, shapeCast_1ab_ab_apply, shapeCast_a_1a_apply, shapeCast_1a_a_apply,
    broadcastTo_1b_ab_apply, pay2_apply, word_zero, word_one, word_three,
    wrow_of 0 0 rfl, wrow_of 1 256 rfl, wrow_of 2 512 rfl, wrow_of 3 768 rfl, wrow_of 4 1024 rfl, wrow_of 5 1280 rfl,
    wrow_of 6 1536 rfl, wrow_of 7 1792 rfl,
    Rel.kscale, Rel.ksum, Rel.khid, Rel.fterm, Rel.krel6, Rel.relu, List.foldl_cons, List.foldl_nil]

end Cert.KernelIdeal.Pay

end
-- ==== Proof.KPay.lean ====
/-
  The kernel's output block at one index.

  The block computation stores its result once, over the whole block. Its value at (p, q) is read scale by scale:
  each scale adds its contribution to what the scales before it accumulated, starting from zero, and each scale reads
  row i of the stacked parameters, a unit-stride block whose element (0, j, k) is the stack's element (i, j, k).
-/
import proofs.«120356_j936302870703_2_alg».proof.Proof.KPayS0
import proofs.«120356_j936302870703_2_alg».proof.Proof.KPayS1
import proofs.«120356_j936302870703_2_alg».proof.Proof.KPayS2
import proofs.«120356_j936302870703_2_alg».proof.Proof.KPayS3
import proofs.«120356_j936302870703_2_alg».proof.Proof.KPayS4
import proofs.«120356_j936302870703_2_alg».proof.Proof.KPayS5
import proofs.«120356_j936302870703_2_alg».proof.Proof.KPayS6

noncomputable section

namespace Cert.KernelIdeal.Pay

open Idealize.ShloMosaic Idealize.ShloMosaic.ValueIdx Cert.KernelIdeal Cert.KernelIdeal.Gen

/-- The offsets (0, 0) are the zero offsets. -/
theorem off_zero2 : (![0, 0] : Fin 2 → Nat) = fun _ => 0 := funext fun a => by fin_cases a <;> rfl

/-- Row `i` of the stacked first-layer weights, loaded as a [1, 2048, 256] block: its element (0, j, k) is the stack's (i, j, k). -/
theorem ld_w1 (x : Vec Ideal S7x2048x256 .bf16) (i : Fin 7) (off : Fin 3 → ℕ) (hoff : off = ![i.val, 0, 0])
    (inb : ∀ a, off a + S1x2048x256.size a ≤ S7x2048x256.size a) (u : Fin 1) (j : Fin 2048) (k : Fin 256) :
    (View.ld x (Rect.unit (s := S7x2048x256) off S1x2048x256.size inb) : Vec Ideal S1x2048x256 .bf16) (ix3 u j k) = x (ix3 i j k) := by
  subst hoff
  show x _ = x _
  congr 1; funext a; apply Fin.ext
  match a with
  | ⟨0, _⟩ => show i.val + 1 * u.val = i.val; omega
  | ⟨1, _⟩ => show 0 + 1 * j.val = j.val; omega
  | ⟨2, _⟩ => show 0 + 1 * k.val = k.val; omega

/-- Row `i` of the stacked first-layer biases, loaded as a [1, 256] block: its element (0, k) is the stack's (i, k). -/
theorem ld_b1 (x : Vec Ideal S7x256 .f32) (i : Fin 7) (off : Fin 2 → ℕ) (hoff : off = ![i.val, 0])
    (inb : ∀ a, off a + S1x256.size a ≤ S7x256.size a) (u : Fin 1) (k : Fin 256) :
    (View.ld x (Rect.unit (s := S7x256) off S1x256.size inb) : Vec Ideal S1x256 .f32) (ix2 u k) = x (ix2 i k) := by
  subst hoff
  show x _ = x _
  congr 1; funext a; apply Fin.ext
  match a with
  | ⟨0, _⟩ => show i.val + 1 * u.val = i.val; omega
  | ⟨1, _⟩ => show 0 + 1 * k.val = k.val; omega

/-- Row `i` of the stacked second-layer biases, loaded as a [1, 174] block: its element (0, k) is the stack's (i, k). -/
theorem ld_b2 (x : Vec Ideal S7x174 .f32) (i : Fin 7) (off : Fin 2 → ℕ) (hoff : off = ![i.val, 0])
    (inb : ∀ a, off a + S1x174.size a ≤ S7x174.size a) (u : Fin 1) (k : Fin 174) :
    (View.ld x (Rect.unit (s := S7x174) off S1x174.size inb) : Vec Ideal S1x174 .f32) (ix2 u k) = x (ix2 i k) := by
  subst hoff
  show x _ = x _
  congr 1; funext a; apply Fin.ext
  match a with
  | ⟨0, _⟩ => show i.val + 1 * u.val = i.val; omega
  | ⟨1, _⟩ => show 0 + 1 * k.val = k.val; omega

/-- Row `i` of the stacked second-layer weights, loaded as a [1, 256, 174] block: its element (0, j, k) is the stack's (i, j, k). -/
theorem ld_w2 (x : Vec Ideal S7x256x174 .bf16) (i : Fin 7) (off : Fin 3 → ℕ) (hoff : off = ![i.val, 0, 0])
    (inb : ∀ a, off a + S1x256x174.size a ≤ S7x256x174.size a) (u : Fin 1) (j : Fin 256) (k : Fin 174) :
    (View.ld x (Rect.unit (s := S7x256x174) off S1x256x174.size inb) : Vec Ideal S1x256x174 .bf16) (ix3 u j k) = x (ix3 i j k) := by
  subst hoff
  show x _ = x _
  congr 1; funext a; apply Fin.ext
  match a with
  | ⟨0, _⟩ => show i.val + 1 * u.val = i.val; omega
  | ⟨1, _⟩ => show 0 + 1 * j.val = j.val; omega
  | ⟨2, _⟩ => show 0 + 1 * k.val = k.val; omega

set_option maxHeartbeats 4000000 in
/-- THE OUTPUT BLOCK AT (p, q): the seven scales' contributions added one after the other onto zero, each over row p of the
    activations, the scale's own parameters, and column q of its second layer. -/
theorem out_apply (x0 : Vec Ideal S1024x2048 .f32) (x1 : Vec Ideal S7x2048x256 .bf16) (x2 : Vec Ideal S7x256 .f32)
    (x3 : Vec Ideal S7x256x174 .bf16) (x4 : Vec Ideal S7x174 .f32) (p : Fin 1024) (q : Fin 174) :
    Gen.out0_5 (F := Ideal) x0 x1 x2 x3 x4 (ix2 p q)
      = Rel.ktotal (fun f d => x0 (ix2 p (Rel.wrow f d))) (fun i j k => x1 (ix3 i j k)) (fun i k => x2 (ix2 i k))
          (fun i k => x3 (ix3 i k q)) (fun i => x4 (ix2 i q)) := by
  unfold Gen.out0_5
  rw [View.canon_unit_zero off_zero2]
  rw [scale6_apply, scale5_apply, scale4_apply, scale3_apply, scale2_apply, scale1_apply, scale0_apply]
  have e0 : View.ld x0 r0_0 = x0 := View.ld_unit_zero (S := S1024x2048) off_zero2 _ x0
  have w1_0 : (fun (j : Fin 2048) (k : Fin 256) => View.ld x1 r0_1 (ix3 0 j k)) = fun j k => x1 (ix3 0 j k) :=
    funext fun j => funext fun k => ld_w1 x1 0 _ rfl _ 0 j k
  have b1_0 : (fun (k : Fin 256) => View.ld x2 r0_2 (ix2 0 k)) = fun k => x2 (ix2 0 k) :=
    funext fun k => ld_b1 x2 0 _ rfl _ 0 k
  have b2_0 : View.ld x4 r0_3 (ix2 0 q) = x4 (ix2 0 q) := ld_b2 x4 0 _ rfl _ 0 q
  have w2_0 : (fun (k : Fin 256) => View.ld x3 r0_4 (ix3 0 k q)) = fun k => x3 (ix3 0 k q) :=
    funext fun k => ld_w2 x3 0 _ rfl _ 0 k q
  have w1_1 : (fun (j : Fin 2048) (k : Fin 256) => View.ld x1 r0_5 (ix3 0 j k)) = fun j k => x1 (ix3 1 j k) :=
    funext fun j => funext fun k => ld_w1 x1 1 _ rfl _ 0 j k
  have b1_1 : (fun (k : Fin 256) => View.ld x2 r0_6 (ix2 0 k)) = fun k => x2 (ix2 1 k) :=
    funext fun k => ld_b1 x2 1 _ rfl _ 0 k
  have b2_1 : View.ld x4 r0_7 (ix2 0 q) = x4 (ix2 1 q) := ld_b2 x4 1 _ rfl _ 0 q
  have w2_1 : (fun (k : Fin 256) => View.ld x3 r0_8 (ix3 0 k q)) = fun k => x3 (ix3 1 k q) :=
    funext fun k => ld_w2 x3 1 _ rfl _ 0 k q
  have w1_2 : (fun (j : Fin 2048) (k : Fin 256) => View.ld x1 r0_9 (ix3 0 j k)) = fun j k => x1 (ix3 2 j k) :=
    funext fun j => funext fun k => ld_w1 x1 2 _ rfl _ 0 j k
  have b1_2 : (fun (k : Fin 256) => View.ld x2 r0_10 (ix2 0 k)) = fun k => x2 (ix2 2 k) :=
    funext fun k => ld_b1 x2 2 _ rfl _ 0 k
  have b2_2 : View.ld x4 r0_11 (ix2 0 q) = x4 (ix2 2 q) := ld_b2 x4 2 _ rfl _ 0 q
  have w2_2 : (fun (k : Fin 256) => View.ld x3 r0_12 (ix3 0 k q)) = fun k => x3 (ix3 2 k q) :=
    funext fun k => ld_w2 x3 2 _ rfl _ 0 k q
  have w1_3 : (fun (j : Fin 2048) (k : Fin 256) => View.ld x1 r0_13 (ix3 0 j k)) = fun j k => x1 (ix3 3 j k) :=
    funext fun j => funext fun k => ld_w1 x1 3 _ rfl _ 0 j k
  have b1_3 : (fun (k : Fin 256) => View.ld x2 r0_14 (ix2 0 k)) = fun k => x2 (ix2 3 k) :=
    funext fun k => ld_b1 x2 3 _ rfl _ 0 k
  have b2_3 : View.ld x4 r0_15 (ix2 0 q) = x4 (ix2 3 q) := ld_b2 x4 3 _ rfl _ 0 q
  have w2_3 : (fun (k : Fin 256) => View.ld x3 r0_16 (ix3 0 k q)) = fun k => x3 (ix3 3 k q) :=
    funext fun k => ld_w2 x3 3 _ rfl _ 0 k q
  have w1_4 : (fun (j : Fin 2048) (k : Fin 256) => View.ld x1 r0_17 (ix3 0 j k)) = fun j k => x1 (ix3 4 j k) :=
    funext fun j => funext fun k => ld_w1 x1 4 _ rfl _ 0 j k
  have b1_4 : (fun (k : Fin 256) => View.ld x2 r0_18 (ix2 0 k)) = fun k => x2 (ix2 4 k) :=
    funext fun k => ld_b1 x2 4 _ rfl _ 0 k
  have b2_4 : View.ld x4 r0_19 (ix2 0 q) = x4 (ix2 4 q) := ld_b2 x4 4 _ rfl _ 0 q
  have w2_4 : (fun (k : Fin 256) => View.ld x3 r0_20 (ix3 0 k q)) = fun k => x3 (ix3 4 k q) :=
    funext fun k => ld_w2 x3 4 _ rfl _ 0 k q
  have w1_5 : (fun (j : Fin 2048) (k : Fin 256) => View.ld x1 r0_21 (ix3 0 j k)) = fun j k => x1 (ix3 5 j k) :=
    funext fun j => funext fun k => ld_w1 x1 5 _ rfl _ 0 j k
  have b1_5 : (fun (k : Fin 256) => View.ld x2 r0_22 (ix2 0 k)) = fun k => x2 (ix2 5 k) :=
    funext fun k => ld_b1 x2 5 _ rfl _ 0 k
  have b2_5 : View.ld x4 r0_23 (ix2 0 q) = x4 (ix2 5 q) := ld_b2 x4 5 _ rfl _ 0 q
  have w2_5 : (fun (k : Fin 256) => View.ld x3 r0_24 (ix3 0 k q)) = fun k => x3 (ix3 5 k q) :=
    funext fun k => ld_w2 x3 5 _ rfl _ 0 k q
  have w1_6 : (fun (j : Fin 2048) (k : Fin 256) => View.ld x1 r0_25 (ix3 0 j k)) = fun j k => x1 (ix3 6 j k) :=
    funext fun j => funext fun k => ld_w1 x1 6 _ rfl _ 0 j k
  have b1_6 : (fun (k : Fin 256) => View.ld x2 r0_26 (ix2 0 k)) = fun k => x2 (ix2 6 k) :=
    funext fun k => ld_b1 x2 6 _ rfl _ 0 k
  have b2_6 : View.ld x4 r0_27 (ix2 0 q) = x4 (ix2 6 q) := ld_b2 x4 6 _ rfl _ 0 q
  have w2_6 : (fun (k : Fin 256) => View.ld x3 r0_28 (ix3 0 k q)) = fun k => x3 (ix3 6 k q) :=
    funext fun k => ld_w2 x3 6 _ rfl _ 0 k q
  rw [e0, w1_0, b1_0, b2_0, w2_0, w1_1, b1_1, b2_1, w2_1, w1_2, b1_2, b2_2, w2_2, w1_3, b1_3, b2_3, w2_3, w1_4, b1_4, b2_4, w2_4, w1_5, b1_5, b2_5, w2_5, w1_6, b1_6, b2_6, w2_6]
  rfl

end Cert.KernelIdeal.Pay

end
-- ==== Proof.Algebra.lean ====
/-
  The kernel's arrangement of the relation module equals the reference's, on the extended reals.

  Within a scale the kernel adds the hidden layers of the scale's relations, multiplies by the second layer once and
  adds the relation count times the bias; the reference applies the second layer to each relation and adds. The two
  agree because every hidden unit is a relu, hence nonnegative, and on the extended reals (a + b) · c = a · c + b · c
  holds whenever a and b are nonnegative — no finiteness is needed; and 3 · b = b + b + b for every extended real b.
  The frame products of one relation are accumulated in the same order on both sides.
-/
import proofs.«120356_j936302870703_2_alg».proof.Proof.Spec

noncomputable section

namespace Cert.Rel

open Idealize.ShloMosaic

/-- The float word of 1.0 denotes 1. -/
theorem one32_eq : one32 = 1 := by
  unfold one32; simp [Ideal.ofBits, Ideal.ieee, -EReal.coe_mul]; norm_num

/-- The float word of 3.0 denotes 3. -/
theorem three32_eq : three32 = ((3 : ℝ) : EReal) := by
  unfold three32; simp [Ideal.ofBits, Ideal.ieee, -EReal.coe_mul]; norm_num

/-- Three times an extended real is the real added to itself twice. -/
theorem three_mul_ereal (b : EReal) : ((3 : ℝ) : EReal) * b = b + b + b := by
  have h3 : ((3 : ℝ) : EReal) = 1 + 1 + 1 := by
    rw [← EReal.coe_one, ← EReal.coe_add, ← EReal.coe_add]; norm_num
  rw [h3, EReal.right_distrib_of_nonneg (add_nonneg zero_le_one zero_le_one) zero_le_one,
    EReal.right_distrib_of_nonneg zero_le_one zero_le_one, one_mul]

theorem relu_nonneg (a : EReal) : 0 ≤ relu a := le_max_right _ _

theorem hid_nonneg (s : ℕ) (hs : s ≤ 8) (fr : Fin s → Fin 8) (xr : Fin 8 → Fin 256 → EReal) (w : Fin 2048 → Fin 256 → EReal)
    (b : Fin 256 → EReal) (k : Fin 256) : 0 ≤ hid s hs fr xr w b k := relu_nonneg _

/-- Three nonnegative hidden layers: one product with the second layer plus three times its bias is the sum of the three
    relations' outputs. -/
theorem hoist3 (h0 h1 h2 w2 : Fin 256 → EReal) (b2 : EReal) (p0 : ∀ k, 0 ≤ h0 k) (p1 : ∀ k, 0 ≤ h1 k) (p2 : ∀ k, 0 ≤ h2 k) :
    (∑ k : Fin 256, (0 + h0 k + h1 k + h2 k) * w2 k) + three32 * b2
      = ((∑ k : Fin 256, h0 k * w2 k) + b2) + ((∑ k : Fin 256, h1 k * w2 k) + b2) + ((∑ k : Fin 256, h2 k * w2 k) + b2) := by
  have e : ∀ k, (0 + h0 k + h1 k + h2 k) * w2 k = h0 k * w2 k + h1 k * w2 k + h2 k * w2 k := fun k => by
    rw [zero_add, EReal.right_distrib_of_nonneg (add_nonneg (p0 k) (p1 k)) (p2 k), EReal.right_distrib_of_nonneg (p0 k) (p1 k)]
  simp only [e, Finset.sum_add_distrib]
  rw [three32_eq, three_mul_ereal]
  abel

/-- A scale of three relations: the kernel's arrangement is the reference's, once each relation's hidden layer is. -/
theorem kscale3 (l0 l1 l2 : List (Fin 8 × Fin 8)) (s : ℕ) (hs : s ≤ 8) (sel : Fin 3 → Fin s → Fin 8)
    (xr : Fin 8 → Fin 256 → EReal) (w : Fin 2048 → Fin 256 → EReal) (b w2 : Fin 256 → EReal) (b2 : EReal)
    (e0 : ∀ k, khid xr w b k l0 = hid s hs (sel 0) xr w b k) (e1 : ∀ k, khid xr w b k l1 = hid s hs (sel 1) xr w b k)
    (e2 : ∀ k, khid xr w b k l2 = hid s hs (sel 2) xr w b k) :
    kscale three32 [l0, l1, l2] xr w b w2 b2 = scale 3 s hs sel xr w b w2 b2 := by
  unfold kscale ksum scale
  simp only [List.foldl_cons, List.foldl_nil, Fin.sum_univ_three, e0, e1, e2]
  exact hoist3 _ _ _ w2 b2 (hid_nonneg s hs _ xr w b) (hid_nonneg s hs _ xr w b) (hid_nonneg s hs _ xr w b)

/-- A scale of one relation. -/
theorem kscale1 (l0 : List (Fin 8 × Fin 8)) (s : ℕ) (hs : s ≤ 8) (sel : Fin 1 → Fin s → Fin 8)
    (xr : Fin 8 → Fin 256 → EReal) (w : Fin 2048 → Fin 256 → EReal) (b w2 : Fin 256 → EReal) (b2 : EReal)
    (e0 : ∀ k, khid xr w b k l0 = hid s hs (sel 0) xr w b k) :
    kscale one32 [l0] xr w b w2 b2 = scale 1 s hs sel xr w b w2 b2 := by
  unfold kscale ksum scale
  simp only [List.foldl_cons, List.foldl_nil, Fin.sum_univ_one, e0, zero_add, one32_eq, one_mul]

variable (xr : Fin 8 → Fin 256 → EReal) (w : Fin 2048 → Fin 256 → EReal) (b w2 : Fin 256 → EReal) (b2 : EReal)

theorem scale0_eq : kscale one32 krel0 xr w b w2 b2 = scale 1 8 (by omega) sel0 xr w b w2 b2 := by
  refine kscale1 _ 8 (by omega) sel0 xr w b w2 b2 (fun k => ?_)
  unfold khid hid
  simp only [List.foldl_cons, List.foldl_nil, Fin.sum_univ_eight, zero_add]
  rfl

theorem scale1_eq : kscale three32 krel1 xr w b w2 b2 = scale 3 7 (by omega) sel1 xr w b w2 b2 := by
  refine kscale3 _ _ _ 7 (by omega) sel1 xr w b w2 b2 (fun k => ?_) (fun k => ?_) (fun k => ?_) <;>
  · unfold khid hid
    simp only [List.foldl_cons, List.foldl_nil, Fin.sum_univ_seven, zero_add]
    rfl

theorem scale2_eq : kscale three32 krel2 xr w b w2 b2 = scale 3 6 (by omega) sel2 xr w b w2 b2 := by
  refine kscale3 _ _ _ 6 (by omega) sel2 xr w b w2 b2 (fun k => ?_) (fun k => ?_) (fun k => ?_) <;>
  · unfold khid hid
    simp only [List.foldl_cons, List.foldl_nil, Fin.sum_univ_six, zero_add]
    rfl

theorem scale3_eq : kscale three32 krel3 xr w b w2 b2 = scale 3 5 (by omega) sel3 xr w b w2 b2 := by
  refine kscale3 _ _ _ 5 (by omega) sel3 xr w b w2 b2 (fun k => ?_) (fun k => ?_) (fun k => ?_) <;>
  · unfold khid hid
    simp only [List.foldl_cons, List.foldl_nil, Fin.sum_univ_five, zero_add]
    rfl

theorem scale4_eq : kscale three32 krel4 xr w b w2 b2 = scale 3 4 (by omega) sel4 xr w b w2 b2 := by
  refine kscale3 _ _ _ 4 (by omega) sel4 xr w b w2 b2 (fun k => ?_) (fun k => ?_) (fun k => ?_) <;>
  · unfold khid hid
    simp only [List.foldl_cons, List.foldl_nil, Fin.sum_univ_four, zero_add]
    rfl

theorem scale5_eq : kscale three32 krel5 xr w b w2 b2 = scale 3 3 (by omega) sel5 xr w b w2 b2 := by
  refine kscale3 _ _ _ 3 (by omega) sel5 xr w b w2 b2 (fun k => ?_) (fun k => ?_) (fun k => ?_) <;>
  · unfold khid hid
    simp only [List.foldl_cons, List.foldl_nil, Fin.sum_univ_three, zero_add]
    rfl

theorem scale6_eq : kscale three32 krel6 xr w b w2 b2 = scale 3 2 (by omega) sel6 xr w b w2 b2 := by
  refine kscale3 _ _ _ 2 (by omega) sel6 xr w b w2 b2 (fun k => ?_) (fun k => ?_) (fun k => ?_) <;>
  · unfold khid hid
    simp only [List.foldl_cons, List.foldl_nil, Fin.sum_univ_two, zero_add]
    rfl

/-- The kernel's accumulation over the seven scales is the reference's sum. -/
theorem ktotal_eq_total (xr : Fin 8 → Fin 256 → EReal) (w1 : Fin 7 → Fin 2048 → Fin 256 → EReal) (b1 : Fin 7 → Fin 256 → EReal)
    (w2 : Fin 7 → Fin 256 → EReal) (b2 : Fin 7 → EReal) : ktotal xr w1 b1 w2 b2 = total xr w1 b1 w2 b2 := by
  unfold ktotal total
  rw [scale0_eq, scale1_eq, scale2_eq, scale3_eq, scale4_eq, scale5_eq, scale6_eq, zero_add]

end Cert.Rel

end
-- ==== Proof.KArray.lean ====
/-
  From the kernel's blocks to its result array.

  The grid has 16 points; point t stages rows t·1024 … t·1024 + 1023 of the reshaped input and writes back the same
  rows of the [16384, 174] result, every other operand being staged whole. The input the region finds is the
  host's row-major reshape of x from [16384, 8, 256] to [16384, 2048], so column f·256 + d of a row is feature d of
  frame f; the weights it finds are the arguments' with a change of float format, the identity on the extended reals.
  Given the block's value at an index (the hypothesis `OutApply`), each point's block is the block of ONE function of the
  arguments, `Gfin`; the 16 blocks cover the array, so the array ends holding `Gfin`.
-/
import proofs.«120356_j936302870703_2_alg».proof.Proof.Gen.KernelIdeal.Value
import proofs.«120356_j936302870703_2_alg».proof.Proof.Algebra
import Idealize.ShloMosaic.Lib.Pipeline.Value
import Idealize.ShloMosaic.Lib.ValueIdx
import Idealize.ShloMosaic.Lib.StableHlo.Run

noncomputable section

namespace Cert.KernelIdeal.Arr

open Cert.KernelIdeal Cert.KernelIdeal.Gen Idealize.ShloMosaic Idealize.ShloMosaic.TcCoe Idealize.SL.Sem Idealize.ShloMosaic.ValueIdx
open Idealize.ShloMosaic.Pipeline (Dat)

/-- The result array as one function of the argument arrays: entry (row, class) is the relation module of that row. -/
def Gfin (x : FVec Ideal S16384x8x256 .f32) (W1 : FVec Ideal S7x2048x256 .f32) (b1 : FVec Ideal S7x256 .f32)
    (W2 : FVec Ideal S7x256x174 .f32) (b2 : FVec Ideal S7x174 .f32) : FVec Ideal S16384x174 .f32 := fun i =>
  Rel.total (fun f d => x (ix3 (i 0) f d)) (fun s j k => W1 (ix3 s j k)) (fun s k => b1 (ix2 s k))
    (fun s k => W2 (ix3 s k (i 1))) (fun s => b2 (ix2 s (i 1)))

/-- The body's block at an index: the kernel's arrangement of the relation module over the input blocks. -/
def OutApply : Prop :=
  ∀ (x0 : Vec Ideal S1024x2048 .f32) (x1 : Vec Ideal S7x2048x256 .bf16) (x2 : Vec Ideal S7x256 .f32)
    (x3 : Vec Ideal S7x256x174 .bf16) (x4 : Vec Ideal S7x174 .f32) (p : Fin 1024) (q : Fin 174),
    Gen.out0_5 (F := Ideal) x0 x1 x2 x3 x4 (ix2 p q)
      = Rel.ktotal (fun f d => x0 (ix2 p (Rel.wrow f d))) (fun i j k => x1 (ix3 i j k)) (fun i k => x2 (ix2 i k))
          (fun i k => x3 (ix3 i k q)) (fun i => x4 (ix2 i q))

variable (m : (ℓ : Loc nD τ sig) → Buf (Elt Ideal) ℓ) (ρ : Dev nD → PrngReg)

/-! ## What the region finds -/

/-- The kernel's first operand is the row-major reshape of x. -/
theorem V_v0 (c : Dev nD) : (V m c main_v0 : S16384x2048.Idx → EReal)
    = shapeCast S16384x2048 (m ((c : Thread nD τ).loc main_arg0)) shapeCasts_S16384x8x256_S16384x2048 := by
  dsimp only [Gen.V, Gen.hostOps0]; after_results; rfl

/-- The first-layer weights it finds are the argument's (a change of float format). -/
theorem V_v1 (c : Dev nD) : (V m c main_v1 : S7x2048x256.Idx → EReal) = m ((c : Thread nD τ).loc main_arg1) := by
  dsimp only [Gen.V, Gen.hostOps0]; after_results; rfl

/-- The second-layer weights it finds are the argument's (a change of float format). -/
theorem V_v2 (c : Dev nD) : (V m c main_v2 : S7x256x174.Idx → EReal) = m ((c : Thread nD τ).loc main_arg3) := by
  dsimp only [Gen.V, Gen.hostOps0]; after_results; rfl

/-- The printed index maps over the grid: the input and the output move with the point along rows, everything else stays. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## One point's block -/

theorem total_congr {a1 a1' : Fin 8 → Fin 256 → EReal} {a2 a2' : Fin 7 → Fin 2048 → Fin 256 → EReal}
    {a3 a3' a4 a4' : Fin 7 → Fin 256 → EReal} {a5 a5' : Fin 7 → EReal}
    (h1 : a1 = a1') (h2 : a2 = a2') (h3 : a3 = a3') (h4 : a4 = a4') (h5 : a5 = a5') :
    Rel.total a1 a2 a3 a4 a5 = Rel.total a1' a2' a3' a4' a5' := by
  subst h1 h2 h3 h4 h5; rfl

/-- What point `t` writes back is block `t` of `Gfin` of the arguments. -/
theorem flushed_eq (hout : OutApply) (c : Dev nD) (t : Fin cfg0.N) :
    (dats m 0 c).flushed 5 t = ((cfg0.win 5).blk t).view.read (Elt Ideal)
      (Gfin (m ((c : Thread nD τ).loc main_arg0)) (m ((c : Thread nD τ).loc main_arg1)) (m ((c : Thread nD τ).loc main_arg2))
        (m ((c : Thread nD τ).loc main_arg3)) (m ((c : Thread nD τ).loc main_arg4))) := by
  rw [Value.flushed5]
  obtain ⟨e00, e01, e10, e11, e12, e20, e21, e30, e31, e32, e40, e41, e50, e51⟩ := idx_facts t
  funext j
  obtain ⟨p, q, rfl⟩ : ∃ (p : Fin 1024) (q : Fin 174), j = ix2 p q := ⟨j 0, j 1, eq_ix2 j⟩
  show out0_5 (iblk m c 0 t) (iblk m c 1 t) (iblk m c 2 t) (iblk m c 3 t) (iblk m c 4 t) (ix2 p q)
    = Gfin _ _ _ _ _ (((cfg0.win 5).blk t).view.emb (ix2 p q))
  refine (hout (iblk m c 0 t) (iblk m c 1 t) (iblk m c 2 t) (iblk m c 3 t) (iblk m c 4 t) p q).trans ?_
  rw [Rel.ktotal_eq_total]
  unfold Gfin
  have hp : p.val < 1024 := p.isLt
  have hq : q.val < 174 := q.isLt
  have E0 : ((((cfg0.win 5).blk t).view.emb (ix2 p q)) 0).val = t.val * 1024 + p.val := by
    show win0_5.index t (0 : Fin 2) * 1024 + 1 * p.val = _; omega
  have E1 : ((((cfg0.win 5).blk t).view.emb (ix2 p q)) 1).val = q.val := by
    show win0_5.index t (1 : Fin 2) * 174 + 1 * q.val = _; omega
  refine total_congr ?_ ?_ ?_ ?_ ?_
  · funext f d
    show V m c main_v0 (((cfg0.win 0).blk t).view.emb (ix2 p (Rel.wrow f d))) = _
    rw [V_v0]
    have hf : f.val < 8 := f.isLt
    have hd : d.val < 256 := d.isLt
    have A0 : ((((cfg0.win 0).blk t).view.emb (ix2 p (Rel.wrow f d))) 0).val = t.val * 1024 + p.val := by
      show win0_0.index t (0 : Fin 2) * 1024 + 1 * p.val = _; omega
    have A1 : ((((cfg0.win 0).blk t).view.emb (ix2 p (Rel.wrow f d))) 1).val = f.val * 256 + d.val := by
      show win0_0.index t (1 : Fin 2) * 2048 + 1 * (f.val * 256 + d.val) = _; omega
    refine shapeCast_apply _ _ _ (ix3 _ f d) ?_
    rw [Shape.rowMajor_val_three, Shape.rowMajor_val_two, A0, A1]
    show ((((cfg0.win 5).blk t).view.emb (ix2 p q) 0).val * 8 + f.val) * 256 + d.val
      = (t.val * 1024 + p.val) * 2048 + (f.val * 256 + d.val)
    rw [E0]; omega
  · funext i j k
    show V m c main_v1 (((cfg0.win 1).blk t).view.emb (ix3 i j k)) = _
    rw [V_v1]
    refine congrArg _ (funext fun a => Fin.ext ?_)
    match a with
    | ⟨0, _⟩ => show win0_1.index t (0 : Fin 3) * 7 + 1 * i.val = i.val; omega
    | ⟨1, _⟩ => show win0_1.index t (1 : Fin 3) * 2048 + 1 * j.val = j.val; omega
    | ⟨2, _⟩ => show win0_1.index t (2 : Fin 3) * 256 + 1 * k.val = k.val; omega
  · funext i k
    show V m c main_arg2 (((cfg0.win 2).blk t).view.emb (ix2 i k)) = _
    rw [V_main_arg2]
    refine congrArg _ (funext fun a => Fin.ext ?_)
    match a with
    | ⟨0, _⟩ => show win0_2.index t (0 : Fin 2) * 7 + 1 * i.val = i.val; omega
    | ⟨1, _⟩ => show win0_2.index t (1 : Fin 2) * 256 + 1 * k.val = k.val; omega
  · funext i k
    show V m c main_v2 (((cfg0.win 3).blk t).view.emb (ix3 i k q)) = _
    rw [V_v2]
    refine congrArg _ (funext fun a => Fin.ext ?_)
    match a with
    | ⟨0, _⟩ => show win0_3.index t (0 : Fin 3) * 7 + 1 * i.val = i.val; omega
    | ⟨1, _⟩ => show win0_3.index t (1 : Fin 3) * 256 + 1 * k.val = k.val; omega
    | ⟨2, _⟩ => show win0_3.index t (2 : Fin 3) * 174 + 1 * q.val = ((((cfg0.win 5).blk t).view.emb (ix2 p q)) 1).val; omega
  · funext i
    show V m c main_arg4 (((cfg0.win 4).blk t).view.emb (ix2 i q)) = _
    rw [V_main_arg4]
    refine congrArg _ (funext fun a => Fin.ext ?_)
    match a with
    | ⟨0, _⟩ => show win0_4.index t (0 : Fin 2) * 7 + 1 * i.val = i.val; omega
    | ⟨1, _⟩ => show win0_4.index t (1 : Fin 2) * 174 + 1 * q.val = ((((cfg0.win 5).blk t).view.emb (ix2 p q)) 1).val; omega

/-! ## The sixteen blocks cover the array -/

/-- An index of the result array is in point `t`'s block iff each coordinate is in the block's range on its axis. -/
theorem mem_blk (t : Fin cfg0.N) (i : S16384x174.Idx) :
    i ∈ ((cfg0.win 5).blk t).view.set ↔ ∀ a : Fin 2, win0_5.index t a * S1024x174.size a ≤ (i a).val
      ∧ (i a).val < win0_5.index t a * S1024x174.size a + S1024x174.size a := by
  show i ∈ ((View.whole main_v3).slice (win0_5.rect t)).set ↔ _
  rw [View.set_slice_whole, Rect.mem_set_unit]
  exact Iff.rfl

/-- Row r lies in the block of point r / 1024. -/
theorem cover (i : S16384x174.Idx) :
    ∃ t : Fin cfg0.N, (cfg0.win 5).flush t = true ∧ i ∈ ((cfg0.win 5).blk t).view.set := by
  have hi0 : (i 0).val < 16384 := (i 0).isLt
  have hi1 : (i 1).val < 174 := (i 1).isLt
  have hN : grid0.N = 16 := N_0
  have ht : (i 0).val / 1024 < cfg0.N := by show (i 0).val / 1024 < grid0.N; omega
  obtain ⟨-, -, -, -, -, -, -, -, -, -, -, -, e50, e51⟩ := idx_facts ⟨(i 0).val / 1024, ht⟩
  refine ⟨⟨(i 0).val / 1024, ht⟩, flush0_5 _, ?_⟩
  rw [mem_blk]
  intro a
  match a with
  | ⟨0, _⟩ =>
    show win0_5.index ⟨(i 0).val / 1024, ht⟩ (0 : Fin 2) * 1024 ≤ (i 0).val
      ∧ (i 0).val < win0_5.index ⟨(i 0).val / 1024, ht⟩ (0 : Fin 2) * 1024 + 1024
    rw [e50]; show (i 0).val / 1024 * 1024 ≤ (i 0).val ∧ (i 0).val < (i 0).val / 1024 * 1024 + 1024; omega
  | ⟨1, _⟩ =>
    show win0_5.index ⟨(i 0).val / 1024, ht⟩ (1 : Fin 2) * 174 ≤ (i 1).val
      ∧ (i 1).val < win0_5.index ⟨(i 0).val / 1024, ht⟩ (1 : Fin 2) * 174 + 174
    rw [e51]; omega

/-- The result array after the run is `Gfin` of the arguments. -/
theorem final (hout : OutApply) (c : Dev nD) : (dats m 0 c).arrAt 5 cfg0.N
    = Gfin (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m hout c t) cover

/-- The kernel's run: the result array at `Gfin` of the arguments, the arguments unchanged. -/
theorem run (hout : OutApply) : θ_run defs (onTc (τ := τ) (main (F := Ideal))) ⟨m, fun _ => 0, ρ⟩ fun r => ∀ c : Dev nD,
      r.2.mem ((c : Thread nD τ).loc main_v3)
        = Gfin (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m hout c), (h c).2⟩) (Value.run_blocks m ρ)

end Cert.KernelIdeal.Arr

end
-- ==== Proof.LibFrameOps.lean ====
/-
  The reference's host operations read at an index given by coordinates: a gather of whole frames along the frame
  axis, a row-major merge of the two trailing axes, the weight and bias slices, a product contracting the last axis of
  a rank-3 operand against the first of a matrix, and a sum over the middle axis.
-/
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.Read

open Idealize.ShloMosaic Idealize.ShloMosaic.ValueIdx

/-! ## A gather of whole frames -/

/-- The dimension numbers of a gather that picks, for each of [n, s] start indices, the frame [B, 1, D] of an operand
    [B, F, D] at that position of the frame axis: result [B, n, s, D]. -/
abbrev frameDims (B F D n s : Nat)
    (wf : GatherDims.WF ⟨3, ![B, F, D]⟩ ⟨3, ![n, s, 1]⟩ ⟨4, ![B, n, s, D]⟩ [0, 3] [1] [] [1] [] 2 ![B, 1, D]) :
    GatherDims ⟨3, ![B, F, D]⟩ ⟨3, ![n, s, 1]⟩ ⟨4, ![B, n, s, D]⟩ where
  offsetDims := [0, 3]
  collapsedSliceDims := [1]
  operandBatchingDims := []
  startIndicesBatchingDims := []
  startIndexMap := [1]
  indexVectorDim := 2
  sliceSizes := ![B, 1, D]
  wf := wf

/-- The gather read at (b, r, j, d): the operand at (b, t, d), t the start index at (r, j, 0) read signed and clamped
    into [0, F - 1]. -/
theorem gather_frames_apply {α : Type} {B F D n s w : Nat} (hF : 0 < F)
    (wf : GatherDims.WF ⟨3, ![B, F, D]⟩ ⟨3, ![n, s, 1]⟩ ⟨4, ![B, n, s, D]⟩ [0, 3] [1] [] [1] [] 2 ![B, 1, D])
    (x : (⟨3, ![B, F, D]⟩ : Shape).Idx → α) (idx : IVec ⟨3, ![n, s, 1]⟩ w) (b : Fin B) (r : Fin n) (j : Fin s) (dd : Fin D) :
    Host.gather (frameDims B F D n s wf) x idx (ix4 b r j dd)
      = x (ix3 b ⟨min (idx (ix3 r j (0 : Fin 1))).toInt.toNat (F - 1), by omega⟩ dd) := by
  unfold Host.gather
  congr 1
  funext a
  refine Fin.ext ?_
  show (frameDims B F D n s wf).start (ix4 b r j dd) idx a + (frameDims B F D n s wf).batchCoord (ix4 b r j dd) a
    + (frameDims B F D n s wf).offCoord (ix4 b r j dd) a = _
  rw [GatherDims.batchCoord_eq_zero _ _ _ List.not_mem_nil, Nat.add_zero]
  have n01 : (0 : Fin 3) ∉ ([1] : List (Fin 3)) := by decide
  have n21 : (2 : Fin 3) ∉ ([1] : List (Fin 3)) := by decide
  match a with
  | ⟨0, h0⟩ =>
    have hs : (frameDims B F D n s wf).start (ix4 b r j dd) idx ⟨0, h0⟩ = 0 := by
      unfold GatherDims.start
      exact dif_neg n01
    have ho : (frameDims B F D n s wf).offCoord (ix4 b r j dd) ⟨0, h0⟩ = b.val := by
      unfold GatherDims.offCoord
      rw [dif_pos ((GatherDims.mem_sKept _ _).2 ⟨n01, List.not_mem_nil⟩)]
      rfl
    rw [hs, ho, Nat.zero_add]
  | ⟨1, h1⟩ =>
    have ho : (frameDims B F D n s wf).offCoord (ix4 b r j dd) ⟨1, h1⟩ = 0 :=
      GatherDims.offCoord_eq_zero _ _ _ (fun h => ((GatherDims.mem_sKept _ _).1 h).1 (List.mem_singleton.mpr rfl))
    rw [ho, Nat.add_zero]
    unfold GatherDims.start
    rw [dif_pos (show (⟨1, h1⟩ : Fin 3) ∈ (frameDims B F D n s wf).startIndexMap from List.mem_singleton.mpr rfl)]
    have hsi : (frameDims B F D n s wf).siIdx (ix4 b r j dd)
        ⟨List.idxOf (⟨1, h1⟩ : Fin 3) (frameDims B F D n s wf).startIndexMap,
          List.idxOf_lt_length_iff.2 (List.mem_singleton.mpr rfl)⟩ = ix3 r j (0 : Fin 1) := by
      funext c; refine Fin.ext ?_
      match c with
      | ⟨0, _⟩ => rfl
      | ⟨1, _⟩ => rfl
      | ⟨2, _⟩ => rfl
    rw [hsi]
    rfl
  | ⟨2, h2⟩ =>
    have hs : (frameDims B F D n s wf).start (ix4 b r j dd) idx ⟨2, h2⟩ = 0 := by
      unfold GatherDims.start
      exact dif_neg n21
    have ho : (frameDims B F D n s wf).offCoord (ix4 b r j dd) ⟨2, h2⟩ = dd.val := by
      unfold GatherDims.offCoord
      rw [dif_pos ((GatherDims.mem_sKept _ _).2 ⟨n21, List.not_mem_nil⟩)]
      rfl
    rw [hs, ho, Nat.zero_add]

/-! ## A row-major merge of the two trailing axes, and the sum over the merged axis -/

/-- Position j · D + d of a merged axis of s · D positions is in range. -/
theorem split_lt {s D m : ℕ} (hm : s * D = m) (j : Fin s) (d : Fin D) : j.val * D + d.val < m := by
  subst hm
  have h1 : j.val * D + D ≤ s * D := by
    have := Nat.mul_le_mul_right D (Nat.succ_le_of_lt j.isLt)
    rw [Nat.succ_mul] at this; exact this
  have := d.isLt
  omega

/-- A [B, n, s, D] array cast to [B, n, s · D] reads, at (b, r, j · D + d), the operand at (b, r, j, d). -/
theorem shapeCast_merge_apply {α : Type} {B n s D m : ℕ} (hm : s * D = m) (x : (⟨4, ![B, n, s, D]⟩ : Shape).Idx → α)
    (h : (⟨4, ![B, n, s, D]⟩ : Shape).ShapeCasts ⟨3, ![B, n, m]⟩) (b : Fin B) (r : Fin n) (j : Fin s) (dd : Fin D) :
    shapeCast ⟨3, ![B, n, m]⟩ x h (ix3 b r ⟨j.val * D + dd.val, split_lt hm j dd⟩) = x (ix4 b r j dd) :=
  shapeCast_apply x h _ _ (by
    rw [Shape.rowMajor_val_four, Shape.rowMajor_val_three]
    show ((b.val * n + r.val) * s + j.val) * D + dd.val = (b.val * n + r.val) * m + (j.val * D + dd.val)
    rw [← hm, Nat.add_mul, Nat.mul_assoc, Nat.add_assoc])

/-- A sum over a merged axis of s · D positions is the double sum over (j, d) of the term at position j · D + d. -/
theorem sum_split {M : Type*} [AddCommMonoid M] {s D m : ℕ} (hm : s * D = m) (g : Fin m → M) :
    ∑ f : Fin m, g f = ∑ j : Fin s, ∑ d : Fin D, g ⟨j.val * D + d.val, split_lt hm j d⟩ := by
  subst hm
  rw [← Equiv.sum_comp finProdFinEquiv g, Fintype.sum_prod_type]
  refine Finset.sum_congr rfl fun j _ => Finset.sum_congr rfl fun d _ => congrArg g (Fin.ext ?_)
  show d.val + D * j.val = j.val * D + d.val
  rw [Nat.mul_comm, Nat.add_comm]

/-! ## relu: the maximum with the broadcast zero word -/

/-- The maximum with the zero word broadcast to the shape reads, at an index, the maximum of the element and zero. -/
theorem relu_apply {T : Shape} (h : (⟨0, ![]⟩ : Shape).BroadcastsInDim T ![]) (v : FVec Ideal T .f32) (i : T.Idx) :
    maximumf v (broadcastInDim T ![] h (constant (F := Ideal) ⟨0, ![]⟩ .f32 0x00000000#32)) i = max (v i) 0 := by
  rw [maximumf_apply, broadcastInDim_scalar_apply, constant_apply, Ideal.ofBits_zero_f32]

/-! ## One scale's weights and bias cut out of the stacked parameters -/

/-- Rows 0 … m - 1 of matrix K of a stack [A, M, N], as an [m, N] matrix, read at (f, k): the stack at (K, f, k). -/
theorem weight_apply {α : Type} {A M N m : ℕ} (K : ℕ) (hK : K < A) (hmM : m ≤ M) (W : (⟨3, ![A, M, N]⟩ : Shape).Idx → α)
    (hsl : (⟨3, ![A, M, N]⟩ : Shape).Slices ![K, 0, 0] ⟨3, ![1, m, N]⟩)
    (hc : (⟨3, ![1, m, N]⟩ : Shape).ShapeCasts ⟨2, ![m, N]⟩) (f : Fin m) (k : Fin N) :
    shapeCast ⟨2, ![m, N]⟩ (extractStridedSlice ⟨3, ![1, m, N]⟩ ![K, 0, 0] W hsl) hc (ix2 f k)
      = W (ix3 ⟨K, hK⟩ ⟨f.val, by omega⟩ k) := by
  rw [shapeCast_1ab_ab_apply]
  exact extractStridedSlice_apply _ W hsl _ _ fun a => match a with
    | ⟨0, _⟩ => by show K = K + 0; omega
    | ⟨1, _⟩ => by show f.val = 0 + f.val; omega
    | ⟨2, _⟩ => by show k.val = 0 + k.val; omega

/-- Row K of a stack [A, N] of bias rows, broadcast over [B, n, N], read at (b, r, k): the stack at (K, k). -/
theorem bias_apply {α : Type} {A N B n : ℕ} (K : ℕ) (hK : K < A) (bias : (⟨2, ![A, N]⟩ : Shape).Idx → α)
    (hsl : (⟨2, ![A, N]⟩ : Shape).Slices ![K, 0] ⟨2, ![1, N]⟩)
    (hc : (⟨2, ![1, N]⟩ : Shape).ShapeCasts ⟨1, ![N]⟩)
    (hb2 : (⟨1, ![N]⟩ : Shape).BroadcastsInDim ⟨3, ![1, 1, N]⟩ ![2])
    (hb1 : (⟨3, ![1, 1, N]⟩ : Shape).BroadcastsInDim ⟨3, ![B, n, N]⟩ ![0, 1, 2])
    (b : Fin B) (r : Fin n) (k : Fin N) :
    broadcastInDim ⟨3, ![B, n, N]⟩ ![0, 1, 2] hb1 (broadcastInDim ⟨3, ![1, 1, N]⟩ ![2] hb2
        (shapeCast ⟨1, ![N]⟩ (extractStridedSlice ⟨2, ![1, N]⟩ ![K, 0] bias hsl) hc)) (ix3 b r k)
      = bias (ix2 ⟨K, hK⟩ k) := by
  have hk : k.val = if N = 1 then 0 else k.val := by
    split
    · have := k.isLt; omega
    · rfl
  refine (broadcastInDim_apply _ hb1 _ (ix3 b r k) (ix3 (0 : Fin 1) (0 : Fin 1) k) fun a => match a with
    | ⟨0, _⟩ => rfl
    | ⟨1, _⟩ => rfl
    | ⟨2, _⟩ => hk).trans ?_
  refine (broadcastInDim_apply _ hb2 _ (ix3 (0 : Fin 1) (0 : Fin 1) k) (ix1 k) fun a => match a with
    | ⟨0, _⟩ => hk).trans ?_
  rw [shapeCast_1a_a_apply]
  exact extractStridedSlice_apply _ bias hsl _ _ fun a => match a with
    | ⟨0, _⟩ => by show K = K + 0; omega
    | ⟨1, _⟩ => by show k.val = 0 + k.val; omega

/-! ## A product contracting the last axis of a rank-3 operand against the first of a matrix -/

/-- The host's product of an [B, n, m] operand with an [m, N] matrix over the shared axis, read at (b, r, k): the sum
    over f of the first operand at (b, r, f) times the second at (f, k). -/
theorem dot_last_first_apply {B n m N : ℕ} {φ₁ φ₂ : FTy}
    (d : DotDims ⟨3, ![B, n, m]⟩ ⟨2, ![m, N]⟩ ⟨3, ![B, n, N]⟩) (prec : Option ContractPrecision)
    (hr : d.contr.rank = 1) (hs : d.contr.size ⟨0, by omega⟩ = m)
    (hl0 : ∀ j q, (d.lhsIdx j q 0).val = (j 0).val) (hl1 : ∀ j q, (d.lhsIdx j q 1).val = (j 1).val)
    (hl2 : ∀ j q, (d.lhsIdx j q 2).val = (q ⟨0, by omega⟩).val)
    (hr0 : ∀ j q, (d.rhsIdx j q 0).val = (q ⟨0, by omega⟩).val) (hr1 : ∀ j q, (d.rhsIdx j q 1).val = (j 2).val)
    (l : FVec Ideal ⟨3, ![B, n, m]⟩ φ₁) (rr : FVec Ideal ⟨2, ![m, N]⟩ φ₂) (b : Fin B) (r : Fin n) (k : Fin N) :
    Host.dotGeneral d prec l rr (ix3 b r k) = ∑ f : Fin m, l (ix3 b r f) * rr (ix2 f k) := by
  show FloatOps.dotGeneral d prec .single l rr (ix3 b r k) = _
  rw [Ideal.dotGeneral_apply, ← Equiv.sum_comp (contrEquiv1 d m hr hs).symm]
  refine Finset.sum_congr rfl fun f _ => ?_
  have hk := contrEquiv1_symm_val d m hr hs f
  have el : d.lhsIdx (ix3 b r k) ((contrEquiv1 d m hr hs).symm f) = ix3 b r f := funext fun a => Fin.ext (by
    match a with
    | ⟨0, _⟩ => exact hl0 _ _
    | ⟨1, _⟩ => exact hl1 _ _
    | ⟨2, _⟩ => exact (hl2 _ _).trans hk)
  have er : d.rhsIdx (ix3 b r k) ((contrEquiv1 d m hr hs).symm f) = ix2 f k := funext fun a => Fin.ext (by
    match a with
    | ⟨0, _⟩ => exact (hr0 _ _).trans hk
    | ⟨1, _⟩ => exact hr1 _ _)
  rw [el, er]

/-- A dense layer: the product with one scale's weight rows plus that scale's bias row, read at (b, r, k). -/
theorem dense_apply {A M N m B n : ℕ} (K : ℕ) (hK : K < A) (hmM : m ≤ M)
    (d : DotDims ⟨3, ![B, n, m]⟩ ⟨2, ![m, N]⟩ ⟨3, ![B, n, N]⟩)
    (hr : d.contr.rank = 1) (hs : d.contr.size ⟨0, by omega⟩ = m)
    (hl0 : ∀ j q, (d.lhsIdx j q 0).val = (j 0).val) (hl1 : ∀ j q, (d.lhsIdx j q 1).val = (j 1).val)
    (hl2 : ∀ j q, (d.lhsIdx j q 2).val = (q ⟨0, by omega⟩).val)
    (hr0 : ∀ j q, (d.rhsIdx j q 0).val = (q ⟨0, by omega⟩).val) (hr1 : ∀ j q, (d.rhsIdx j q 1).val = (j 2).val)
    (L : FVec Ideal ⟨3, ![B, n, m]⟩ .f32) (W : FVec Ideal ⟨3, ![A, M, N]⟩ .f32) (bias : FVec Ideal ⟨2, ![A, N]⟩ .f32)
    (hsl : (⟨3, ![A, M, N]⟩ : Shape).Slices ![K, 0, 0] ⟨3, ![1, m, N]⟩)
    (hc : (⟨3, ![1, m, N]⟩ : Shape).ShapeCasts ⟨2, ![m, N]⟩)
    (hsl2 : (⟨2, ![A, N]⟩ : Shape).Slices ![K, 0] ⟨2, ![1, N]⟩)
    (hc2 : (⟨2, ![1, N]⟩ : Shape).ShapeCasts ⟨1, ![N]⟩)
    (hb2 : (⟨1, ![N]⟩ : Shape).BroadcastsInDim ⟨3, ![1, 1, N]⟩ ![2])
    (hb1 : (⟨3, ![1, 1, N]⟩ : Shape).BroadcastsInDim ⟨3, ![B, n, N]⟩ ![0, 1, 2])
    (b : Fin B) (r : Fin n) (k : Fin N) :
    addf (Host.dotGeneral d none L (shapeCast ⟨2, ![m, N]⟩ (extractStridedSlice ⟨3, ![1, m, N]⟩ ![K, 0, 0] W hsl) hc))
        (broadcastInDim ⟨3, ![B, n, N]⟩ ![0, 1, 2] hb1 (broadcastInDim ⟨3, ![1, 1, N]⟩ ![2] hb2
          (shapeCast ⟨1, ![N]⟩ (extractStridedSlice ⟨2, ![1, N]⟩ ![K, 0] bias hsl2) hc2))) (ix3 b r k)
      = (∑ f : Fin m, L (ix3 b r f) * W (ix3 ⟨K, hK⟩ ⟨f.val, by omega⟩ k)) + bias (ix2 ⟨K, hK⟩ k) := by
  rw [addf_apply, dot_last_first_apply d none hr hs hl0 hl1 hl2 hr0 hr1, bias_apply K hK]
  refine congrArg (· + _) (Finset.sum_congr rfl fun f _ => ?_)
  rw [weight_apply K hK hmM]

/-! ## The sum over the middle axis -/

/-- The host's sum over the middle axis of a [B, n, C] array from the zero word, read at (b, c): zero plus the sum over
    r of the array at (b, r, c). -/
theorem reduce_mid_apply {B n C : ℕ} (x : FVec Ideal ⟨3, ![B, n, C]⟩ .f32)
    (h' : (⟨3, ![B, n, C]⟩ : Shape).ReducesTo [1] ⟨2, ![B, C]⟩) (h : (⟨3, ![B, n, C]⟩ : Shape).Reduces [1] ⟨2, ![B, C]⟩)
    (hu : 0 < (⟨0, ![]⟩ : Shape).numel) (b : Fin B) (c : Fin C) :
    Host.reduceAdd x (constant (F := Ideal) ⟨0, ![]⟩ .f32 0x00000000#32) h' hu (ix2 b c)
      = 0 + ∑ r : Fin n, x (ix3 b r c) := by
  rw [hostReduceAdd_apply, Ideal.hostReduceAdd_single h' h, constant_apply, Ideal.ofBits_zero_f32]
  refine congrArg (0 + ·) (Finset.sum_congr rfl fun r _ => congrArg x ?_)
  funext a; refine Fin.ext ?_
  match a with
  | ⟨0, _⟩ => rfl
  | ⟨1, _⟩ => rfl
  | ⟨2, _⟩ => rfl

/-! ## The facts about a dimension record that the product lemma uses, as one record -/

/-- The dimension record contracts the last axis of an [B, n, m] operand against the first axis of an [m, N] matrix and
    has no batch axis: its contraction has one axis of extent m, and the operand positions at output (b, r, k) and
    contraction position f are (b, r, f) and (f, k). -/
structure LastFirst {B n m N : ℕ} (d : DotDims ⟨3, ![B, n, m]⟩ ⟨2, ![m, N]⟩ ⟨3, ![B, n, N]⟩) : Prop where
  rank : d.contr.rank = 1
  size : d.contr.size ⟨0, by omega⟩ = m
  l0 : ∀ j q, (d.lhsIdx j q 0).val = (j 0).val
  l1 : ∀ j q, (d.lhsIdx j q 1).val = (j 1).val
  l2 : ∀ j q, (d.lhsIdx j q 2).val = (q ⟨0, by omega⟩).val
  r0 : ∀ j q, (d.rhsIdx j q 0).val = (q ⟨0, by omega⟩).val
  r1 : ∀ j q, (d.rhsIdx j q 1).val = (j 2).val

/-- The dense layer over such a record. -/
theorem dense_apply' {A M N m B n : ℕ} (K : ℕ) (hK : K < A) (hmM : m ≤ M)
    (d : DotDims ⟨3, ![B, n, m]⟩ ⟨2, ![m, N]⟩ ⟨3, ![B, n, N]⟩) (hd : LastFirst d)
    (L : FVec Ideal ⟨3, ![B, n, m]⟩ .f32) (W : FVec Ideal ⟨3, ![A, M, N]⟩ .f32) (bias : FVec Ideal ⟨2, ![A, N]⟩ .f32)
    (hsl : (⟨3, ![A, M, N]⟩ : Shape).Slices ![K, 0, 0] ⟨3, ![1, m, N]⟩)
    (hc : (⟨3, ![1, m, N]⟩ : Shape).ShapeCasts ⟨2, ![m, N]⟩)
    (hsl2 : (⟨2, ![A, N]⟩ : Shape).Slices ![K, 0] ⟨2, ![1, N]⟩)
    (hc2 : (⟨2, ![1, N]⟩ : Shape).ShapeCasts ⟨1, ![N]⟩)
    (hb2 : (⟨1, ![N]⟩ : Shape).BroadcastsInDim ⟨3, ![1, 1, N]⟩ ![2])
    (hb1 : (⟨3, ![1, 1, N]⟩ : Shape).BroadcastsInDim ⟨3, ![B, n, N]⟩ ![0, 1, 2])
    (b : Fin B) (r : Fin n) (k : Fin N) :
    addf (Host.dotGeneral d none L (shapeCast ⟨2, ![m, N]⟩ (extractStridedSlice ⟨3, ![1, m, N]⟩ ![K, 0, 0] W hsl) hc))
        (broadcastInDim ⟨3, ![B, n, N]⟩ ![0, 1, 2] hb1 (broadcastInDim ⟨3, ![1, 1, N]⟩ ![2] hb2
          (shapeCast ⟨1, ![N]⟩ (extractStridedSlice ⟨2, ![1, N]⟩ ![K, 0] bias hsl2) hc2))) (ix3 b r k)
      = (∑ f : Fin m, L (ix3 b r f) * W (ix3 ⟨K, hK⟩ ⟨f.val, by omega⟩ k)) + bias (ix2 ⟨K, hK⟩ k) :=
  dense_apply K hK hmM d hd.rank hd.size hd.l0 hd.l1 hd.l2 hd.r0 hd.r1 L W bias hsl hc hsl2 hc2 hb2 hb1 b r k

end Cert.ReferenceIdeal.Read

end
-- ==== Proof.RefReadScale.lean ====
/-
  One scale of the reference, read at a batch row and a class, for any number of relations and frames per relation:
  the chain gather – merge – relu – dense – relu – dense – sum over the relations is the scale's contribution as the
  specification writes it, the first layer's sum over the merged axis split into frames and features.
-/
import proofs.«120356_j936302870703_2_alg».proof.Proof.LibFrameOps
import proofs.«120356_j936302870703_2_alg».proof.Proof.Spec

noncomputable section

namespace Cert.ReferenceIdeal.Read

open Idealize.ShloMosaic Idealize.ShloMosaic.ValueIdx

/-- The gathered frames, merged and passed through relu, read at (b, r, j · 256 + d): relu of the input at
    (b, sel r j, d), when the start index at (r, j, 0), read signed and clamped, is sel r j. -/
theorem frames_relu_apply {B n s m : ℕ} (hm : s * 256 = m)
    (wf : GatherDims.WF ⟨3, ![B, 8, 256]⟩ ⟨3, ![n, s, 1]⟩ ⟨4, ![B, n, s, 256]⟩ [0, 3] [1] [] [1] [] 2 ![B, 1, 256])
    (x : FVec Ideal ⟨3, ![B, 8, 256]⟩ .f32) (idx : IVec ⟨3, ![n, s, 1]⟩ 32) (sel : Fin n → Fin s → Fin 8)
    (hidx : ∀ r j, min (idx (ix3 r j (0 : Fin 1))).toInt.toNat (8 - 1) = (sel r j).val)
    (hc : (⟨4, ![B, n, s, 256]⟩ : Shape).ShapeCasts ⟨3, ![B, n, m]⟩)
    (hb : (⟨0, ![]⟩ : Shape).BroadcastsInDim ⟨3, ![B, n, m]⟩ ![])
    (b : Fin B) (r : Fin n) (j : Fin s) (d : Fin 256) :
    maximumf (shapeCast ⟨3, ![B, n, m]⟩ (Host.gather (frameDims B 8 256 n s wf) x idx) hc)
        (broadcastInDim ⟨3, ![B, n, m]⟩ ![] hb (constant (F := Ideal) ⟨0, ![]⟩ .f32 0x00000000#32))
        (ix3 b r ⟨j.val * 256 + d.val, split_lt hm j d⟩)
      = Rel.relu (x (ix3 b (sel r j) d)) := by
  rw [relu_apply, shapeCast_merge_apply hm, gather_frames_apply (by omega)]
  have e : (⟨min (idx (ix3 r j (0 : Fin 1))).toInt.toNat (8 - 1), by omega⟩ : Fin 8) = sel r j := Fin.ext (hidx r j)
  rw [e]
  rfl

/-- The hidden layer read at (b, r, k): the specification's hidden unit k of the relation picking frames sel r. -/
theorem hidden_read {B n s m : ℕ} (hs8 : s ≤ 8) (hm : s * 256 = m) (K : ℕ) (hK : K < 7)
    (x : FVec Ideal ⟨3, ![B, 8, 256]⟩ .f32) (sel : Fin n → Fin s → Fin 8) (G : FVec Ideal ⟨3, ![B, n, m]⟩ .f32)
    (hG : ∀ (b : Fin B) (r : Fin n) (j : Fin s) (d : Fin 256),
      G (ix3 b r ⟨j.val * 256 + d.val, split_lt hm j d⟩) = Rel.relu (x (ix3 b (sel r j) d)))
    (d1 : DotDims ⟨3, ![B, n, m]⟩ ⟨2, ![m, 256]⟩ ⟨3, ![B, n, 256]⟩) (hd1 : LastFirst d1)
    (W1 : FVec Ideal ⟨3, ![7, 2048, 256]⟩ .f32) (b1 : FVec Ideal ⟨2, ![7, 256]⟩ .f32)
    (s1 : (⟨3, ![7, 2048, 256]⟩ : Shape).Slices ![K, 0, 0] ⟨3, ![1, m, 256]⟩)
    (c1 : (⟨3, ![1, m, 256]⟩ : Shape).ShapeCasts ⟨2, ![m, 256]⟩)
    (s1b : (⟨2, ![7, 256]⟩ : Shape).Slices ![K, 0] ⟨2, ![1, 256]⟩)
    (c1b : (⟨2, ![1, 256]⟩ : Shape).ShapeCasts ⟨1, ![256]⟩)
    (bb1 : (⟨1, ![256]⟩ : Shape).BroadcastsInDim ⟨3, ![1, 1, 256]⟩ ![2])
    (ba1 : (⟨3, ![1, 1, 256]⟩ : Shape).BroadcastsInDim ⟨3, ![B, n, 256]⟩ ![0, 1, 2])
    (z1 : (⟨0, ![]⟩ : Shape).BroadcastsInDim ⟨3, ![B, n, 256]⟩ ![])
    (b : Fin B) (r : Fin n) (k : Fin 256) :
    maximumf (addf (Host.dotGeneral d1 none G
            (shapeCast ⟨2, ![m, 256]⟩ (extractStridedSlice ⟨3, ![1, m, 256]⟩ ![K, 0, 0] W1 s1) c1))
          (broadcastInDim ⟨3, ![B, n, 256]⟩ ![0, 1, 2] ba1 (broadcastInDim ⟨3, ![1, 1, 256]⟩ ![2] bb1
            (shapeCast ⟨1, ![256]⟩ (extractStridedSlice ⟨2, ![1, 256]⟩ ![K, 0] b1 s1b) c1b))))
        (broadcastInDim ⟨3, ![B, n, 256]⟩ ![] z1 (constant (F := Ideal) ⟨0, ![]⟩ .f32 0x00000000#32)) (ix3 b r k)
      = Rel.hid s hs8 (sel r) (fun f d => x (ix3 b f d)) (fun j k => W1 (ix3 ⟨K, hK⟩ j k))
          (fun k => b1 (ix2 ⟨K, hK⟩ k)) k := by
  rw [relu_apply, dense_apply' K hK (by omega) d1 hd1, sum_split hm]
  unfold Rel.hid Rel.relu
  refine congrArg (fun t => max (t + _) 0) (Finset.sum_congr rfl fun j _ => ?_)
  unfold Rel.fterm
  refine Finset.sum_congr rfl fun d _ => ?_
  rw [hG]
  rfl

/-- One scale's contribution read at (b, c): the specification's, over the scale's selection table and parameters. -/
theorem scale_read {B n s m C : ℕ} (hs8 : s ≤ 8) (hm : s * 256 = m) (K : ℕ) (hK : K < 7)
    (x : FVec Ideal ⟨3, ![B, 8, 256]⟩ .f32) (sel : Fin n → Fin s → Fin 8) (G : FVec Ideal ⟨3, ![B, n, m]⟩ .f32)
    (hG : ∀ (b : Fin B) (r : Fin n) (j : Fin s) (d : Fin 256),
      G (ix3 b r ⟨j.val * 256 + d.val, split_lt hm j d⟩) = Rel.relu (x (ix3 b (sel r j) d)))
    (d1 : DotDims ⟨3, ![B, n, m]⟩ ⟨2, ![m, 256]⟩ ⟨3, ![B, n, 256]⟩) (hd1 : LastFirst d1)
    (d2 : DotDims ⟨3, ![B, n, 256]⟩ ⟨2, ![256, C]⟩ ⟨3, ![B, n, C]⟩) (hd2 : LastFirst d2)
    (W1 : FVec Ideal ⟨3, ![7, 2048, 256]⟩ .f32) (b1 : FVec Ideal ⟨2, ![7, 256]⟩ .f32)
    (W2 : FVec Ideal ⟨3, ![7, 256, C]⟩ .f32) (b2 : FVec Ideal ⟨2, ![7, C]⟩ .f32)
    (s1 : (⟨3, ![7, 2048, 256]⟩ : Shape).Slices ![K, 0, 0] ⟨3, ![1, m, 256]⟩)
    (c1 : (⟨3, ![1, m, 256]⟩ : Shape).ShapeCasts ⟨2, ![m, 256]⟩)
    (s1b : (⟨2, ![7, 256]⟩ : Shape).Slices ![K, 0] ⟨2, ![1, 256]⟩)
    (c1b : (⟨2, ![1, 256]⟩ : Shape).ShapeCasts ⟨1, ![256]⟩)
    (bb1 : (⟨1, ![256]⟩ : Shape).BroadcastsInDim ⟨3, ![1, 1, 256]⟩ ![2])
    (ba1 : (⟨3, ![1, 1, 256]⟩ : Shape).BroadcastsInDim ⟨3, ![B, n, 256]⟩ ![0, 1, 2])
    (z1 : (⟨0, ![]⟩ : Shape).BroadcastsInDim ⟨3, ![B, n, 256]⟩ ![])
    (s2 : (⟨3, ![7, 256, C]⟩ : Shape).Slices ![K, 0, 0] ⟨3, ![1, 256, C]⟩)
    (c2 : (⟨3, ![1, 256, C]⟩ : Shape).ShapeCasts ⟨2, ![256, C]⟩)
    (s2b : (⟨2, ![7, C]⟩ : Shape).Slices ![K, 0] ⟨2, ![1, C]⟩)
    (c2b : (⟨2, ![1, C]⟩ : Shape).ShapeCasts ⟨1, ![C]⟩)
    (bb2 : (⟨1, ![C]⟩ : Shape).BroadcastsInDim ⟨3, ![1, 1, C]⟩ ![2])
    (ba2 : (⟨3, ![1, 1, C]⟩ : Shape).BroadcastsInDim ⟨3, ![B, n, C]⟩ ![0, 1, 2])
    (hred' : (⟨3, ![B, n, C]⟩ : Shape).ReducesTo [1] ⟨2, ![B, C]⟩) (hred : (⟨3, ![B, n, C]⟩ : Shape).Reduces [1] ⟨2, ![B, C]⟩)
    (hu : 0 < (⟨0, ![]⟩ : Shape).numel) (b : Fin B) (c : Fin C) :
    Host.reduceAdd (addf (Host.dotGeneral d2 none
            (maximumf (addf (Host.dotGeneral d1 none G
                  (shapeCast ⟨2, ![m, 256]⟩ (extractStridedSlice ⟨3, ![1, m, 256]⟩ ![K, 0, 0] W1 s1) c1))
                (broadcastInDim ⟨3, ![B, n, 256]⟩ ![0, 1, 2] ba1 (broadcastInDim ⟨3, ![1, 1, 256]⟩ ![2] bb1
                  (shapeCast ⟨1, ![256]⟩ (extractStridedSlice ⟨2, ![1, 256]⟩ ![K, 0] b1 s1b) c1b))))
              (broadcastInDim ⟨3, ![B, n, 256]⟩ ![] z1 (constant (F := Ideal) ⟨0, ![]⟩ .f32 0x00000000#32)))
            (shapeCast ⟨2, ![256, C]⟩ (extractStridedSlice ⟨3, ![1, 256, C]⟩ ![K, 0, 0] W2 s2) c2))
          (broadcastInDim ⟨3, ![B, n, C]⟩ ![0, 1, 2] ba2 (broadcastInDim ⟨3, ![1, 1, C]⟩ ![2] bb2
            (shapeCast ⟨1, ![C]⟩ (extractStridedSlice ⟨2, ![1, C]⟩ ![K, 0] b2 s2b) c2b))))
        (constant (F := Ideal) ⟨0, ![]⟩ .f32 0x00000000#32) hred' hu (ix2 b c)
      = Rel.scale n s hs8 sel (fun f d => x (ix3 b f d)) (fun j k => W1 (ix3 ⟨K, hK⟩ j k))
          (fun k => b1 (ix2 ⟨K, hK⟩ k)) (fun k => W2 (ix3 ⟨K, hK⟩ k c)) (b2 (ix2 ⟨K, hK⟩ c)) := by
  rw [reduce_mid_apply _ hred' hred hu, zero_add]
  unfold Rel.scale
  refine Finset.sum_congr rfl fun r _ => ?_
  rw [dense_apply' K hK (le_refl 256) d2 hd2]
  refine congrArg (· + _) (Finset.sum_congr rfl fun k _ => ?_)
  rw [hidden_read hs8 hm K hK x sel G hG d1 hd1 W1 b1 s1 c1 s1b c1b bb1 ba1 z1]

end Cert.ReferenceIdeal.Read

end
-- ==== Proof.RefRead0.lean ====
/-
  Scale 0 of the reference read at a batch row and a class: 1 relation of 8 frames each.
-/
import proofs.«120356_j936302870703_2_alg».proof.Proof.RefReadScale
import proofs.«120356_j936302870703_2_alg».proof.Proof.RefTerm

noncomputable section

namespace Cert.ReferenceIdeal.Read

open Idealize.ShloMosaic Idealize.ShloMosaic.ValueIdx Cert.ReferenceIdeal Cert.ReferenceIdeal.Gen

/-- Scale 0's start index at (r, j, 0), read signed and clamped into [0, 7], is the table entry sel0 r j. -/
theorem idx0_read (r : Fin 1) (j : Fin 8) :
    min (Term.idx0 (ix3 r j (0 : Fin 1))).toInt.toNat (8 - 1) = (Rel.sel0 r j).val := by
  fin_cases r <;> fin_cases j <;> rfl

/-- Scale 0's gathered frames after relu at (b, r, j · 256 + d): relu of the input at (b, sel0 r j, d). -/
theorem G0_apply (x : FVec Ideal S16384x8x256 .f32) (b : Fin 16384) (r : Fin 1) (j : Fin 8) (d : Fin 256) :
    Term.G0 x (ix3 b r ⟨j.val * 256 + d.val, split_lt (rfl : 8 * 256 = 2048) j d⟩)
      = Rel.relu (x (ix3 b (Rel.sel0 r j) d)) := by
  unfold Term.G0
  exact frames_relu_apply (B := 16384) (n := 1) (s := 8) (m := 2048) rfl
    gather_S16384x8x256_S1x8x1_S16384x1x8x256_03_1_n_n_1_2_163841256_wf x Term.idx0 Rel.sel0 idx0_read
    shapeCasts_S16384x1x8x256_S16384x1x2048 bcast_S_S16384x1x2048 b r j d

/-- Scale 0's first product contracts the merged frame axis against the weight rows. -/
theorem lastFirst1_0 : LastFirst dot_S16384x1x2048_S2048x256_S16384x1x256_2_0_01_1_n_n :=
  ⟨rfl, rfl, fun _ _ => rfl, fun _ _ => rfl, fun _ _ => rfl, fun _ _ => rfl, fun _ _ => rfl⟩

/-- Scale 0's second product contracts the hidden axis against the output weight rows. -/
theorem lastFirst2_0 : LastFirst dot_S16384x1x256_S256x174_S16384x1x174_2_0_01_1_n_n :=
  ⟨rfl, rfl, fun _ _ => rfl, fun _ _ => rfl, fun _ _ => rfl, fun _ _ => rfl, fun _ _ => rfl⟩

/-- Scale 0's contribution at batch row b and class c is the specification's scale over the table sel0 and the
    scale's parameters. -/
theorem Y0_apply (x : FVec Ideal S16384x8x256 .f32) (W1 : FVec Ideal S7x2048x256 .f32) (b1 : FVec Ideal S7x256 .f32)
    (W2 : FVec Ideal S7x256x174 .f32) (b2 : FVec Ideal S7x174 .f32) (b : Fin 16384) (c : Fin 174) :
    Term.Y0 x W1 b1 W2 b2 (ix2 b c)
      = Rel.scale 1 8 (by omega) Rel.sel0 (fun f d => x (ix3 b f d)) (fun j k => W1 (ix3 0 j k))
          (fun k => b1 (ix2 0 k)) (fun k => W2 (ix3 0 k c)) (b2 (ix2 0 c)) := by
  unfold Term.Y0 Term.H0
  exact scale_read (B := 16384) (n := 1) (s := 8) (m := 2048) (C := 174) (by omega) rfl 0 (by omega) x Rel.sel0
    (Term.G0 x) (G0_apply x) dot_S16384x1x2048_S2048x256_S16384x1x256_2_0_01_1_n_n lastFirst1_0 dot_S16384x1x256_S256x174_S16384x1x174_2_0_01_1_n_n lastFirst2_0 W1 b1 W2 b2
    slices_S7x2048x256_S1x2048x256_0_0_0 shapeCasts_S1x2048x256_S2048x256 slices_S7x256_S1x256_0_0 shapeCasts_S1x256_S256
    bcast_S256_S1x1x256_2 bcast_S1x1x256_S16384x1x256_0_1_2 bcast_S_S16384x1x256
    slices_S7x256x174_S1x256x174_0_0_0 shapeCasts_S1x256x174_S256x174 slices_S7x174_S1x174_0_0 shapeCasts_S1x174_S174
    bcast_S174_S1x1x174_2 bcast_S1x1x174_S16384x1x174_0_1_2
    reducesTo_S16384x1x174_S16384x174_d1 (by decide) h_S_ b c

end Cert.ReferenceIdeal.Read

end
-- ==== Proof.RefRead1.lean ====
/-
  Scale 1 of the reference read at a batch row and a class: 3 relations of 7 frames each.
-/
import proofs.«120356_j936302870703_2_alg».proof.Proof.RefReadScale
import proofs.«120356_j936302870703_2_alg».proof.Proof.RefTerm

noncomputable section

namespace Cert.ReferenceIdeal.Read

open Idealize.ShloMosaic Idealize.ShloMosaic.ValueIdx Cert.ReferenceIdeal Cert.ReferenceIdeal.Gen

/-- Scale 1's start index at (r, j, 0), read signed and clamped into [0, 7], is the table entry sel1 r j. -/
theorem idx1_read (r : Fin 3) (j : Fin 7) :
    min (Term.idx1 (ix3 r j (0 : Fin 1))).toInt.toNat (8 - 1) = (Rel.sel1 r j).val := by
  fin_cases r <;> fin_cases j <;> rfl

/-- Scale 1's gathered frames after relu at (b, r, j · 256 + d): relu of the input at (b, sel1 r j, d). -/
theorem G1_apply (x : FVec Ideal S16384x8x256 .f32) (b : Fin 16384) (r : Fin 3) (j : Fin 7) (d : Fin 256) :
    Term.G1 x (ix3 b r ⟨j.val * 256 + d.val, split_lt (rfl : 7 * 256 = 1792) j d⟩)
      = Rel.relu (x (ix3 b (Rel.sel1 r j) d)) := by
  unfold Term.G1
  exact frames_relu_apply (B := 16384) (n := 3) (s := 7) (m := 1792) rfl
    gather_S16384x8x256_S3x7x1_S16384x3x7x256_03_1_n_n_1_2_163841256_wf x Term.idx1 Rel.sel1 idx1_read
    shapeCasts_S16384x3x7x256_S16384x3x1792 bcast_S_S16384x3x1792 b r j d

/-- Scale 1's first product contracts the merged frame axis against the weight rows. -/
theorem lastFirst1_1 : LastFirst dot_S16384x3x1792_S1792x256_S16384x3x256_2_0_01_1_n_n :=
  ⟨rfl, rfl, fun _ _ => rfl, fun _ _ => rfl, fun _ _ => rfl, fun _ _ => rfl, fun _ _ => rfl⟩

/-- Scale 1's second product contracts the hidden axis against the output weight rows. -/
theorem lastFirst2_1 : LastFirst dot_S16384x3x256_S256x174_S16384x3x174_2_0_01_1_n_n :=
  ⟨rfl, rfl, fun _ _ => rfl, fun _ _ => rfl, fun _ _ => rfl, fun _ _ => rfl, fun _ _ => rfl⟩

/-- Scale 1's contribution at batch row b and class c is the specification's scale over the table sel1 and the
    scale's parameters. -/
theorem Y1_apply (x : FVec Ideal S16384x8x256 .f32) (W1 : FVec Ideal S7x2048x256 .f32) (b1 : FVec Ideal S7x256 .f32)
    (W2 : FVec Ideal S7x256x174 .f32) (b2 : FVec Ideal S7x174 .f32) (b : Fin 16384) (c : Fin 174) :
    Term.Y1 x W1 b1 W2 b2 (ix2 b c)
      = Rel.scale 3 7 (by omega) Rel.sel1 (fun f d => x (ix3 b f d)) (fun j k => W1 (ix3 1 j k))
          (fun k => b1 (ix2 1 k)) (fun k => W2 (ix3 1 k c)) (b2 (ix2 1 c)) := by
  unfold Term.Y1 Term.H1
  exact scale_read (B := 16384) (n := 3) (s := 7) (m := 1792) (C := 174) (by omega) rfl 1 (by omega) x Rel.sel1
    (Term.G1 x) (G1_apply x) dot_S16384x3x1792_S1792x256_S16384x3x256_2_0_01_1_n_n lastFirst1_1 dot_S16384x3x256_S256x174_S16384x3x174_2_0_01_1_n_n lastFirst2_1 W1 b1 W2 b2
    slices_S7x2048x256_S1x1792x256_1_0_0 shapeCasts_S1x1792x256_S1792x256 slices_S7x256_S1x256_1_0 shapeCasts_S1x256_S256
    bcast_S256_S1x1x256_2 bcast_S1x1x256_S16384x3x256_0_1_2 bcast_S_S16384x3x256
    slices_S7x256x174_S1x256x174_1_0_0 shapeCasts_S1x256x174_S256x174 slices_S7x174_S1x174_1_0 shapeCasts_S1x174_S174
    bcast_S174_S1x1x174_2 bcast_S1x1x174_S16384x3x174_0_1_2
    reducesTo_S16384x3x174_S16384x174_d1 (by decide) h_S_ b c

end Cert.ReferenceIdeal.Read

end
-- ==== Proof.RefRead2.lean ====
/-
  Scale 2 of the reference read at a batch row and a class: 3 relations of 6 frames each.
-/
import proofs.«120356_j936302870703_2_alg».proof.Proof.RefReadScale
import proofs.«120356_j936302870703_2_alg».proof.Proof.RefTerm

noncomputable section

namespace Cert.ReferenceIdeal.Read

open Idealize.ShloMosaic Idealize.ShloMosaic.ValueIdx Cert.ReferenceIdeal Cert.ReferenceIdeal.Gen

/-- Scale 2's start index at (r, j, 0), read signed and clamped into [0, 7], is the table entry sel2 r j. -/
theorem idx2_read (r : Fin 3) (j : Fin 6) :
    min (Term.idx2 (ix3 r j (0 : Fin 1))).toInt.toNat (8 - 1) = (Rel.sel2 r j).val := by
  fin_cases r <;> fin_cases j <;> rfl

/-- Scale 2's gathered frames after relu at (b, r, j · 256 + d): relu of the input at (b, sel2 r j, d). -/
theorem G2_apply (x : FVec Ideal S16384x8x256 .f32) (b : Fin 16384) (r : Fin 3) (j : Fin 6) (d : Fin 256) :
    Term.G2 x (ix3 b r ⟨j.val * 256 + d.val, split_lt (rfl : 6 * 256 = 1536) j d⟩)
      = Rel.relu (x (ix3 b (Rel.sel2 r j) d)) := by
  unfold Term.G2
  exact frames_relu_apply (B := 16384) (n := 3) (s := 6) (m := 1536) rfl
    gather_S16384x8x256_S3x6x1_S16384x3x6x256_03_1_n_n_1_2_163841256_wf x Term.idx2 Rel.sel2 idx2_read
    shapeCasts_S16384x3x6x256_S16384x3x1536 bcast_S_S16384x3x1536 b r j d

/-- Scale 2's first product contracts the merged frame axis against the weight rows. -/
theorem lastFirst1_2 : LastFirst dot_S16384x3x1536_S1536x256_S16384x3x256_2_0_01_1_n_n :=
  ⟨rfl, rfl, fun _ _ => rfl, fun _ _ => rfl, fun _ _ => rfl, fun _ _ => rfl, fun _ _ => rfl⟩

/-- Scale 2's second product contracts the hidden axis against the output weight rows. -/
theorem lastFirst2_2 : LastFirst dot_S16384x3x256_S256x174_S16384x3x174_2_0_01_1_n_n :=
  ⟨rfl, rfl, fun _ _ => rfl, fun _ _ => rfl, fun _ _ => rfl, fun _ _ => rfl, fun _ _ => rfl⟩

/-- Scale 2's contribution at batch row b and class c is the specification's scale over the table sel2 and the
    scale's parameters. -/
theorem Y2_apply (x : FVec Ideal S16384x8x256 .f32) (W1 : FVec Ideal S7x2048x256 .f32) (b1 : FVec Ideal S7x256 .f32)
    (W2 : FVec Ideal S7x256x174 .f32) (b2 : FVec Ideal S7x174 .f32) (b : Fin 16384) (c : Fin 174) :
    Term.Y2 x W1 b1 W2 b2 (ix2 b c)
      = Rel.scale 3 6 (by omega) Rel.sel2 (fun f d => x (ix3 b f d)) (fun j k => W1 (ix3 2 j k))
          (fun k => b1 (ix2 2 k)) (fun k => W2 (ix3 2 k c)) (b2 (ix2 2 c)) := by
  unfold Term.Y2 Term.H2
  exact scale_read (B := 16384) (n := 3) (s := 6) (m := 1536) (C := 174) (by omega) rfl 2 (by omega) x Rel.sel2
    (Term.G2 x) (G2_apply x) dot_S16384x3x1536_S1536x256_S16384x3x256_2_0_01_1_n_n lastFirst1_2 dot_S16384x3x256_S256x174_S16384x3x174_2_0_01_1_n_n lastFirst2_2 W1 b1 W2 b2
    slices_S7x2048x256_S1x1536x256_2_0_0 shapeCasts_S1x1536x256_S1536x256 slices_S7x256_S1x256_2_0 shapeCasts_S1x256_S256
    bcast_S256_S1x1x256_2 bcast_S1x1x256_S16384x3x256_0_1_2 bcast_S_S16384x3x256
    slices_S7x256x174_S1x256x174_2_0_0 shapeCasts_S1x256x174_S256x174 slices_S7x174_S1x174_2_0 shapeCasts_S1x174_S174
    bcast_S174_S1x1x174_2 bcast_S1x1x174_S16384x3x174_0_1_2
    reducesTo_S16384x3x174_S16384x174_d1 (by decide) h_S_ b c

end Cert.ReferenceIdeal.Read

end
-- ==== Proof.RefRead3.lean ====
/-
  Scale 3 of the reference read at a batch row and a class: 3 relations of 5 frames each.
-/
import proofs.«120356_j936302870703_2_alg».proof.Proof.RefReadScale
import proofs.«120356_j936302870703_2_alg».proof.Proof.RefTerm

noncomputable section

namespace Cert.ReferenceIdeal.Read

open Idealize.ShloMosaic Idealize.ShloMosaic.ValueIdx Cert.ReferenceIdeal Cert.ReferenceIdeal.Gen

/-- Scale 3's start index at (r, j, 0), read signed and clamped into [0, 7], is the table entry sel3 r j. -/
theorem idx3_read (r : Fin 3) (j : Fin 5) :
    min (Term.idx3 (ix3 r j (0 : Fin 1))).toInt.toNat (8 - 1) = (Rel.sel3 r j).val := by
  fin_cases r <;> fin_cases j <;> rfl

/-- Scale 3's gathered frames after relu at (b, r, j · 256 + d): relu of the input at (b, sel3 r j, d). -/
theorem G3_apply (x : FVec Ideal S16384x8x256 .f32) (b : Fin 16384) (r : Fin 3) (j : Fin 5) (d : Fin 256) :
    Term.G3 x (ix3 b r ⟨j.val * 256 + d.val, split_lt (rfl : 5 * 256 = 1280) j d⟩)
      = Rel.relu (x (ix3 b (Rel.sel3 r j) d)) := by
  unfold Term.G3
  exact frames_relu_apply (B := 16384) (n := 3) (s := 5) (m := 1280) rfl
    gather_S16384x8x256_S3x5x1_S16384x3x5x256_03_1_n_n_1_2_163841256_wf x Term.idx3 Rel.sel3 idx3_read
    shapeCasts_S16384x3x5x256_S16384x3x1280 bcast_S_S16384x3x1280 b r j d

/-- Scale 3's first product contracts the merged frame axis against the weight rows. -/
theorem lastFirst1_3 : LastFirst dot_S16384x3x1280_S1280x256_S16384x3x256_2_0_01_1_n_n :=
  ⟨rfl, rfl, fun _ _ => rfl, fun _ _ => rfl, fun _ _ => rfl, fun _ _ => rfl, fun _ _ => rfl⟩

/-- Scale 3's second product contracts the hidden axis against the output weight rows. -/
theorem lastFirst2_3 : LastFirst dot_S16384x3x256_S256x174_S16384x3x174_2_0_01_1_n_n :=
  ⟨rfl, rfl, fun _ _ => rfl, fun _ _ => rfl, fun _ _ => rfl, fun _ _ => rfl, fun _ _ => rfl⟩

/-- Scale 3's contribution at batch row b and class c is the specification's scale over the table sel3 and the
    scale's parameters. -/
theorem Y3_apply (x : FVec Ideal S16384x8x256 .f32) (W1 : FVec Ideal S7x2048x256 .f32) (b1 : FVec Ideal S7x256 .f32)
    (W2 : FVec Ideal S7x256x174 .f32) (b2 : FVec Ideal S7x174 .f32) (b : Fin 16384) (c : Fin 174) :
    Term.Y3 x W1 b1 W2 b2 (ix2 b c)
      = Rel.scale 3 5 (by omega) Rel.sel3 (fun f d => x (ix3 b f d)) (fun j k => W1 (ix3 3 j k))
          (fun k => b1 (ix2 3 k)) (fun k => W2 (ix3 3 k c)) (b2 (ix2 3 c)) := by
  unfold Term.Y3 Term.H3
  exact scale_read (B := 16384) (n := 3) (s := 5) (m := 1280) (C := 174) (by omega) rfl 3 (by omega) x Rel.sel3
    (Term.G3 x) (G3_apply x) dot_S16384x3x1280_S1280x256_S16384x3x256_2_0_01_1_n_n lastFirst1_3 dot_S16384x3x256_S256x174_S16384x3x174_2_0_01_1_n_n lastFirst2_3 W1 b1 W2 b2
    slices_S7x2048x256_S1x1280x256_3_0_0 shapeCasts_S1x1280x256_S1280x256 slices_S7x256_S1x256_3_0 shapeCasts_S1x256_S256
    bcast_S256_S1x1x256_2 bcast_S1x1x256_S16384x3x256_0_1_2 bcast_S_S16384x3x256
    slices_S7x256x174_S1x256x174_3_0_0 shapeCasts_S1x256x174_S256x174 slices_S7x174_S1x174_3_0 shapeCasts_S1x174_S174
    bcast_S174_S1x1x174_2 bcast_S1x1x174_S16384x3x174_0_1_2
    reducesTo_S16384x3x174_S16384x174_d1 (by decide) h_S_ b c

end Cert.ReferenceIdeal.Read

end
-- ==== Proof.RefRead4.lean ====
/-
  Scale 4 of the reference read at a batch row and a class: 3 relations of 4 frames each.
-/
import proofs.«120356_j936302870703_2_alg».proof.Proof.RefReadScale
import proofs.«120356_j936302870703_2_alg».proof.Proof.RefTerm

noncomputable section

namespace Cert.ReferenceIdeal.Read

open Idealize.ShloMosaic Idealize.ShloMosaic.ValueIdx Cert.ReferenceIdeal Cert.ReferenceIdeal.Gen

/-- Scale 4's start index at (r, j, 0), read signed and clamped into [0, 7], is the table entry sel4 r j. -/
theorem idx4_read (r : Fin 3) (j : Fin 4) :
    min (Term.idx4 (ix3 r j (0 : Fin 1))).toInt.toNat (8 - 1) = (Rel.sel4 r j).val := by
  fin_cases r <;> fin_cases j <;> rfl

/-- Scale 4's gathered frames after relu at (b, r, j · 256 + d): relu of the input at (b, sel4 r j, d). -/
theorem G4_apply (x : FVec Ideal S16384x8x256 .f32) (b : Fin 16384) (r : Fin 3) (j : Fin 4) (d : Fin 256) :
    Term.G4 x (ix3 b r ⟨j.val * 256 + d.val, split_lt (rfl : 4 * 256 = 1024) j d⟩)
      = Rel.relu (x (ix3 b (Rel.sel4 r j) d)) := by
  unfold Term.G4
  exact frames_relu_apply (B := 16384) (n := 3) (s := 4) (m := 1024) rfl
    gather_S16384x8x256_S3x4x1_S16384x3x4x256_03_1_n_n_1_2_163841256_wf x Term.idx4 Rel.sel4 idx4_read
    shapeCasts_S16384x3x4x256_S16384x3x1024 bcast_S_S16384x3x1024 b r j d

/-- Scale 4's first product contracts the merged frame axis against the weight rows. -/
theorem lastFirst1_4 : LastFirst dot_S16384x3x1024_S1024x256_S16384x3x256_2_0_01_1_n_n :=
  ⟨rfl, rfl, fun _ _ => rfl, fun _ _ => rfl, fun _ _ => rfl, fun _ _ => rfl, fun _ _ => rfl⟩

/-- Scale 4's second product contracts the hidden axis against the output weight rows. -/
theorem lastFirst2_4 : LastFirst dot_S16384x3x256_S256x174_S16384x3x174_2_0_01_1_n_n :=
  ⟨rfl, rfl, fun _ _ => rfl, fun _ _ => rfl, fun _ _ => rfl, fun _ _ => rfl, fun _ _ => rfl⟩

/-- Scale 4's contribution at batch row b and class c is the specification's scale over the table sel4 and the
    scale's parameters. -/
theorem Y4_apply (x : FVec Ideal S16384x8x256 .f32) (W1 : FVec Ideal S7x2048x256 .f32) (b1 : FVec Ideal S7x256 .f32)
    (W2 : FVec Ideal S7x256x174 .f32) (b2 : FVec Ideal S7x174 .f32) (b : Fin 16384) (c : Fin 174) :
    Term.Y4 x W1 b1 W2 b2 (ix2 b c)
      = Rel.scale 3 4 (by omega) Rel.sel4 (fun f d => x (ix3 b f d)) (fun j k => W1 (ix3 4 j k))
          (fun k => b1 (ix2 4 k)) (fun k => W2 (ix3 4 k c)) (b2 (ix2 4 c)) := by
  unfold Term.Y4 Term.H4
  exact scale_read (B := 16384) (n := 3) (s := 4) (m := 1024) (C := 174) (by omega) rfl 4 (by omega) x Rel.sel4
    (Term.G4 x) (G4_apply x) dot_S16384x3x1024_S1024x256_S16384x3x256_2_0_01_1_n_n lastFirst1_4 dot_S16384x3x256_S256x174_S16384x3x174_2_0_01_1_n_n lastFirst2_4 W1 b1 W2 b2
    slices_S7x2048x256_S1x1024x256_4_0_0 shapeCasts_S1x1024x256_S1024x256 slices_S7x256_S1x256_4_0 shapeCasts_S1x256_S256
    bcast_S256_S1x1x256_2 bcast_S1x1x256_S16384x3x256_0_1_2 bcast_S_S16384x3x256
    slices_S7x256x174_S1x256x174_4_0_0 shapeCasts_S1x256x174_S256x174 slices_S7x174_S1x174_4_0 shapeCasts_S1x174_S174
    bcast_S174_S1x1x174_2 bcast_S1x1x174_S16384x3x174_0_1_2
    reducesTo_S16384x3x174_S16384x174_d1 (by decide) h_S_ b c

end Cert.ReferenceIdeal.Read

end
-- ==== Proof.RefRead5.lean ====
/-
  Scale 5 of the reference read at a batch row and a class: 3 relations of 3 frames each.
-/
import proofs.«120356_j936302870703_2_alg».proof.Proof.RefReadScale
import proofs.«120356_j936302870703_2_alg».proof.Proof.RefTerm

noncomputable section

namespace Cert.ReferenceIdeal.Read

open Idealize.ShloMosaic Idealize.ShloMosaic.ValueIdx Cert.ReferenceIdeal Cert.ReferenceIdeal.Gen

/-- Scale 5's start index at (r, j, 0), read signed and clamped into [0, 7], is the table entry sel5 r j. -/
theorem idx5_read (r : Fin 3) (j : Fin 3) :
    min (Term.idx5 (ix3 r j (0 : Fin 1))).toInt.toNat (8 - 1) = (Rel.sel5 r j).val := by
  fin_cases r <;> fin_cases j <;> rfl

/-- Scale 5's gathered frames after relu at (b, r, j · 256 + d): relu of the input at (b, sel5 r j, d). -/
theorem G5_apply (x : FVec Ideal S16384x8x256 .f32) (b : Fin 16384) (r : Fin 3) (j : Fin 3) (d : Fin 256) :
    Term.G5 x (ix3 b r ⟨j.val * 256 + d.val, split_lt (rfl : 3 * 256 = 768) j d⟩)
      = Rel.relu (x (ix3 b (Rel.sel5 r j) d)) := by
  unfold Term.G5
  exact frames_relu_apply (B := 16384) (n := 3) (s := 3) (m := 768) rfl
    gather_S16384x8x256_S3x3x1_S16384x3x3x256_03_1_n_n_1_2_163841256_wf x Term.idx5 Rel.sel5 idx5_read
    shapeCasts_S16384x3x3x256_S16384x3x768 bcast_S_S16384x3x768 b r j d

/-- Scale 5's first product contracts the merged frame axis against the weight rows. -/
theorem lastFirst1_5 : LastFirst dot_S16384x3x768_S768x256_S16384x3x256_2_0_01_1_n_n :=
  ⟨rfl, rfl, fun _ _ => rfl, fun _ _ => rfl, fun _ _ => rfl, fun _ _ => rfl, fun _ _ => rfl⟩

/-- Scale 5's second product contracts the hidden axis against the output weight rows. -/
theorem lastFirst2_5 : LastFirst dot_S16384x3x256_S256x174_S16384x3x174_2_0_01_1_n_n :=
  ⟨rfl, rfl, fun _ _ => rfl, fun _ _ => rfl, fun _ _ => rfl, fun _ _ => rfl, fun _ _ => rfl⟩

/-- Scale 5's contribution at batch row b and class c is the specification's scale over the table sel5 and the
    scale's parameters. -/
theorem Y5_apply (x : FVec Ideal S16384x8x256 .f32) (W1 : FVec Ideal S7x2048x256 .f32) (b1 : FVec Ideal S7x256 .f32)
    (W2 : FVec Ideal S7x256x174 .f32) (b2 : FVec Ideal S7x174 .f32) (b : Fin 16384) (c : Fin 174) :
    Term.Y5 x W1 b1 W2 b2 (ix2 b c)
      = Rel.scale 3 3 (by omega) Rel.sel5 (fun f d => x (ix3 b f d)) (fun j k => W1 (ix3 5 j k))
          (fun k => b1 (ix2 5 k)) (fun k => W2 (ix3 5 k c)) (b2 (ix2 5 c)) := by
  unfold Term.Y5 Term.H5
  exact scale_read (B := 16384) (n := 3) (s := 3) (m := 768) (C := 174) (by omega) rfl 5 (by omega) x Rel.sel5
    (Term.G5 x) (G5_apply x) dot_S16384x3x768_S768x256_S16384x3x256_2_0_01_1_n_n lastFirst1_5 dot_S16384x3x256_S256x174_S16384x3x174_2_0_01_1_n_n lastFirst2_5 W1 b1 W2 b2
    slices_S7x2048x256_S1x768x256_5_0_0 shapeCasts_S1x768x256_S768x256 slices_S7x256_S1x256_5_0 shapeCasts_S1x256_S256
    bcast_S256_S1x1x256_2 bcast_S1x1x256_S16384x3x256_0_1_2 bcast_S_S16384x3x256
    slices_S7x256x174_S1x256x174_5_0_0 shapeCasts_S1x256x174_S256x174 slices_S7x174_S1x174_5_0 shapeCasts_S1x174_S174
    bcast_S174_S1x1x174_2 bcast_S1x1x174_S16384x3x174_0_1_2
    reducesTo_S16384x3x174_S16384x174_d1 (by decide) h_S_ b c

end Cert.ReferenceIdeal.Read

end
-- ==== Proof.RefRead6.lean ====
/-
  Scale 6 of the reference read at a batch row and a class: 3 relations of 2 frames each.
-/
import proofs.«120356_j936302870703_2_alg».proof.Proof.RefReadScale
import proofs.«120356_j936302870703_2_alg».proof.Proof.RefTerm

noncomputable section

namespace Cert.ReferenceIdeal.Read

open Idealize.ShloMosaic Idealize.ShloMosaic.ValueIdx Cert.ReferenceIdeal Cert.ReferenceIdeal.Gen

/-- Scale 6's start index at (r, j, 0), read signed and clamped into [0, 7], is the table entry sel6 r j. -/
theorem idx6_read (r : Fin 3) (j : Fin 2) :
    min (Term.idx6 (ix3 r j (0 : Fin 1))).toInt.toNat (8 - 1) = (Rel.sel6 r j).val := by
  fin_cases r <;> fin_cases j <;> rfl

/-- Scale 6's gathered frames after relu at (b, r, j · 256 + d): relu of the input at (b, sel6 r j, d). -/
theorem G6_apply (x : FVec Ideal S16384x8x256 .f32) (b : Fin 16384) (r : Fin 3) (j : Fin 2) (d : Fin 256) :
    Term.G6 x (ix3 b r ⟨j.val * 256 + d.val, split_lt (rfl : 2 * 256 = 512) j d⟩)
      = Rel.relu (x (ix3 b (Rel.sel6 r j) d)) := by
  unfold Term.G6
  exact frames_relu_apply (B := 16384) (n := 3) (s := 2) (m := 512) rfl
    gather_S16384x8x256_S3x2x1_S16384x3x2x256_03_1_n_n_1_2_163841256_wf x Term.idx6 Rel.sel6 idx6_read
    shapeCasts_S16384x3x2x256_S16384x3x512 bcast_S_S16384x3x512 b r j d

/-- Scale 6's first product contracts the merged frame axis against the weight rows. -/
theorem lastFirst1_6 : LastFirst dot_S16384x3x512_S512x256_S16384x3x256_2_0_01_1_n_n :=
  ⟨rfl, rfl, fun _ _ => rfl, fun _ _ => rfl, fun _ _ => rfl, fun _ _ => rfl, fun _ _ => rfl⟩

/-- Scale 6's second product contracts the hidden axis against the output weight rows. -/
theorem lastFirst2_6 : LastFirst dot_S16384x3x256_S256x174_S16384x3x174_2_0_01_1_n_n :=
  ⟨rfl, rfl, fun _ _ => rfl, fun _ _ => rfl, fun _ _ => rfl, fun _ _ => rfl, fun _ _ => rfl⟩

/-- Scale 6's contribution at batch row b and class c is the specification's scale over the table sel6 and the
    scale's parameters. -/
theorem Y6_apply (x : FVec Ideal S16384x8x256 .f32) (W1 : FVec Ideal S7x2048x256 .f32) (b1 : FVec Ideal S7x256 .f32)
    (W2 : FVec Ideal S7x256x174 .f32) (b2 : FVec Ideal S7x174 .f32) (b : Fin 16384) (c : Fin 174) :
    Term.Y6 x W1 b1 W2 b2 (ix2 b c)
      = Rel.scale 3 2 (by omega) Rel.sel6 (fun f d => x (ix3 b f d)) (fun j k => W1 (ix3 6 j k))
          (fun k => b1 (ix2 6 k)) (fun k => W2 (ix3 6 k c)) (b2 (ix2 6 c)) := by
  unfold Term.Y6 Term.H6
  exact scale_read (B := 16384) (n := 3) (s := 2) (m := 512) (C := 174) (by omega) rfl 6 (by omega) x Rel.sel6
    (Term.G6 x) (G6_apply x) dot_S16384x3x512_S512x256_S16384x3x256_2_0_01_1_n_n lastFirst1_6 dot_S16384x3x256_S256x174_S16384x3x174_2_0_01_1_n_n lastFirst2_6 W1 b1 W2 b2
    slices_S7x2048x256_S1x512x256_6_0_0 shapeCasts_S1x512x256_S512x256 slices_S7x256_S1x256_6_0 shapeCasts_S1x256_S256
    bcast_S256_S1x1x256_2 bcast_S1x1x256_S16384x3x256_0_1_2 bcast_S_S16384x3x256
    slices_S7x256x174_S1x256x174_6_0_0 shapeCasts_S1x256x174_S256x174 slices_S7x174_S1x174_6_0 shapeCasts_S1x174_S174
    bcast_S174_S1x1x174_2 bcast_S1x1x174_S16384x3x174_0_1_2
    reducesTo_S16384x3x174_S16384x174_d1 (by decide) h_S_ b c

end Cert.ReferenceIdeal.Read

end
-- ==== Proof.Bridge.lean ====
/-
  The reference's result array is the kernel's.

  The reference adds the seven scales' contributions; each contribution, read at (row, class), is that scale's sum
  over its relations of the output layer applied to the relu'd hidden layer of the relu'd picked frames. That is,
  entry by entry, the function `Gfin` of the arguments that the kernel's result array was shown to hold.
-/
import proofs.«120356_j936302870703_2_alg».proof.Proof.RefRead0
import proofs.«120356_j936302870703_2_alg».proof.Proof.RefRead1
import proofs.«120356_j936302870703_2_alg».proof.Proof.RefRead2
import proofs.«120356_j936302870703_2_alg».proof.Proof.RefRead3
import proofs.«120356_j936302870703_2_alg».proof.Proof.RefRead4
import proofs.«120356_j936302870703_2_alg».proof.Proof.RefRead5
import proofs.«120356_j936302870703_2_alg».proof.Proof.RefRead6
import proofs.«120356_j936302870703_2_alg».proof.Proof.KArray

noncomputable section

namespace Cert.Bridge

open Idealize.ShloMosaic Idealize.ShloMosaic.ValueIdx Cert.ReferenceIdeal

/-- The reference's composed result, as an array, is `Gfin` of the same arguments. -/
theorem result_eq (x : FVec Ideal S16384x8x256 .f32) (W1 : FVec Ideal S7x2048x256 .f32) (b1 : FVec Ideal S7x256 .f32)
    (W2 : FVec Ideal S7x256x174 .f32) (b2 : FVec Ideal S7x174 .f32) :
    Term.total x W1 b1 W2 b2 = Cert.KernelIdeal.Arr.Gfin x W1 b1 W2 b2 := by
  funext i
  obtain ⟨b, c, rfl⟩ : ∃ (b : Fin 16384) (c : Fin 174), i = ix2 b c := ⟨i 0, i 1, eq_ix2 i⟩
  unfold Term.total
  show Term.Y0 x W1 b1 W2 b2 (ix2 b c) + Term.Y1 x W1 b1 W2 b2 (ix2 b c) + Term.Y2 x W1 b1 W2 b2 (ix2 b c)
    + Term.Y3 x W1 b1 W2 b2 (ix2 b c) + Term.Y4 x W1 b1 W2 b2 (ix2 b c) + Term.Y5 x W1 b1 W2 b2 (ix2 b c)
    + Term.Y6 x W1 b1 W2 b2 (ix2 b c) = _
  rw [Read.Y0_apply, Read.Y1_apply, Read.Y2_apply, Read.Y3_apply, Read.Y4_apply, Read.Y5_apply, Read.Y6_apply]
  rfl

end Cert.Bridge

end
-- ==== Proof.lean ====
/-
  A multi-scale relation module over 8 frames of 256 features: 7 scales, 19 relations; each relation is a two-layer
  perceptron on the relu'd concatenation of its frames, and the result is the sum over all relations.

  The kernel works on blocks of 1024 rows. Per relation it accumulates one 256-wide matrix product per picked frame,
  adds the bias and applies relu; per scale it adds the hidden layers of the scale's relations, applies the second layer
  once and adds the relation count times its bias. The reference gathers the frames of every relation, applies both
  layers per relation and sums. At the exact instance the two results are one function of the arguments: the frame
  products are the blocks of the reference's long contraction; the second layer distributes over the sum of hidden
  layers because each is a relu, hence nonnegative (no finiteness is used); and n · b = b + … + b.

  The kernel's frames and its blockwise run are the generated modules'; the reference's run, the value of the
  kernel's block, the reading of the reference's operations at an index, and the algebra are the modules imported here.
  The idealization removed nineteen round trips through the 16-bit format, one per relation: `preserves`.
-/
import proofs.«120356_j936302870703_2_alg».proof.Defs
import proofs.«120356_j936302870703_2_alg».proof.Proof.Gen.Kernel
import proofs.«120356_j936302870703_2_alg».proof.Proof.Gen.Kernel.Skeleton
import proofs.«120356_j936302870703_2_alg».proof.Proof.Gen.Kernel.Launch
import proofs.«120356_j936302870703_2_alg».proof.Proof.Gen.Kernel.Points
import proofs.«120356_j936302870703_2_alg».proof.Proof.Gen.Kernel.Frame
import proofs.«120356_j936302870703_2_alg».proof.Proof.Gen.KernelIdeal
import proofs.«120356_j936302870703_2_alg».proof.Proof.Gen.KernelIdeal.Skeleton
import proofs.«120356_j936302870703_2_alg».proof.Proof.Gen.KernelIdeal.Launch
import proofs.«120356_j936302870703_2_alg».proof.Proof.Gen.KernelIdeal.Points
import proofs.«120356_j936302870703_2_alg».proof.Proof.Gen.KernelIdeal.Frame
import proofs.«120356_j936302870703_2_alg».proof.Proof.Gen.KernelIdeal.Value
import proofs.«120356_j936302870703_2_alg».proof.Proof.Gen.ReferenceIdeal
import proofs.«120356_j936302870703_2_alg».proof.Proof.Gen.Pre_finite_inputs
import proofs.«120356_j936302870703_2_alg».proof.Proof.RefRun
import proofs.«120356_j936302870703_2_alg».proof.Proof.KPay
import proofs.«120356_j936302870703_2_alg».proof.Proof.KArray
import proofs.«120356_j936302870703_2_alg».proof.Proof.Bridge
import Idealize.ShloMosaic.Adequacy
import Idealize.ShloMosaic.Init

noncomputable section

namespace Cert.Proof

open Idealize.ShloMosaic Idealize.ShloMosaic.TcCoe Idealize.SL.Sem

/-- A round trip through the 16-bit format is the identity on the extended reals. -/
theorem round_trip : IdealRules.truncf_extf.Statement Cert.KernelIdeal.S1024x256 .f32 .bf16 :=
  IdealRules.truncf_extf.statement _ .f32 .bf16

/-- One conjunct per relation's hidden layer. -/
theorem preserves : Cert.preserves_Kernel_KernelIdeal :=
  ⟨round_trip, round_trip, round_trip, round_trip, round_trip, round_trip, round_trip, round_trip, round_trip, round_trip,
   round_trip, round_trip, round_trip, round_trip, round_trip, round_trip, round_trip, round_trip, round_trip⟩

/-- Both idealized programs end with the result array at `Gfin` of arguments that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Arr.run m ρ Cert.KernelIdeal.Pay.out_apply, ?_⟩
  refine (θ_run Cert.ReferenceIdeal.defs _ _).mono (fun _ h c => ⟨(h c).1.trans ?_, (h c).2⟩)
    (Cert.ReferenceIdeal.Run.run m' ρ')
  rw [(hagree c).1, (hagree c).2.1, (hagree c).2.2.1, (hagree c).2.2.2.1, (hagree c).2.2.2.2]
  exact Cert.Bridge.result_eq _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Run.run m ρ),
  preserves,
  algebraic⟩

end Cert.Proof

end
